-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v217)) (v1 : (c : Dev Cert.KernelIdeal.nD) → Buf (Elt Ideal) ((c.tc : Thread Cert.KernelIdeal.nD Cert.KernelIdeal.τ).loc Cert.KernelIdeal.main_v261)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v217) = v0 c
          ∧ r.2.mem ((c.tc : Thread Cert.KernelIdeal.nD Cert.KernelIdeal.τ).loc Cert.KernelIdeal.main_v261) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v292) = v0 c
          ∧ r.2.mem ((c.tc : Thread Cert.ReferenceIdeal.nD Cert.ReferenceIdeal.τ).loc Cert.ReferenceIdeal.main_v293) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S2x1000000 : Shape := ⟨2, ![2, 1000000]⟩
abbrev S2x600000 : Shape := ⟨2, ![2, 600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg14 : FVec F S128 .f32) (main_arg15 : FVec F S64x128 .f32) (main_arg16 : FVec F S128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x128 .f32 := Host.absf main_arg15
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg10 : FVec F S64 .f32) (main_arg11 : FVec F S64x128 .f32) (main_arg12 : FVec F S128 .f32) (main_arg13 : FVec F S64x128 .f32) (main_arg14 : FVec F S128 .f32) (main_arg15 : FVec F S64x128 .f32) (main_arg16 : FVec F S128 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg11
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64x128 .f32 := Host.absf main_arg13
  let main_cst_18 : FVec F S_ .f32 := constant S_ .f32 0x7F800000#32
  let main_v50 : FVec F S64x128 .f32 := broadcastInDim S64x128 ![] bcast_S_S64x128 main_cst_18
  fn_part3 (F := F) main_arg14 main_arg15 main_arg16 main_v48 main_v49 main_v50

def fn_part1 {F : FTy → Type} [FloatOps F] (main_arg7 : FVec F S128x64 .f32) (main_arg8 : FVec F S64 .f32) (main_arg9 : FVec F S128x64 .f32) (main_arg10 : FVec F S64 .f32) (main_arg11 : FVec F S64x128 .f32) (main_arg12 : FVec F S128 .f32) (main_arg13 : FVec F S64x128 .f32) (main_arg14 : FVec F S128 .f32) (main_arg15 : FVec F S64x128 .f32) (main_arg16 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg7
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg9
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg10 main_arg11 main_arg12 main_arg13 main_arg14 main_arg15 main_arg16 main_v33

def fn {F : FTy → Type} [FloatOps F] (main_arg0 : FVec F S200000x128 .f32) (main_arg1 : FVec F S100000x128 .f32) (main_arg2 : IVec S2x1000000 32) (main_arg3 : IVec S2x600000 32) (main_arg4 : IVec S2x600000 32) (main_arg5 : FVec F S128x64 .f32) (main_arg6 : FVec F S64 .f32) (main_arg7 : FVec F S128x64 .f32) (main_arg8 : FVec F S64 .f32) (main_arg9 : FVec F S128x64 .f32) (main_arg10 : FVec F S64 .f32) (main_arg11 : FVec F S64x128 .f32) (main_arg12 : FVec F S128 .f32) (main_arg13 : FVec F S64x128 .f32) (main_arg14 : FVec F S128 .f32) (main_arg15 : FVec F S64x128 .f32) (main_arg16 : FVec F S128 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x64 .f32 := Host.absf main_arg5
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_arg15 main_arg16 main_v13 main_v16
-- ==== Kernel.lean ====
abbrev S200000x128 : Shape := ⟨2, ![200000, 128]⟩
abbrev S100000x128 : Shape := ⟨2, ![100000, 128]⟩
abbrev S2x1000000 : Shape := ⟨2, ![2, 1000000]⟩
abbrev S2x600000 : Shape := ⟨2, ![2, 600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S200000 : Shape := ⟨1, ![200000]⟩
abbrev S1000000x1 : Shape := ⟨2, ![1000000, 1]⟩
abbrev S200000x64 : Shape := ⟨2, ![200000, 64]⟩
abbrev S4000x128 : Shape := ⟨2, ![4000, 128]⟩
abbrev S4000x64 : Shape := ⟨2, ![4000, 64]⟩
abbrev S1000000x64 : Shape := ⟨2, ![1000000, 64]⟩
abbrev S200000x1 : Shape := ⟨2, ![200000, 1]⟩
abbrev S1x600000 : Shape := ⟨2, ![1, 600000]⟩
abbrev S600000 : Shape := ⟨1, ![600000]⟩
abbrev S600000x1 : Shape := ⟨2, ![600000, 1]⟩
abbrev S600000x64 : Shape := ⟨2, ![600000, 64]⟩
abbrev S1x64 : Shape := ⟨2, ![1, 64]⟩
abbrev S4000x1 : Shape := ⟨2, ![4000, 1]⟩
abbrev S100000 : Shape := ⟨1, ![100000]⟩
abbrev S100000x64 : Shape := ⟨2, ![100000, 64]⟩
abbrev S100000x1 : Shape := ⟨2, ![100000, 1]⟩
abbrev S1000000x128 : Shape := ⟨2, ![1000000, 128]⟩
abbrev S600000x128 : Shape := ⟨2, ![600000, 128]⟩
abbrev S1x128 : Shape := ⟨2, ![1, 128]⟩

abbrev nBuf : Space → Nat
  | .hbm => 339
  | .vmem => 78
  | .smem => 0
  | _ => 0

abbrev hbmTy0_0 (i : Nat) : BufTy := match i % 128 with
  | 0 => ⟨S200000x128, .f32⟩
  | 1 => ⟨S100000x128, .f32⟩
  | 2 => ⟨S2x1000000, .i32⟩
  | 3 => ⟨S2x600000, .i32⟩
  | 4 => ⟨S2x600000, .i32⟩
  | 5 => ⟨S128x64, .f32⟩
  | 6 => ⟨S64, .f32⟩
  | 7 => ⟨S128x64, .f32⟩
  | 8 => ⟨S64, .f32⟩
  | 9 => ⟨S128x64, .f32⟩
  | 10 => ⟨S64, .f32⟩
  | 11 => ⟨S64x128, .f32⟩
  | 12 => ⟨S128, .f32⟩
  | 13 => ⟨S64x128, .f32⟩
  | 14 => ⟨S128, .f32⟩
  | 15 => ⟨S64x128, .f32⟩
  | 16 => ⟨S128, .f32⟩
  | 17 => ⟨S1x1000000, .i32⟩
  | 18 => ⟨S1000000, .i32⟩
  | 19 => ⟨S1x1000000, .i32⟩
  | 20 => ⟨S1000000, .i32⟩
  | 21 => ⟨S_, .f32⟩
  | 22 => ⟨S1000000, .f32⟩
  | 23 => ⟨S_, .f32⟩
  | 24 => ⟨S200000, .f32⟩
  | 25 => ⟨S1000000x1, .i32⟩
  | 26 => ⟨S200000, .f32⟩
  | 27 => ⟨S_, .f32⟩
  | 28 => ⟨S200000, .f32⟩
  | 29 => ⟨S200000, .f32⟩
  | 30 => ⟨S200000, .f32⟩
  | 31 => ⟨S200000x64, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000, .f32⟩
  | 50 => ⟨S1000000, .f32⟩
  | 51 => ⟨S1000000x1, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1000000x64, .f32⟩
  | 62 => ⟨S1000000x64, .f32⟩
  | 63 => ⟨S_, .f32⟩
  | 64 => ⟨S200000x64, .f32⟩
  | 65 => ⟨S1000000x1, .i32⟩
  | 66 => ⟨S200000x64, .f32⟩
  | 67 => ⟨S200000, .f32⟩
  | 68 => ⟨S200000x1, .f32⟩
  | 69 => ⟨S1x600000, .i32⟩
  | 70 => ⟨S600000, .i32⟩
  | 71 => ⟨S1x600000, .i32⟩
  | 72 => ⟨S600000, .i32⟩
  | 73 => ⟨S_, .f32⟩
  | 74 => ⟨S600000, .f32⟩
  | 75 => ⟨S_, .f32⟩
  | 76 => ⟨S200000, .f32⟩
  | 77 => ⟨S600000x1, .i32⟩
  | 78 => ⟨S200000, .f32⟩
  | 79 => ⟨S_, .f32⟩
  | 80 => ⟨S200000, .f32⟩
  | 81 => ⟨S200000, .f32⟩
  | 82 => ⟨S200000, .f32⟩
  | 83 => ⟨S200000x64, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000, .f32⟩
  | 93 => ⟨S_, .i32⟩
  | 94 => ⟨S600000, .i32⟩
  | 95 => ⟨S600000, .i1⟩
  | 96 => ⟨S_, .i32⟩
  | 97 => ⟨S600000, .i32⟩
  | 98 => ⟨S600000, .i32⟩
  | 99 => ⟨S600000, .i32⟩
  | 100 => ⟨S600000x1, .i32⟩
  | 101 => ⟨S600000, .f32⟩
  | 102 => ⟨S600000, .f32⟩
  | 103 => ⟨S600000x1, .f32⟩
  | 104 => ⟨S_, .i32⟩
  | 105 => ⟨S600000, .i32⟩
  | 106 => ⟨S600000, .i1⟩
  | 107 => ⟨S_, .i32⟩
  | 108 => ⟨S600000, .i32⟩
  | 109 => ⟨S600000, .i32⟩
  | 110 => ⟨S600000, .i32⟩
  | 111 => ⟨S600000x1, .i32⟩
  | 112 => ⟨S600000x64, .f32⟩
  | 113 => ⟨S600000x64, .f32⟩
  | 114 => ⟨S600000x64, .f32⟩
  | 115 => ⟨S_, .f32⟩
  | 116 => ⟨S200000x64, .f32⟩
  | 117 => ⟨S600000x1, .i32⟩
  | 118 => ⟨S200000x64, .f32⟩
  | 119 => ⟨S200000, .f32⟩
  | 120 => ⟨S200000x1, .f32⟩
  | 121 => ⟨S64, .f32⟩
  | 122 => ⟨S1x64, .f32⟩
  | 123 => ⟨S200000x64, .f32⟩
  | 124 => ⟨S1x600000, .i32⟩
  | 125 => ⟨S600000, .i32⟩
  | 126 => ⟨S1x600000, .i32⟩
  | 127 => ⟨S600000, .i32⟩
  | _ => ⟨S200000x128, .f32⟩

abbrev hbmTy0_1 (i : Nat) : BufTy := match i % 128 with
  | 0 => ⟨S_, .f32⟩
  | 1 => ⟨S600000, .f32⟩
  | 2 => ⟨S_, .f32⟩
  | 3 => ⟨S100000, .f32⟩
  | 4 => ⟨S600000x1, .i32⟩
  | 5 => ⟨S100000, .f32⟩
  | 6 => ⟨S_, .f32⟩
  | 7 => ⟨S100000, .f32⟩
  | 8 => ⟨S100000, .f32⟩
  | 9 => ⟨S100000, .f32⟩
  | 10 => ⟨S100000x64, .f32⟩
  | 11 => ⟨S_, .i32⟩
  | 12 => ⟨S600000, .i32⟩
  | 13 => ⟨S600000, .i1⟩
  | 14 => ⟨S_, .i32⟩
  | 15 => ⟨S600000, .i32⟩
  | 16 => ⟨S600000, .i32⟩
  | 17 => ⟨S600000, .i32⟩
  | 18 => ⟨S600000x1, .i32⟩
  | 19 => ⟨S600000, .f32⟩
  | 20 => ⟨S_, .i32⟩
  | 21 => ⟨S600000, .i32⟩
  | 22 => ⟨S600000, .i1⟩
  | 23 => ⟨S_, .i32⟩
  | 24 => ⟨S600000, .i32⟩
  | 25 => ⟨S600000, .i32⟩
  | 26 => ⟨S600000, .i32⟩
  | 27 => ⟨S600000x1, .i32⟩
  | 28 => ⟨S600000, .f32⟩
  | 29 => ⟨S600000, .f32⟩
  | 30 => ⟨S600000x1, .f32⟩
  | 31 => ⟨S_, .i32⟩
  | 32 => ⟨S600000, .i32⟩
  | 33 => ⟨S600000, .i1⟩
  | 34 => ⟨S_, .i32⟩
  | 35 => ⟨S600000, .i32⟩
  | 36 => ⟨S600000, .i32⟩
  | 37 => ⟨S600000, .i32⟩
  | 38 => ⟨S600000x1, .i32⟩
  | 39 => ⟨S600000x64, .f32⟩
  | 40 => ⟨S600000x64, .f32⟩
  | 41 => ⟨S600000x64, .f32⟩
  | 42 => ⟨S_, .f32⟩
  | 43 => ⟨S100000x64, .f32⟩
  | 44 => ⟨S600000x1, .i32⟩
  | 45 => ⟨S100000x64, .f32⟩
  | 46 => ⟨S100000, .f32⟩
  | 47 => ⟨S100000x1, .f32⟩
  | 48 => ⟨S1x64, .f32⟩
  | 49 => ⟨S100000x64, .f32⟩
  | 50 => ⟨S1x1000000, .i32⟩
  | 51 => ⟨S1000000, .i32⟩
  | 52 => ⟨S1x1000000, .i32⟩
  | 53 => ⟨S1000000, .i32⟩
  | 54 => ⟨S_, .f32⟩
  | 55 => ⟨S1000000, .f32⟩
  | 56 => ⟨S_, .f32⟩
  | 57 => ⟨S200000, .f32⟩
  | 58 => ⟨S1000000x1, .i32⟩
  | 59 => ⟨S200000, .f32⟩
  | 60 => ⟨S_, .f32⟩
  | 61 => ⟨S200000, .f32⟩
  | 62 => ⟨S200000, .f32⟩
  | 63 => ⟨S200000, .f32⟩
  | 64 => ⟨S200000x128, .f32⟩
  | 65 => ⟨S_, .i32⟩
  | 66 => ⟨S1000000, .i32⟩
  | 67 => ⟨S1000000, .i1⟩
  | 68 => ⟨S_, .i32⟩
  | 69 => ⟨S1000000, .i32⟩
  | 70 => ⟨S1000000, .i32⟩
  | 71 => ⟨S1000000, .i32⟩
  | 72 => ⟨S1000000x1, .i32⟩
  | 73 => ⟨S1000000, .f32⟩
  | 74 => ⟨S_, .i32⟩
  | 75 => ⟨S1000000, .i32⟩
  | 76 => ⟨S1000000, .i1⟩
  | 77 => ⟨S_, .i32⟩
  | 78 => ⟨S1000000, .i32⟩
  | 79 => ⟨S1000000, .i32⟩
  | 80 => ⟨S1000000, .i32⟩
  | 81 => ⟨S1000000x1, .i32⟩
  | 82 => ⟨S1000000, .f32⟩
  | 83 => ⟨S1000000, .f32⟩
  | 84 => ⟨S1000000x1, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x128, .f32⟩
  | 94 => ⟨S1000000x128, .f32⟩
  | 95 => ⟨S1000000x128, .f32⟩
  | 96 => ⟨S_, .f32⟩
  | 97 => ⟨S200000x128, .f32⟩
  | 98 => ⟨S1000000x1, .i32⟩
  | 99 => ⟨S200000x128, .f32⟩
  | 100 => ⟨S200000, .f32⟩
  | 101 => ⟨S200000x1, .f32⟩
  | 102 => ⟨S1x600000, .i32⟩
  | 103 => ⟨S600000, .i32⟩
  | 104 => ⟨S1x600000, .i32⟩
  | 105 => ⟨S600000, .i32⟩
  | 106 => ⟨S_, .f32⟩
  | 107 => ⟨S600000, .f32⟩
  | 108 => ⟨S_, .f32⟩
  | 109 => ⟨S200000, .f32⟩
  | 110 => ⟨S600000x1, .i32⟩
  | 111 => ⟨S200000, .f32⟩
  | 112 => ⟨S_, .f32⟩
  | 113 => ⟨S200000, .f32⟩
  | 114 => ⟨S200000, .f32⟩
  | 115 => ⟨S200000, .f32⟩
  | 116 => ⟨S200000x128, .f32⟩
  | 117 => ⟨S_, .i32⟩
  | 118 => ⟨S600000, .i32⟩
  | 119 => ⟨S600000, .i1⟩
  | 120 => ⟨S_, .i32⟩
  | 121 => ⟨S600000, .i32⟩
  | 122 => ⟨S600000, .i32⟩
  | 123 => ⟨S600000, .i32⟩
  | 124 => ⟨S600000x1, .i32⟩
  | 125 => ⟨S600000, .f32⟩
  | 126 => ⟨S_, .i32⟩
  | 127 => ⟨S600000, .i32⟩
  | _ => ⟨S200000x128, .f32⟩

abbrev hbmTy0_2 (i : Nat) : BufTy := match i % 128 with
  | 0 => ⟨S600000, .i1⟩
  | 1 => ⟨S_, .i32⟩
  | 2 => ⟨S600000, .i32⟩
  | 3 => ⟨S600000, .i32⟩
  | 4 => ⟨S600000, .i32⟩
  | 5 => ⟨S600000x1, .i32⟩
  | 6 => ⟨S600000, .f32⟩
  | 7 => ⟨S600000, .f32⟩
  | 8 => ⟨S600000x1, .f32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S600000x128, .f32⟩
  | 18 => ⟨S600000x128, .f32⟩
  | 19 => ⟨S600000x128, .f32⟩
  | 20 => ⟨S_, .f32⟩
  | 21 => ⟨S200000x128, .f32⟩
  | 22 => ⟨S600000x1, .i32⟩
  | 23 => ⟨S200000x128, .f32⟩
  | 24 => ⟨S200000, .f32⟩
  | 25 => ⟨S200000x1, .f32⟩
  | 26 => ⟨S128, .f32⟩
  | 27 => ⟨S1x128, .f32⟩
  | 28 => ⟨S200000x128, .f32⟩
  | 29 => ⟨S1x600000, .i32⟩
  | 30 => ⟨S600000, .i32⟩
  | 31 => ⟨S1x600000, .i32⟩
  | 32 => ⟨S600000, .i32⟩
  | 33 => ⟨S_, .f32⟩
  | 34 => ⟨S600000, .f32⟩
  | 35 => ⟨S_, .f32⟩
  | 36 => ⟨S100000, .f32⟩
  | 37 => ⟨S600000x1, .i32⟩
  | 38 => ⟨S100000, .f32⟩
  | 39 => ⟨S_, .f32⟩
  | 40 => ⟨S100000, .f32⟩
  | 41 => ⟨S100000, .f32⟩
  | 42 => ⟨S100000, .f32⟩
  | 43 => ⟨S100000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S600000, .f32⟩
  | 53 => ⟨S_, .i32⟩
  | 54 => ⟨S600000, .i32⟩
  | 55 => ⟨S600000, .i1⟩
  | 56 => ⟨S_, .i32⟩
  | 57 => ⟨S600000, .i32⟩
  | 58 => ⟨S600000, .i32⟩
  | 59 => ⟨S600000, .i32⟩
  | 60 => ⟨S600000x1, .i32⟩
  | 61 => ⟨S600000, .f32⟩
  | 62 => ⟨S600000, .f32⟩
  | 63 => ⟨S600000x1, .f32⟩
  | 64 => ⟨S_, .i32⟩
  | 65 => ⟨S600000, .i32⟩
  | 66 => ⟨S600000, .i1⟩
  | 67 => ⟨S_, .i32⟩
  | 68 => ⟨S600000, .i32⟩
  | 69 => ⟨S600000, .i32⟩
  | 70 => ⟨S600000, .i32⟩
  | 71 => ⟨S600000x1, .i32⟩
  | 72 => ⟨S600000x128, .f32⟩
  | 73 => ⟨S600000x128, .f32⟩
  | 74 => ⟨S600000x128, .f32⟩
  | 75 => ⟨S_, .f32⟩
  | 76 => ⟨S100000x128, .f32⟩
  | 77 => ⟨S600000x1, .i32⟩
  | 78 => ⟨S100000x128, .f32⟩
  | 79 => ⟨S100000, .f32⟩
  | 80 => ⟨S100000x1, .f32⟩
  | 81 => ⟨S1x128, .f32⟩
  | 82 => ⟨S100000x128, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S4000x64, .f32⟩
  | .local _ .vmem, ⟨4, _⟩ => ⟨S4000x64, .f32⟩
  | .local _ .vmem, ⟨5, _⟩ => ⟨S4000x128, .f32⟩
  | .local _ .vmem, ⟨6, _⟩ => ⟨S4000x128, .f32⟩
  | .local _ .vmem, ⟨7, _⟩ => ⟨S128x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x1, .f32⟩
  | .local _ .vmem, ⟨19, _⟩ => ⟨S4000x1, .f32⟩
  | .local _ .vmem, ⟨20, _⟩ => ⟨S4000x1, .f32⟩
  | .local _ .vmem, ⟨21, _⟩ => ⟨S4000x1, .f32⟩
  | .local _ .vmem, ⟨22, _⟩ => ⟨S1x64, .f32⟩
  | .local _ .vmem, ⟨23, _⟩ => ⟨S4000x64, .f32⟩
  | .local _ .vmem, ⟨24, _⟩ => ⟨S4000x64, .f32⟩
  | .local _ .vmem, ⟨25, _⟩ => ⟨S4000x128, .f32⟩
  | .local _ .vmem, ⟨26, _⟩ => ⟨S4000x128, .f32⟩
  | .local _ .vmem, ⟨27, _⟩ => ⟨S128x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x1, .f32⟩
  | .local _ .vmem, ⟨35, _⟩ => ⟨S4000x1, .f32⟩
  | .local _ .vmem, ⟨36, _⟩ => ⟨S1x64, .f32⟩
  | .local _ .vmem, ⟨37, _⟩ => ⟨S4000x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S64x128, .f32⟩
  | .local _ .vmem, ⟨42, _⟩ => ⟨S4000x128, .f32⟩
  | .local _ .vmem, ⟨43, _⟩ => ⟨S4000x128, .f32⟩
  | .local _ .vmem, ⟨44, _⟩ => ⟨S4000x64, .f32⟩
  | .local _ .vmem, ⟨45, _⟩ => ⟨S4000x64, .f32⟩
  | .local _ .vmem, ⟨46, _⟩ => ⟨S64x128, .f32⟩
  | .local _ .vmem, ⟨47, _⟩ => ⟨S4000x128, .f32⟩
  | .local _ .vmem, ⟨48, _⟩ => ⟨S4000x128, .f32⟩
  | .local _ .vmem, ⟨49, _⟩ => ⟨S4000x128, .f32⟩
  | .local _ .vmem, ⟨50, _⟩ => ⟨S4000x128, .f32⟩
  | .local _ .vmem, ⟨51, _⟩ => ⟨S4000x128, .f32⟩
  | .local _ .vmem, ⟨52, _⟩ => ⟨S4000x128, .f32⟩
  | .local _ .vmem, ⟨53, _⟩ => ⟨S4000x128, .f32⟩
  | .local _ .vmem, ⟨54, _⟩ => ⟨S4000x128, .f32⟩
  | .local _ .vmem, ⟨55, _⟩ => ⟨S4000x128, .f32⟩
  | .local _ .vmem, ⟨56, _⟩ => ⟨S4000x128, .f32⟩
  | .local _ .vmem, ⟨57, _⟩ => ⟨S4000x1, .f32⟩
  | .local _ .vmem, ⟨58, _⟩ => ⟨S4000x1, .f32⟩
  | .local _ .vmem, ⟨59, _⟩ => ⟨S4000x1, .f32⟩
  | .local _ .vmem, ⟨60, _⟩ => ⟨S4000x1, .f32⟩
  | .local _ .vmem, ⟨61, _⟩ => ⟨S1x128, .f32⟩
  | .local _ .vmem, ⟨62, _⟩ => ⟨S4000x128, .f32⟩
  | .local _ .vmem, ⟨63, _⟩ => ⟨S4000x128, .f32⟩
  | .local _ .vmem, ⟨64, _⟩ => ⟨S4000x64, .f32⟩
  | .local _ .vmem, ⟨65, _⟩ => ⟨S4000x64, .f32⟩
  | .local _ .vmem, ⟨66, _⟩ => ⟨S64x128, .f32⟩
  | .local _ .vmem, ⟨67, _⟩ => ⟨S4000x128, .f32⟩
  | .local _ .vmem, ⟨68, _⟩ => ⟨S4000x128, .f32⟩
  | .local _ .vmem, ⟨69, _⟩ => ⟨S4000x128, .f32⟩
  | .local _ .vmem, ⟨70, _⟩ => ⟨S4000x128, .f32⟩
  | .local _ .vmem, ⟨71, _⟩ => ⟨S4000x128, .f32⟩
  | .local _ .vmem, ⟨72, _⟩ => ⟨S4000x128, .f32⟩
  | .local _ .vmem, ⟨73, _⟩ => ⟨S4000x1, .f32⟩
  | .local _ .vmem, ⟨74, _⟩ => ⟨S4000x1, .f32⟩
  | .local _ .vmem, ⟨75, _⟩ => ⟨S1x128, .f32⟩
  | .local _ .vmem, ⟨76, _⟩ => ⟨S4000x128, .f32⟩
  | .local _ .vmem, ⟨77, _⟩ => ⟨S4000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_8 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_11 : Ref sig .tc := ⟨.hbm, 84, rfl⟩
abbrev main_v54 : Ref sig .tc := ⟨.hbm, 85, rfl⟩
abbrev main_v55 : Ref sig .tc := ⟨.hbm, 86, rfl⟩
abbrev main_c_12 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_13 : Ref sig .tc := ⟨.hbm, 93, rfl⟩
abbrev main_v61 : Ref sig .tc := ⟨.hbm, 94, rfl⟩
abbrev main_v62 : Ref sig .tc := ⟨.hbm, 95, rfl⟩
abbrev main_c_14 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_15 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_17 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_18 : Ref sig .tc := ⟨.hbm, 128, rfl⟩
abbrev main_v91 : Ref sig .tc := ⟨.hbm, 129, rfl⟩
abbrev main_cst_19 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_20 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_21 : Ref sig .tc := ⟨.hbm, 139, rfl⟩
abbrev main_v99 : Ref sig .tc := ⟨.hbm, 140, rfl⟩
abbrev main_v100 : Ref sig .tc := ⟨.hbm, 141, rfl⟩
abbrev main_c_22 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_c_23 : Ref sig .tc := ⟨.hbm, 148, rfl⟩
abbrev main_v106 : Ref sig .tc := ⟨.hbm, 149, rfl⟩
abbrev main_v107 : Ref sig .tc := ⟨.hbm, 150, rfl⟩
abbrev main_c_24 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_c_25 : Ref sig .tc := ⟨.hbm, 159, rfl⟩
abbrev main_v115 : Ref sig .tc := ⟨.hbm, 160, rfl⟩
abbrev main_v116 : Ref sig .tc := ⟨.hbm, 161, rfl⟩
abbrev main_c_26 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_27 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_cst_28 : Ref sig .tc := ⟨.hbm, 182, rfl⟩
abbrev main_v135 : Ref sig .tc := ⟨.hbm, 183, rfl⟩
abbrev main_cst_29 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_30 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_31 : Ref sig .tc := ⟨.hbm, 193, rfl⟩
abbrev main_v143 : Ref sig .tc := ⟨.hbm, 194, rfl⟩
abbrev main_v144 : Ref sig .tc := ⟨.hbm, 195, rfl⟩
abbrev main_c_32 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_c_33 : Ref sig .tc := ⟨.hbm, 202, rfl⟩
abbrev main_v150 : Ref sig .tc := ⟨.hbm, 203, rfl⟩
abbrev main_v151 : Ref sig .tc := ⟨.hbm, 204, rfl⟩
abbrev main_c_34 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_c_35 : Ref sig .tc := ⟨.hbm, 213, rfl⟩
abbrev main_v159 : Ref sig .tc := ⟨.hbm, 214, rfl⟩
abbrev main_v160 : Ref sig .tc := ⟨.hbm, 215, rfl⟩
abbrev main_c_36 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_cst_37 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst_38 : Ref sig .tc := ⟨.hbm, 234, rfl⟩
abbrev main_v177 : Ref sig .tc := ⟨.hbm, 235, rfl⟩
abbrev main_cst_39 : Ref sig .tc := ⟨.hbm, 236, rfl⟩
abbrev main_v178 : Ref sig .tc := ⟨.hbm, 237, rfl⟩
abbrev main_v179 : Ref sig .tc := ⟨.hbm, 238, rfl⟩
abbrev main_v180 : Ref sig .tc := ⟨.hbm, 239, rfl⟩
abbrev main_cst_40 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_c_41 : Ref sig .tc := ⟨.hbm, 245, rfl⟩
abbrev main_v185 : Ref sig .tc := ⟨.hbm, 246, rfl⟩
abbrev main_v186 : Ref sig .tc := ⟨.hbm, 247, rfl⟩
abbrev main_c_42 : Ref sig .tc := ⟨.hbm, 248, rfl⟩
abbrev main_v187 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_c_43 : Ref sig .tc := ⟨.hbm, 254, rfl⟩
abbrev main_v192 : Ref sig .tc := ⟨.hbm, 255, rfl⟩
abbrev main_v193 : Ref sig .tc := ⟨.hbm, 256, rfl⟩
abbrev main_c_44 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_v200 : Ref sig .tc := ⟨.hbm, 264, rfl⟩
abbrev main_c_45 : Ref sig .tc := ⟨.hbm, 265, rfl⟩
abbrev main_v201 : Ref sig .tc := ⟨.hbm, 266, rfl⟩
abbrev main_v202 : Ref sig .tc := ⟨.hbm, 267, rfl⟩
abbrev main_c_46 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_cst_47 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_cst_48 : Ref sig .tc := ⟨.hbm, 289, rfl⟩
abbrev main_v222 : Ref sig .tc := ⟨.hbm, 290, rfl⟩
abbrev main_cst_49 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_cst_50 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_c_51 : Ref sig .tc := ⟨.hbm, 300, rfl⟩
abbrev main_v230 : Ref sig .tc := ⟨.hbm, 301, rfl⟩
abbrev main_v231 : Ref sig .tc := ⟨.hbm, 302, rfl⟩
abbrev main_c_52 : Ref sig .tc := ⟨.hbm, 303, rfl⟩
abbrev main_v232 : Ref sig .tc := ⟨.hbm, 304, rfl⟩
abbrev main_v233 : Ref sig .tc := ⟨.hbm, 305, rfl⟩
abbrev main_v234 : Ref sig .tc := ⟨.hbm, 306, rfl⟩
abbrev main_v235 : Ref sig .tc := ⟨.hbm, 307, rfl⟩
abbrev main_v236 : Ref sig .tc := ⟨.hbm, 308, rfl⟩
abbrev main_c_53 : Ref sig .tc := ⟨.hbm, 309, rfl⟩
abbrev main_v237 : Ref sig .tc := ⟨.hbm, 310, rfl⟩
abbrev main_v238 : Ref sig .tc := ⟨.hbm, 311, rfl⟩
abbrev main_c_54 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_c_55 : Ref sig .tc := ⟨.hbm, 320, rfl⟩
abbrev main_v246 : Ref sig .tc := ⟨.hbm, 321, rfl⟩
abbrev main_v247 : Ref sig .tc := ⟨.hbm, 322, rfl⟩
abbrev main_c_56 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev main_cst_57 : Ref sig .tc := ⟨.hbm, 331, rfl⟩
abbrev main_v255 : Ref sig .tc := ⟨.hbm, 332, rfl⟩
abbrev main_v256 : Ref sig .tc := ⟨.hbm, 333, rfl⟩
abbrev main_v257 : Ref sig .tc := ⟨.hbm, 334, rfl⟩
abbrev main_v258 : Ref sig .tc := ⟨.hbm, 335, rfl⟩
abbrev main_v259 : Ref sig .tc := ⟨.hbm, 336, rfl⟩
abbrev main_v260 : Ref sig .tc := ⟨.hbm, 337, rfl⟩
abbrev main_v261 : Ref sig .tc := ⟨.hbm, 338, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg7_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg2_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg1_1 : Ref sig .tc := ⟨.vmem, 33, rfl⟩
abbrev cc4_stg2_0 : Ref sig .tc := ⟨.vmem, 34, rfl⟩
abbrev cc4_stg2_1 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg4_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg2_1 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg2_0 : Ref sig .tc := ⟨.vmem, 47, rfl⟩
abbrev cc6_stg2_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc7_stg3_0 : Ref sig .tc := ⟨.vmem, 55, rfl⟩
abbrev cc7_stg3_1 : Ref sig .tc := ⟨.vmem, 56, rfl⟩
abbrev cc7_stg4_0 : Ref sig .tc := ⟨.vmem, 57, rfl⟩
abbrev cc7_stg4_1 : Ref sig .tc := ⟨.vmem, 58, rfl⟩
abbrev cc7_stg5_0 : Ref sig .tc := ⟨.vmem, 59, rfl⟩
abbrev cc7_stg5_1 : Ref sig .tc := ⟨.vmem, 60, rfl⟩
abbrev cc7_stg6_0 : Ref sig .tc := ⟨.vmem, 61, rfl⟩
abbrev cc7_stg7_0 : Ref sig .tc := ⟨.vmem, 62, rfl⟩
abbrev cc7_stg7_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg2_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg1_1 : Ref sig .tc := ⟨.vmem, 72, rfl⟩
abbrev cc9_stg2_0 : Ref sig .tc := ⟨.vmem, 73, rfl⟩
abbrev cc9_stg2_1 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg4_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc2_sem5_0 : DmaSem sig := 20
abbrev cc2_sem5_1 : DmaSem sig := 21
abbrev cc2_sem6_0 : DmaSem sig := 22
abbrev cc2_sem7_0 : DmaSem sig := 23
abbrev cc2_sem7_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem2_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem4_1 : DmaSem sig := 38
abbrev cc5_sem0_0 : DmaSem sig := 39
abbrev cc5_sem0_1 : DmaSem sig := 40
abbrev cc5_sem1_0 : DmaSem sig := 41
abbrev cc5_sem2_0 : DmaSem sig := 42
abbrev cc5_sem2_1 : DmaSem sig := 43
abbrev cc6_sem0_0 : DmaSem sig := 44
abbrev cc6_sem0_1 : DmaSem sig := 45
abbrev cc6_sem1_0 : DmaSem sig := 46
abbrev cc6_sem2_0 : DmaSem sig := 47
abbrev cc6_sem2_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54
abbrev cc7_sem3_0 : DmaSem sig := 55
abbrev cc7_sem3_1 : DmaSem sig := 56
abbrev cc7_sem4_0 : DmaSem sig := 57
abbrev cc7_sem4_1 : DmaSem sig := 58
abbrev cc7_sem5_0 : DmaSem sig := 59
abbrev cc7_sem5_1 : DmaSem sig := 60
abbrev cc7_sem6_0 : DmaSem sig := 61
abbrev cc7_sem7_0 : DmaSem sig := 62
abbrev cc7_sem7_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem2_1 : DmaSem sig := 68
abbrev cc9_sem0_0 : DmaSem sig := 69
abbrev cc9_sem0_1 : DmaSem sig := 70
abbrev cc9_sem1_0 : DmaSem sig := 71
abbrev cc9_sem1_1 : DmaSem sig := 72
abbrev cc9_sem2_0 : DmaSem sig := 73
abbrev cc9_sem2_1 : DmaSem sig := 74
abbrev cc9_sem3_0 : DmaSem sig := 75
abbrev cc9_sem4_0 : DmaSem sig := 76
abbrev cc9_sem4_1 : DmaSem sig := 77

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S4000x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S4000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S4000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S4000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S4000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S4000x1 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S4000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S4000x128 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S4000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S4000x128 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  bcast_S1000000x1_S1000000x64_0_1 : S1000000x1.BroadcastsInDim S1000000x64 (![0, 1] : Fin 2 → Fin S1000000x64.rank)
  bcast_S_S200000x64 : S_.BroadcastsInDim S200000x64 (![] : Fin 0 → Fin S200000x64.rank)
  bcast_S200000_S200000x1_0 : S200000.BroadcastsInDim S200000x1 (![0] : Fin 1 → Fin S200000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x64_0_1 : S600000x1.BroadcastsInDim S600000x64 (![0, 1] : Fin 2 → Fin S600000x64.rank)
  shapeCasts_S64_S1x64 : S64.ShapeCasts S1x64
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  bcast_S_S100000 : S_.BroadcastsInDim S100000 (![] : Fin 0 → Fin S100000.rank)
  bcast_S_S100000x64 : S_.BroadcastsInDim S100000x64 (![] : Fin 0 → Fin S100000x64.rank)
  bcast_S100000_S100000x1_0 : S100000.BroadcastsInDim S100000x1 (![0] : Fin 1 → Fin S100000x1.rank)
  inb_S64x128_S64x128_0_0 : ∀ a, (![0, 0] : Fin 2 → Nat) a + S64x128.size a ≤ S64x128.size a
  h_S64x128 : 0 < S64x128.numel
  bcast_S1000000x1_S1000000x128_0_1 : S1000000x1.BroadcastsInDim S1000000x128 (![0, 1] : Fin 2 → Fin S1000000x128.rank)
  bcast_S_S200000x128 : S_.BroadcastsInDim S200000x128 (![] : Fin 0 → Fin S200000x128.rank)
  bcast_S600000x1_S600000x128_0_1 : S600000x1.BroadcastsInDim S600000x128 (![0, 1] : Fin 2 → Fin S600000x128.rank)
  shapeCasts_S128_S1x128 : S128.ShapeCasts S1x128
  shapeCasts_S4000x128_S4000x128 : S4000x128.ShapeCasts S4000x128
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S_S100000x128 : S_.BroadcastsInDim S100000x128 (![] : Fin 0 → Fin S100000x128.rank)
  scatter_S200000_S1000000x1_S1000000_n_0_0_1_wf : ScatterDims.WF S200000 S1000000x1 S1000000 [] [0] [0] 1
  dot_S4000x128_S128x64_S4000x64_1_0_0_1_n_n_wf : DotDims.WF S4000x128 S128x64 S4000x64 [1] [0] [0] [1] [] []
  gather_S200000_S1000000x1_S1000000_n_0_n_n_0_1_1_wf : GatherDims.WF S200000 S1000000x1 S1000000 [] [0] [] [0] [] 1 ![1]
  gather_S200000x64_S1000000x1_S1000000x64_1_0_n_n_0_1_164_wf : GatherDims.WF S200000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S600000x1_S600000_n_0_0_1_wf : ScatterDims.WF S200000 S600000x1 S600000 [] [0] [0] 1
  gather_S200000_S600000x1_S600000_n_0_n_n_0_1_1_wf : GatherDims.WF S200000 S600000x1 S600000 [] [0] [] [0] [] 1 ![1]
  gather_S200000x64_S600000x1_S600000x64_1_0_n_n_0_1_164_wf : GatherDims.WF S200000x64 S600000x1 S600000x64 [1] [0] [] [0] [] 1 ![1, 64]
  scatter_S200000x64_S600000x1_S600000x64_1_0_0_1_wf : ScatterDims.WF S200000x64 S600000x1 S600000x64 [1] [0] [0] 1
  scatter_S100000_S600000x1_S600000_n_0_0_1_wf : ScatterDims.WF S100000 S600000x1 S600000 [] [0] [0] 1
  gather_S100000_S600000x1_S600000_n_0_n_n_0_1_1_wf : GatherDims.WF S100000 S600000x1 S600000 [] [0] [] [0] [] 1 ![1]
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S4000x64_S64x128_S4000x128_1_0_0_1_n_n_wf : DotDims.WF S4000x64 S64x128 S4000x128 [1] [0] [0] [1] [] []
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S200000x64.size a
  hwx0_2 : ∀ i : grid0.Coords, EltTy.bits .f32 = 32 ∨ (Rect.block (s := S200000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S200000x128.size a
  hwx1_0 : ∀ i : grid1.Coords, EltTy.bits .f32 = 32 ∨ (Rect.block (s := S200000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x64.size a ≤ S200000x64.size a
  hwx1_2 : ∀ i : grid1.Coords, EltTy.bits .f32 = 32 ∨ (Rect.block (s := S200000x64) S4000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S200000x64.size a
  hwx2_0 : ∀ i : grid2.Coords, EltTy.bits .f32 = 32 ∨ (Rect.block (s := S200000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S200000x64.size a
  hwx2_1 : ∀ i : grid2.Coords, EltTy.bits .f32 = 32 ∨ (Rect.block (s := S200000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S200000x64.size a
  hwx2_2 : ∀ i : grid2.Coords, EltTy.bits .f32 = 32 ∨ (Rect.block (s := S200000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S200000x64.size a
  hwx2_3 : ∀ i : grid2.Coords, EltTy.bits .f32 = 32 ∨ (Rect.block (s := S200000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x1.size a ≤ S200000x1.size a
  hwx2_4 : ∀ i : grid2.Coords, EltTy.bits .f32 = 32 ∨ (Rect.block (s := S200000x1) S4000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x1.size a ≤ S200000x1.size a
  hwx2_5 : ∀ i : grid2.Coords, EltTy.bits .f32 = 32 ∨ (Rect.block (s := S200000x1) S4000x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x64.size a ≤ S200000x64.size a
  hwx2_7 : ∀ i : grid2.Coords, EltTy.bits .f32 = 32 ∨ (Rect.block (s := S200000x64) S4000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x64.size a ≤ S100000x64.size a
  hwx3_2 : ∀ i : grid3.Coords, EltTy.bits .f32 = 32 ∨ (Rect.block (s := S100000x64) S4000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S100000x64.size a
  hwx4_1 : ∀ i : grid4.Coords, EltTy.bits .f32 = 32 ∨ (Rect.block (s := S100000x64) S4000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S100000x1.size a
  hwx4_2 : ∀ i : grid4.Coords, EltTy.bits .f32 = 32 ∨ (Rect.block (s := S100000x1) S4000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S100000x64.size a
  hwx4_4 : ∀ i : grid4.Coords, EltTy.bits .f32 = 32 ∨ (Rect.block (s := S100000x64) S4000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S200000x64.size a
  hwx5_0 : ∀ i : grid5.Coords, EltTy.bits .f32 = 32 ∨ (Rect.block (s := S200000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x128.size a ≤ S64x128.size a
  hwx5_1 : ∀ i : grid5.Coords, EltTy.bits .f32 = 32 ∨ (Rect.block (s := S64x128) S64x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x128.size a ≤ S200000x128.size a
  hwx5_2 : ∀ i : grid5.Coords, EltTy.bits .f32 = 32 ∨ (Rect.block (s := S200000x128) S4000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S200000x64.size a
  hwx6_0 : ∀ i : grid6.Coords, EltTy.bits .f32 = 32 ∨ (Rect.block (s := S200000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x128.size a ≤ S64x128.size a
  hwx6_1 : ∀ i : grid6.Coords, EltTy.bits .f32 = 32 ∨ (Rect.block (s := S64x128) S64x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x128.size a ≤ S200000x128.size a
  hwx6_2 : ∀ i : grid6.Coords, EltTy.bits .f32 = 32 ∨ (Rect.block (s := S200000x128) S4000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x128.size a ≤ S200000x128.size a
  hwx7_0 : ∀ i : grid7.Coords, EltTy.bits .f32 = 32 ∨ (Rect.block (s := S200000x128) S4000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4000x128.size a ≤ S200000x128.size a
  hwx7_1 : ∀ i : grid7.Coords, EltTy.bits .f32 = 32 ∨ (Rect.block (s := S200000x128) S4000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S4000x128.size a ≤ S200000x128.size a
  hwx7_2 : ∀ i : grid7.Coords, EltTy.bits .f32 = 32 ∨ (Rect.block (s := S200000x128) S4000x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x128.size a ≤ S200000x128.size a
  hwx7_3 : ∀ i : grid7.Coords, EltTy.bits .f32 = 32 ∨ (Rect.block (s := S200000x128) S4000x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4000x1.size a ≤ S200000x1.size a
  hwx7_4 : ∀ i : grid7.Coords, EltTy.bits .f32 = 32 ∨ (Rect.block (s := S200000x1) S4000x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S4000x1.size a ≤ S200000x1.size a
  hwx7_5 : ∀ i : grid7.Coords, EltTy.bits .f32 = 32 ∨ (Rect.block (s := S200000x1) S4000x1.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S4000x128.size a ≤ S200000x128.size a
  hwx7_7 : ∀ i : grid7.Coords, EltTy.bits .f32 = 32 ∨ (Rect.block (s := S200000x128) S4000x128.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4000x64.size a ≤ S100000x64.size a
  hwx8_0 : ∀ i : grid8.Coords, EltTy.bits .f32 = 32 ∨ (Rect.block (s := S100000x64) S4000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x128.size a ≤ S64x128.size a
  hwx8_1 : ∀ i : grid8.Coords, EltTy.bits .f32 = 32 ∨ (Rect.block (s := S64x128) S64x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S4000x128.size a ≤ S100000x128.size a
  hwx8_2 : ∀ i : grid8.Coords, EltTy.bits .f32 = 32 ∨ (Rect.block (s := S100000x128) S4000x128.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x128.size a ≤ S100000x128.size a
  hwx9_0 : ∀ i : grid9.Coords, EltTy.bits .f32 = 32 ∨ (Rect.block (s := S100000x128) S4000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x128.size a ≤ S100000x128.size a
  hwx9_1 : ∀ i : grid9.Coords, EltTy.bits .f32 = 32 ∨ (Rect.block (s := S100000x128) S4000x128.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4000x1.size a ≤ S100000x1.size a
  hwx9_2 : ∀ i : grid9.Coords, EltTy.bits .f32 = 32 ∨ (Rect.block (s := S100000x1) S4000x1.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4000x128.size a ≤ S100000x128.size a
  hwx9_4 : ∀ i : grid9.Coords, EltTy.bits .f32 = 32 ∨ (Rect.block (s := S100000x128) S4000x128.size (cc9_transform_4 i) (hinb9_4 i)).WholeWords (EltTy.packing .f32)

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S4000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v39) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v53) S4000x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S4000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v83) S4000x1.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v85) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v86) S4000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg1) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S4000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v126) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v128) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v129) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v130) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v86) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg11) S64x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v142) S4000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v86) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S64x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v184) S4000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v170) S4000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v212) S4000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v142) S4000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v184) S4000x128.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v172) S4000x1.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v214) S4000x1.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v216) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v217) S4000x128.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v130) S4000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg15) S64x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v229) S4000x128.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v257) S4000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v229) S4000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v259) S4000x1.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v260) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v261) S4000x128.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S2x1000000 : Shape := ⟨2, ![2, 1000000]⟩
abbrev S2x600000 : Shape := ⟨2, ![2, 600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S1x1000000 : Shape := ⟨2, ![1, 1000000]⟩
abbrev S1000000 : Shape := ⟨1, ![1000000]⟩
abbrev S_ : Shape := ⟨0, ![]⟩
abbrev S200000 : Shape := ⟨1, ![200000]⟩
abbrev S1000000x1 : Shape := ⟨2, ![1000000, 1]⟩
abbrev S200000x64 : Shape := ⟨2, ![200000, 64]⟩
abbrev S1000000x64 : Shape := ⟨2, ![1000000, 64]⟩
abbrev S200000x1 : Shape := ⟨2, ![200000, 1]⟩
abbrev S1x64 : Shape := ⟨2, ![1, 64]⟩
abbrev S1x600000 : Shape := ⟨2, ![1, 600000]⟩
abbrev S600000 : Shape := ⟨1, ![600000]⟩
abbrev S600000x1 : Shape := ⟨2, ![600000, 1]⟩
abbrev S600000x64 : Shape := ⟨2, ![600000, 64]⟩
abbrev S100000 : Shape := ⟨1, ![100000]⟩
abbrev S100000x64 : Shape := ⟨2, ![100000, 64]⟩
abbrev S100000x1 : Shape := ⟨2, ![100000, 1]⟩
abbrev S1000000x128 : Shape := ⟨2, ![1000000, 128]⟩
abbrev S1x128 : Shape := ⟨2, ![1, 128]⟩
abbrev S600000x128 : Shape := ⟨2, ![600000, 128]⟩

abbrev nBuf : Space → Nat
  | .hbm => 379
  | .vmem => 0
  | .smem => 0
  | _ => 0

abbrev hbmTy0_0 (i : Nat) : BufTy := match i % 128 with
  | 0 => ⟨S200000x128, .f32⟩
  | 1 => ⟨S100000x128, .f32⟩
  | 2 => ⟨S2x1000000, .i32⟩
  | 3 => ⟨S2x600000, .i32⟩
  | 4 => ⟨S2x600000, .i32⟩
  | 5 => ⟨S128x64, .f32⟩
  | 6 => ⟨S64, .f32⟩
  | 7 => ⟨S128x64, .f32⟩
  | 8 => ⟨S64, .f32⟩
  | 9 => ⟨S128x64, .f32⟩
  | 10 => ⟨S64, .f32⟩
  | 11 => ⟨S64x128, .f32⟩
  | 12 => ⟨S128, .f32⟩
  | 13 => ⟨S64x128, .f32⟩
  | 14 => ⟨S128, .f32⟩
  | 15 => ⟨S64x128, .f32⟩
  | 16 => ⟨S128, .f32⟩
  | 17 => ⟨S1x1000000, .i32⟩
  | 18 => ⟨S1000000, .i32⟩
  | 19 => ⟨S1x1000000, .i32⟩
  | 20 => ⟨S1000000, .i32⟩
  | 21 => ⟨S_, .f32⟩
  | 22 => ⟨S1000000, .f32⟩
  | 23 => ⟨S_, .f32⟩
  | 24 => ⟨S200000, .f32⟩
  | 25 => ⟨S1000000x1, .i32⟩
  | 26 => ⟨S200000, .f32⟩
  | 27 => ⟨S_, .f32⟩
  | 28 => ⟨S200000, .f32⟩
  | 29 => ⟨S200000, .f32⟩
  | 30 => ⟨S200000, .f32⟩
  | 31 => ⟨S200000x64, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000, .f32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000, .f32⟩
  | 50 => ⟨S1000000, .f32⟩
  | 51 => ⟨S1000000x1, .f32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1000000x64, .f32⟩
  | 62 => ⟨S1000000x64, .f32⟩
  | 63 => ⟨S_, .f32⟩
  | 64 => ⟨S200000x64, .f32⟩
  | 65 => ⟨S1000000x1, .i32⟩
  | 66 => ⟨S200000x64, .f32⟩
  | 67 => ⟨S200000, .f32⟩
  | 68 => ⟨S200000x1, .f32⟩
  | 69 => ⟨S200000x64, .f32⟩
  | 70 => ⟨S200000x64, .f32⟩
  | 71 => ⟨S200000x64, .f32⟩
  | 72 => ⟨S1x64, .f32⟩
  | 73 => ⟨S200000x64, .f32⟩
  | 74 => ⟨S200000x64, .f32⟩
  | 75 => ⟨S1x600000, .i32⟩
  | 76 => ⟨S600000, .i32⟩
  | 77 => ⟨S1x600000, .i32⟩
  | 78 => ⟨S600000, .i32⟩
  | 79 => ⟨S_, .f32⟩
  | 80 => ⟨S600000, .f32⟩
  | 81 => ⟨S_, .f32⟩
  | 82 => ⟨S200000, .f32⟩
  | 83 => ⟨S600000x1, .i32⟩
  | 84 => ⟨S200000, .f32⟩
  | 85 => ⟨S_, .f32⟩
  | 86 => ⟨S200000, .f32⟩
  | 87 => ⟨S200000, .f32⟩
  | 88 => ⟨S200000, .f32⟩
  | 89 => ⟨S200000x64, .f32⟩
  | 90 => ⟨S_, .i32⟩
  | 91 => ⟨S600000, .i32⟩
  | 92 => ⟨S600000, .i1⟩
  | 93 => ⟨S_, .i32⟩
  | 94 => ⟨S600000, .i32⟩
  | 95 => ⟨S600000, .i32⟩
  | 96 => ⟨S600000, .i32⟩
  | 97 => ⟨S600000x1, .i32⟩
  | 98 => ⟨S600000, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000, .f32⟩
  | 108 => ⟨S600000, .f32⟩
  | 109 => ⟨S600000x1, .f32⟩
  | 110 => ⟨S_, .i32⟩
  | 111 => ⟨S600000, .i32⟩
  | 112 => ⟨S600000, .i1⟩
  | 113 => ⟨S_, .i32⟩
  | 114 => ⟨S600000, .i32⟩
  | 115 => ⟨S600000, .i32⟩
  | 116 => ⟨S600000, .i32⟩
  | 117 => ⟨S600000x1, .i32⟩
  | 118 => ⟨S600000x64, .f32⟩
  | 119 => ⟨S600000x64, .f32⟩
  | 120 => ⟨S600000x64, .f32⟩
  | 121 => ⟨S_, .f32⟩
  | 122 => ⟨S200000x64, .f32⟩
  | 123 => ⟨S600000x1, .i32⟩
  | 124 => ⟨S200000x64, .f32⟩
  | 125 => ⟨S200000, .f32⟩
  | 126 => ⟨S200000x1, .f32⟩
  | 127 => ⟨S200000x64, .f32⟩
  | _ => ⟨S200000x128, .f32⟩

abbrev hbmTy0_1 (i : Nat) : BufTy := match i % 128 with
  | 0 => ⟨S200000x64, .f32⟩
  | 1 => ⟨S200000x64, .f32⟩
  | 2 => ⟨S1x64, .f32⟩
  | 3 => ⟨S200000x64, .f32⟩
  | 4 => ⟨S200000x64, .f32⟩
  | 5 => ⟨S200000x64, .f32⟩
  | 6 => ⟨S1x600000, .i32⟩
  | 7 => ⟨S600000, .i32⟩
  | 8 => ⟨S1x600000, .i32⟩
  | 9 => ⟨S600000, .i32⟩
  | 10 => ⟨S_, .f32⟩
  | 11 => ⟨S600000, .f32⟩
  | 12 => ⟨S_, .f32⟩
  | 13 => ⟨S100000, .f32⟩
  | 14 => ⟨S600000x1, .i32⟩
  | 15 => ⟨S100000, .f32⟩
  | 16 => ⟨S_, .f32⟩
  | 17 => ⟨S100000, .f32⟩
  | 18 => ⟨S100000, .f32⟩
  | 19 => ⟨S100000, .f32⟩
  | 20 => ⟨S100000x64, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S600000, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000, .f32⟩
  | 39 => ⟨S600000, .f32⟩
  | 40 => ⟨S600000x1, .f32⟩
  | 41 => ⟨S_, .i32⟩
  | 42 => ⟨S600000, .i32⟩
  | 43 => ⟨S600000, .i1⟩
  | 44 => ⟨S_, .i32⟩
  | 45 => ⟨S600000, .i32⟩
  | 46 => ⟨S600000, .i32⟩
  | 47 => ⟨S600000, .i32⟩
  | 48 => ⟨S600000x1, .i32⟩
  | 49 => ⟨S600000x64, .f32⟩
  | 50 => ⟨S600000x64, .f32⟩
  | 51 => ⟨S600000x64, .f32⟩
  | 52 => ⟨S_, .f32⟩
  | 53 => ⟨S100000x64, .f32⟩
  | 54 => ⟨S600000x1, .i32⟩
  | 55 => ⟨S100000x64, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S200000x64, .f32⟩
  | 66 => ⟨S200000x64, .f32⟩
  | 67 => ⟨S_, .f32⟩
  | 68 => ⟨S100000x64, .f32⟩
  | 69 => ⟨S100000x64, .f32⟩
  | 70 => ⟨S1x1000000, .i32⟩
  | 71 => ⟨S1000000, .i32⟩
  | 72 => ⟨S1x1000000, .i32⟩
  | 73 => ⟨S1000000, .i32⟩
  | 74 => ⟨S_, .f32⟩
  | 75 => ⟨S1000000, .f32⟩
  | 76 => ⟨S_, .f32⟩
  | 77 => ⟨S200000, .f32⟩
  | 78 => ⟨S1000000x1, .i32⟩
  | 79 => ⟨S200000, .f32⟩
  | 80 => ⟨S_, .f32⟩
  | 81 => ⟨S200000, .f32⟩
  | 82 => ⟨S200000, .f32⟩
  | 83 => ⟨S200000, .f32⟩
  | 84 => ⟨S200000x128, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000, .f32⟩
  | 94 => ⟨S_, .i32⟩
  | 95 => ⟨S1000000, .i32⟩
  | 96 => ⟨S1000000, .i1⟩
  | 97 => ⟨S_, .i32⟩
  | 98 => ⟨S1000000, .i32⟩
  | 99 => ⟨S1000000, .i32⟩
  | 100 => ⟨S1000000, .i32⟩
  | 101 => ⟨S1000000x1, .i32⟩
  | 102 => ⟨S1000000, .f32⟩
  | 103 => ⟨S1000000, .f32⟩
  | 104 => ⟨S1000000x1, .f32⟩
  | 105 => ⟨S_, .i32⟩
  | 106 => ⟨S1000000, .i32⟩
  | 107 => ⟨S1000000, .i1⟩
  | 108 => ⟨S_, .i32⟩
  | 109 => ⟨S1000000, .i32⟩
  | 110 => ⟨S1000000, .i32⟩
  | 111 => ⟨S1000000, .i32⟩
  | 112 => ⟨S1000000x1, .i32⟩
  | 113 => ⟨S1000000x128, .f32⟩
  | 114 => ⟨S1000000x128, .f32⟩
  | 115 => ⟨S1000000x128, .f32⟩
  | 116 => ⟨S_, .f32⟩
  | 117 => ⟨S200000x128, .f32⟩
  | 118 => ⟨S1000000x1, .i32⟩
  | 119 => ⟨S200000x128, .f32⟩
  | 120 => ⟨S200000, .f32⟩
  | 121 => ⟨S200000x1, .f32⟩
  | 122 => ⟨S200000x128, .f32⟩
  | 123 => ⟨S200000x128, .f32⟩
  | 124 => ⟨S200000x128, .f32⟩
  | 125 => ⟨S1x128, .f32⟩
  | 126 => ⟨S200000x128, .f32⟩
  | 127 => ⟨S200000x128, .f32⟩
  | _ => ⟨S200000x128, .f32⟩

abbrev hbmTy0_2 (i : Nat) : BufTy := match i % 128 with
  | 0 => ⟨S1x600000, .i32⟩
  | 1 => ⟨S600000, .i32⟩
  | 2 => ⟨S1x600000, .i32⟩
  | 3 => ⟨S600000, .i32⟩
  | 4 => ⟨S_, .f32⟩
  | 5 => ⟨S600000, .f32⟩
  | 6 => ⟨S_, .f32⟩
  | 7 => ⟨S200000, .f32⟩
  | 8 => ⟨S600000x1, .i32⟩
  | 9 => ⟨S200000, .f32⟩
  | 10 => ⟨S_, .f32⟩
  | 11 => ⟨S200000, .f32⟩
  | 12 => ⟨S200000, .f32⟩
  | 13 => ⟨S200000, .f32⟩
  | 14 => ⟨S200000x128, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000, .f32⟩
  | 24 => ⟨S_, .i32⟩
  | 25 => ⟨S600000, .i32⟩
  | 26 => ⟨S600000, .i1⟩
  | 27 => ⟨S_, .i32⟩
  | 28 => ⟨S600000, .i32⟩
  | 29 => ⟨S600000, .i32⟩
  | 30 => ⟨S600000, .i32⟩
  | 31 => ⟨S600000x1, .i32⟩
  | 32 => ⟨S600000, .f32⟩
  | 33 => ⟨S600000, .f32⟩
  | 34 => ⟨S600000x1, .f32⟩
  | 35 => ⟨S_, .i32⟩
  | 36 => ⟨S600000, .i32⟩
  | 37 => ⟨S600000, .i1⟩
  | 38 => ⟨S_, .i32⟩
  | 39 => ⟨S600000, .i32⟩
  | 40 => ⟨S600000, .i32⟩
  | 41 => ⟨S600000, .i32⟩
  | 42 => ⟨S600000x1, .i32⟩
  | 43 => ⟨S600000x128, .f32⟩
  | 44 => ⟨S600000x128, .f32⟩
  | 45 => ⟨S600000x128, .f32⟩
  | 46 => ⟨S_, .f32⟩
  | 47 => ⟨S200000x128, .f32⟩
  | 48 => ⟨S600000x1, .i32⟩
  | 49 => ⟨S200000x128, .f32⟩
  | 50 => ⟨S200000, .f32⟩
  | 51 => ⟨S200000x1, .f32⟩
  | 52 => ⟨S200000x128, .f32⟩
  | 53 => ⟨S200000x128, .f32⟩
  | 54 => ⟨S200000x128, .f32⟩
  | 55 => ⟨S1x128, .f32⟩
  | 56 => ⟨S200000x128, .f32⟩
  | 57 => ⟨S200000x128, .f32⟩
  | 58 => ⟨S200000x128, .f32⟩
  | 59 => ⟨S1x600000, .i32⟩
  | 60 => ⟨S600000, .i32⟩
  | 61 => ⟨S1x600000, .i32⟩
  | 62 => ⟨S600000, .i32⟩
  | 63 => ⟨S_, .f32⟩
  | 64 => ⟨S600000, .f32⟩
  | 65 => ⟨S_, .f32⟩
  | 66 => ⟨S100000, .f32⟩
  | 67 => ⟨S600000x1, .i32⟩
  | 68 => ⟨S100000, .f32⟩
  | 69 => ⟨S_, .f32⟩
  | 70 => ⟨S100000, .f32⟩
  | 71 => ⟨S100000, .f32⟩
  | 72 => ⟨S100000, .f32⟩
  | 73 => ⟨S100000x128, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000, .f32⟩
  | 83 => ⟨S_, .i32⟩
  | 84 => ⟨S600000, .i32⟩
  | 85 => ⟨S600000, .i1⟩
  | 86 => ⟨S_, .i32⟩
  | 87 => ⟨S600000, .i32⟩
  | 88 => ⟨S600000, .i32⟩
  | 89 => ⟨S600000, .i32⟩
  | 90 => ⟨S600000x1, .i32⟩
  | 91 => ⟨S600000, .f32⟩
  | 92 => ⟨S600000, .f32⟩
  | 93 => ⟨S600000x1, .f32⟩
  | 94 => ⟨S_, .i32⟩
  | 95 => ⟨S600000, .i32⟩
  | 96 => ⟨S600000, .i1⟩
  | 97 => ⟨S_, .i32⟩
  | 98 => ⟨S600000, .i32⟩
  | 99 => ⟨S600000, .i32⟩
  | 100 => ⟨S600000, .i32⟩
  | 101 => ⟨S600000x1, .i32⟩
  | 102 => ⟨S600000x128, .f32⟩
  | 103 => ⟨S600000x128, .f32⟩
  | 104 => ⟨S600000x128, .f32⟩
  | 105 => ⟨S_, .f32⟩
  | 106 => ⟨S100000x128, .f32⟩
  | 107 => ⟨S600000x1, .i32⟩
  | 108 => ⟨S100000x128, .f32⟩
  | 109 => ⟨S100000, .f32⟩
  | 110 => ⟨S100000x1, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S200000x128, .f32⟩
  | 119 => ⟨S200000x128, .f32⟩
  | 120 => ⟨S_, .f32⟩
  | 121 => ⟨S100000x128, .f32⟩
  | 122 => ⟨S100000x128, .f32⟩
  | _ => ⟨S200000x128, .f32⟩

abbrev hbmTy (i : Nat) : BufTy := match i / 128 with
  | 0 => hbmTy0_0 i
  | 1 => hbmTy0_1 i
  | 2 => hbmTy0_2 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_c_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_cst_9 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_c_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_15 : Ref sig .tc := ⟨.hbm, 110, rfl⟩
abbrev main_v76 : Ref sig .tc := ⟨.hbm, 111, rfl⟩
abbrev main_v77 : Ref sig .tc := ⟨.hbm, 112, rfl⟩
abbrev main_c_16 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_cst_17 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_18 : Ref sig .tc := ⟨.hbm, 138, rfl⟩
abbrev main_v101 : Ref sig .tc := ⟨.hbm, 139, rfl⟩
abbrev main_cst_19 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_20 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_c_21 : Ref sig .tc := ⟨.hbm, 149, rfl⟩
abbrev main_v109 : Ref sig .tc := ⟨.hbm, 150, rfl⟩
abbrev main_v110 : Ref sig .tc := ⟨.hbm, 151, rfl⟩
abbrev main_c_22 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_c_23 : Ref sig .tc := ⟨.hbm, 158, rfl⟩
abbrev main_v116 : Ref sig .tc := ⟨.hbm, 159, rfl⟩
abbrev main_v117 : Ref sig .tc := ⟨.hbm, 160, rfl⟩
abbrev main_c_24 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_c_25 : Ref sig .tc := ⟨.hbm, 169, rfl⟩
abbrev main_v125 : Ref sig .tc := ⟨.hbm, 170, rfl⟩
abbrev main_v126 : Ref sig .tc := ⟨.hbm, 171, rfl⟩
abbrev main_c_26 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_27 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_call0_cst : Ref sig .tc := ⟨.hbm, 192, rfl⟩
abbrev main_call0_v0 : Ref sig .tc := ⟨.hbm, 193, rfl⟩
abbrev main_v145 : Ref sig .tc := ⟨.hbm, 194, rfl⟩
abbrev main_call1_cst : Ref sig .tc := ⟨.hbm, 195, rfl⟩
abbrev main_call1_v0 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_28 : Ref sig .tc := ⟨.hbm, 202, rfl⟩
abbrev main_v151 : Ref sig .tc := ⟨.hbm, 203, rfl⟩
abbrev main_cst_29 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_cst_30 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_c_31 : Ref sig .tc := ⟨.hbm, 213, rfl⟩
abbrev main_v159 : Ref sig .tc := ⟨.hbm, 214, rfl⟩
abbrev main_v160 : Ref sig .tc := ⟨.hbm, 215, rfl⟩
abbrev main_c_32 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_c_33 : Ref sig .tc := ⟨.hbm, 222, rfl⟩
abbrev main_v166 : Ref sig .tc := ⟨.hbm, 223, rfl⟩
abbrev main_v167 : Ref sig .tc := ⟨.hbm, 224, rfl⟩
abbrev main_c_34 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_c_35 : Ref sig .tc := ⟨.hbm, 233, rfl⟩
abbrev main_v175 : Ref sig .tc := ⟨.hbm, 234, rfl⟩
abbrev main_v176 : Ref sig .tc := ⟨.hbm, 235, rfl⟩
abbrev main_c_36 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_cst_37 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_v192 : Ref sig .tc := ⟨.hbm, 253, rfl⟩
abbrev main_v193 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_cst_38 : Ref sig .tc := ⟨.hbm, 260, rfl⟩
abbrev main_v199 : Ref sig .tc := ⟨.hbm, 261, rfl⟩
abbrev main_cst_39 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_cst_40 : Ref sig .tc := ⟨.hbm, 266, rfl⟩
abbrev main_v203 : Ref sig .tc := ⟨.hbm, 267, rfl⟩
abbrev main_v204 : Ref sig .tc := ⟨.hbm, 268, rfl⟩
abbrev main_v205 : Ref sig .tc := ⟨.hbm, 269, rfl⟩
abbrev main_v206 : Ref sig .tc := ⟨.hbm, 270, rfl⟩
abbrev main_c_41 : Ref sig .tc := ⟨.hbm, 271, rfl⟩
abbrev main_v207 : Ref sig .tc := ⟨.hbm, 272, rfl⟩
abbrev main_v208 : Ref sig .tc := ⟨.hbm, 273, rfl⟩
abbrev main_c_42 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_c_43 : Ref sig .tc := ⟨.hbm, 280, rfl⟩
abbrev main_v214 : Ref sig .tc := ⟨.hbm, 281, rfl⟩
abbrev main_v215 : Ref sig .tc := ⟨.hbm, 282, rfl⟩
abbrev main_c_44 : Ref sig .tc := ⟨.hbm, 283, rfl⟩
abbrev main_v216 : Ref sig .tc := ⟨.hbm, 284, rfl⟩
abbrev main_v217 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_c_45 : Ref sig .tc := ⟨.hbm, 291, rfl⟩
abbrev main_v223 : Ref sig .tc := ⟨.hbm, 292, rfl⟩
abbrev main_v224 : Ref sig .tc := ⟨.hbm, 293, rfl⟩
abbrev main_c_46 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_cst_47 : Ref sig .tc := ⟨.hbm, 302, rfl⟩
abbrev main_v232 : Ref sig .tc := ⟨.hbm, 303, rfl⟩
abbrev main_v233 : Ref sig .tc := ⟨.hbm, 304, rfl⟩
abbrev main_v234 : Ref sig .tc := ⟨.hbm, 305, rfl⟩
abbrev main_v235 : Ref sig .tc := ⟨.hbm, 306, rfl⟩
abbrev main_v236 : Ref sig .tc := ⟨.hbm, 307, rfl⟩
abbrev main_v237 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_v246 : Ref sig .tc := ⟨.hbm, 317, rfl⟩
abbrev main_v247 : Ref sig .tc := ⟨.hbm, 318, rfl⟩
abbrev main_cst_48 : Ref sig .tc := ⟨.hbm, 319, rfl⟩
abbrev main_v248 : Ref sig .tc := ⟨.hbm, 320, rfl⟩
abbrev main_cst_49 : Ref sig .tc := ⟨.hbm, 321, rfl⟩
abbrev main_v249 : Ref sig .tc := ⟨.hbm, 322, rfl⟩
abbrev main_v250 : Ref sig .tc := ⟨.hbm, 323, rfl⟩
abbrev main_v251 : Ref sig .tc := ⟨.hbm, 324, rfl⟩
abbrev main_cst_50 : Ref sig .tc := ⟨.hbm, 325, rfl⟩
abbrev main_v252 : Ref sig .tc := ⟨.hbm, 326, rfl⟩
abbrev main_v253 : Ref sig .tc := ⟨.hbm, 327, rfl⟩
abbrev main_v254 : Ref sig .tc := ⟨.hbm, 328, rfl⟩
abbrev main_v255 : Ref sig .tc := ⟨.hbm, 329, rfl⟩
abbrev main_c_51 : Ref sig .tc := ⟨.hbm, 330, rfl⟩
abbrev main_v256 : Ref sig .tc := ⟨.hbm, 331, rfl⟩
abbrev main_v257 : Ref sig .tc := ⟨.hbm, 332, rfl⟩
abbrev main_c_52 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_v261 : Ref sig .tc := ⟨.hbm, 337, rfl⟩
abbrev main_v262 : Ref sig .tc := ⟨.hbm, 338, rfl⟩
abbrev main_c_53 : Ref sig .tc := ⟨.hbm, 339, rfl⟩
abbrev main_v263 : Ref sig .tc := ⟨.hbm, 340, rfl⟩
abbrev main_v264 : Ref sig .tc := ⟨.hbm, 341, rfl⟩
abbrev main_c_54 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_v268 : Ref sig .tc := ⟨.hbm, 346, rfl⟩
abbrev main_v269 : Ref sig .tc := ⟨.hbm, 347, rfl⟩
abbrev main_v270 : Ref sig .tc := ⟨.hbm, 348, rfl⟩
abbrev main_v271 : Ref sig .tc := ⟨.hbm, 349, rfl⟩
abbrev main_c_55 : Ref sig .tc := ⟨.hbm, 350, rfl⟩
abbrev main_v272 : Ref sig .tc := ⟨.hbm, 351, rfl⟩
abbrev main_v273 : Ref sig .tc := ⟨.hbm, 352, rfl⟩
abbrev main_c_56 : Ref sig .tc := ⟨.hbm, 353, rfl⟩
abbrev main_v274 : Ref sig .tc := ⟨.hbm, 354, rfl⟩
abbrev main_v275 : Ref sig .tc := ⟨.hbm, 355, rfl⟩
abbrev main_v276 : Ref sig .tc := ⟨.hbm, 356, rfl⟩
abbrev main_v277 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_cst_57 : Ref sig .tc := ⟨.hbm, 361, rfl⟩
abbrev main_v281 : Ref sig .tc := ⟨.hbm, 362, rfl⟩
abbrev main_v282 : Ref sig .tc := ⟨.hbm, 363, rfl⟩
abbrev main_v283 : Ref sig .tc := ⟨.hbm, 364, rfl⟩
abbrev main_v284 : Ref sig .tc := ⟨.hbm, 365, rfl⟩
abbrev main_v285 : Ref sig .tc := ⟨.hbm, 366, rfl⟩
abbrev main_v286 : Ref sig .tc := ⟨.hbm, 367, rfl⟩
abbrev main_v287 : Ref sig .tc := ⟨.hbm, 368, rfl⟩
abbrev main_v288 : Ref sig .tc := ⟨.hbm, 369, rfl⟩
abbrev main_v289 : Ref sig .tc := ⟨.hbm, 370, rfl⟩
abbrev main_v290 : Ref sig .tc := ⟨.hbm, 371, rfl⟩
abbrev main_v291 : Ref sig .tc := ⟨.hbm, 372, rfl⟩
abbrev main_call2_cst : Ref sig .tc := ⟨.hbm, 373, rfl⟩
abbrev main_call2_v0 : Ref sig .tc := ⟨.hbm, 374, rfl⟩
abbrev main_v292 : Ref sig .tc := ⟨.hbm, 375, rfl⟩
abbrev main_call3_cst : Ref sig .tc := ⟨.hbm, 376, rfl⟩
abbrev main_call3_v0 : Ref sig .tc := ⟨.hbm, 377, rfl⟩
abbrev main_v293 : Ref sig .tc := ⟨.hbm, 378, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S200000 : S_.BroadcastsInDim S200000 (![] : Fin 0 → Fin S200000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S200000x64 : S_.BroadcastsInDim S200000x64 (![] : Fin 0 → Fin S200000x64.rank)
  bcast_S200000_S200000x1_0 : S200000.BroadcastsInDim S200000x1 (![0] : Fin 1 → Fin S200000x1.rank)
  bcast_S200000x1_S200000x64_0_1 : S200000x1.BroadcastsInDim S200000x64 (![0, 1] : Fin 2 → Fin S200000x64.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S600000x1_S600000x64_0_1 : S600000x1.BroadcastsInDim S600000x64 (![0, 1] : Fin 2 → Fin S600000x64.rank)
  bcast_S_S100000 : S_.BroadcastsInDim S100000 (![] : Fin 0 → Fin S100000.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  bcast_S1000000x1_S1000000x128_0_1 : S1000000x1.BroadcastsInDim S1000000x128 (![0, 1] : Fin 2 → Fin S1000000x128.rank)
  bcast_S_S200000x128 : S_.BroadcastsInDim S200000x128 (![] : Fin 0 → Fin S200000x128.rank)
  bcast_S200000x1_S200000x128_0_1 : S200000x1.BroadcastsInDim S200000x128 (![0, 1] : Fin 2 → Fin S200000x128.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  scatter_S200000_S1000000x1_S1000000_n_0_0_1_wf : ScatterDims.WF S200000 S1000000x1 S1000000 [] [0] [0] 1
  dot_S200000x128_S128x64_S200000x64_1_0_0_1_n_n_wf : DotDims.WF S200000x128 S128x64 S200000x64 [1] [0] [0] [1] [] []
  gather_S200000_S1000000x1_S1000000_n_0_n_n_0_1_1_wf : GatherDims.WF S200000 S1000000x1 S1000000 [] [0] [] [0] [] 1 ![1]
  gather_S200000x64_S1000000x1_S1000000x64_1_0_n_n_0_1_164_wf : GatherDims.WF S200000x64 S1000000x1 S1000000x64 [1] [0] [] [0] [] 1 ![1, 64]
  scatter_S200000x64_S1000000x1_S1000000x64_1_0_0_1_wf : ScatterDims.WF S200000x64 S1000000x1 S1000000x64 [1] [0] [0] 1
  scatter_S200000_S600000x1_S600000_n_0_0_1_wf : ScatterDims.WF S200000 S600000x1 S600000 [] [0] [0] 1
  gather_S200000_S600000x1_S600000_n_0_n_n_0_1_1_wf : GatherDims.WF S200000 S600000x1 S600000 [] [0] [] [0] [] 1 ![1]
  gather_S200000x64_S600000x1_S600000x64_1_0_n_n_0_1_164_wf : GatherDims.WF S200000x64 S600000x1 S600000x64 [1] [0] [] [0] [] 1 ![1, 64]
  scatter_S200000x64_S600000x1_S600000x64_1_0_0_1_wf : ScatterDims.WF S200000x64 S600000x1 S600000x64 [1] [0] [0] 1
  scatter_S100000_S600000x1_S600000_n_0_0_1_wf : ScatterDims.WF S100000 S600000x1 S600000 [] [0] [0] 1
  dot_S100000x128_S128x64_S100000x64_1_0_0_1_n_n_wf : DotDims.WF S100000x128 S128x64 S100000x64 [1] [0] [0] [1] [] []
  gather_S100000_S600000x1_S600000_n_0_n_n_0_1_1_wf : GatherDims.WF S100000 S600000x1 S600000 [] [0] [] [0] [] 1 ![1]
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S200000x64_S64x128_S200000x128_1_0_0_1_n_n_wf : DotDims.WF S200000x64 S64x128 S200000x128 [1] [0] [0] [1] [] []
  gather_S200000x128_S1000000x1_S1000000x128_1_0_n_n_0_1_1128_wf : GatherDims.WF S200000x128 S1000000x1 S1000000x128 [1] [0] [] [0] [] 1 ![1, 128]
  scatter_S200000x128_S1000000x1_S1000000x128_1_0_0_1_wf : ScatterDims.WF S200000x128 S1000000x1 S1000000x128 [1] [0] [0] 1
  gather_S200000x128_S600000x1_S600000x128_1_0_n_n_0_1_1128_wf : GatherDims.WF S200000x128 S600000x1 S600000x128 [1] [0] [] [0] [] 1 ![1, 128]
  scatter_S200000x128_S600000x1_S600000x128_1_0_0_1_wf : ScatterDims.WF S200000x128 S600000x1 S600000x128 [1] [0] [0] 1
  dot_S100000x64_S64x128_S100000x128_1_0_0_1_n_n_wf : DotDims.WF S100000x64 S64x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1

variable [Facts₀]

def scatter_S200000_S1000000x1_S1000000_n_0_0_1 : ScatterDims S200000 S1000000x1 S1000000 where
  updateWindowDims := []
  insertedWindowDims := [0]
  scatterDimsToOperandDims := [0]
  indexVectorDim := 1
  wf := scatter_S200000_S1000000x1_S1000000_n_0_0_1_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def gather_S200000_S1000000x1_S1000000_n_0_n_n_0_1_1 : GatherDims S200000 S1000000x1 S1000000 where
  offsetDims := []
  collapsedSliceDims := [0]
  operandBatchingDims := []
  startIndicesBatchingDims := []
  startIndexMap := [0]
  indexVectorDim := 1
  sliceSizes := ![1]
  wf := gather_S200000_S1000000x1_S1000000_n_0_n_n_0_1_1_wf
def gather_S200000x64_S1000000x1_S1000000x64_1_0_n_n_0_1_164 : GatherDims S200000x64 S1000000x1 S1000000x64 where
  offsetDims := [1]
  collapsedSliceDims := [0]
  operandBatchingDims := []
  startIndicesBatchingDims := []
  startIndexMap := [0]
  indexVectorDim := 1
  sliceSizes := ![1, 64]
  wf := gather_S200000x64_S1000000x1_S1000000x64_1_0_n_n_0_1_164_wf
def scatter_S200000x64_S1000000x1_S1000000x64_1_0_0_1 : ScatterDims S200000x64 S1000000x1 S1000000x64 where
  updateWindowDims := [1]
  insertedWindowDims := [0]
  scatterDimsToOperandDims := [0]
  indexVectorDim := 1
  wf := scatter_S200000x64_S1000000x1_S1000000x64_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def gather_S200000x64_S600000x1_S600000x64_1_0_n_n_0_1_164 : GatherDims S200000x64 S600000x1 S600000x64 where
  offsetDims := [1]
  collapsedSliceDims := [0]
  operandBatchingDims := []
  startIndicesBatchingDims := []
  startIndexMap := [0]
  indexVectorDim := 1
  sliceSizes := ![1, 64]
  wf := gather_S200000x64_S600000x1_S600000x64_1_0_n_n_0_1_164_wf
def scatter_S200000x64_S600000x1_S600000x64_1_0_0_1 : ScatterDims S200000x64 S600000x1 S600000x64 where
  updateWindowDims := [1]
  insertedWindowDims := [0]
  scatterDimsToOperandDims := [0]
  indexVectorDim := 1
  wf := scatter_S200000x64_S600000x1_S600000x64_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def gather_S200000x128_S1000000x1_S1000000x128_1_0_n_n_0_1_1128 : GatherDims S200000x128 S1000000x1 S1000000x128 where
  offsetDims := [1]
  collapsedSliceDims := [0]
  operandBatchingDims := []
  startIndicesBatchingDims := []
  startIndexMap := [0]
  indexVectorDim := 1
  sliceSizes := ![1, 128]
  wf := gather_S200000x128_S1000000x1_S1000000x128_1_0_n_n_0_1_1128_wf
def scatter_S200000x128_S1000000x1_S1000000x128_1_0_0_1 : ScatterDims S200000x128 S1000000x1 S1000000x128 where
  updateWindowDims := [1]
  insertedWindowDims := [0]
  scatterDimsToOperandDims := [0]
  indexVectorDim := 1
  wf := scatter_S200000x128_S1000000x1_S1000000x128_1_0_0_1_wf
def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

class Facts : Prop extends Facts₀ where

variable [Facts]
-- ==== Proof.RunFull.lean ====
/-
  The kernel program's run with its two RESULT arrays kept.

  The program is twenty segments: ten stretches of host operations alternating with ten tiled regions. Its run is a fold
  of buffer contents from the launch memory through the segments — a stretch applies its operations, a region replaces
  its output array by what its grid points wrote back — and `W20` is the contents the last segment leaves. The frame
  theorem reads only the argument arrays off the final state; the same run, read also at the two result buffers, says:
  every weakly fair execution terminates, without a fault, with the paper-node result at `W20`'s contents of its buffer,
  the author-node result likewise, and the arguments as launched. Stated at any float instance.
-/
import proofs.«130242_j57475252355428_1_alg».proof.Proof.Gen.KernelIdeal.Frame

set_option maxRecDepth 16384

noncomputable section

namespace Cert.KernelIdeal.RunFull

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting; the two result buffers end at the
    last boundary's contents `W20` and every argument array as launched. -/
theorem run : θ_run defs (onTc (τ := τ) (main (F := F))) ⟨m, fun _ => 0, ρ⟩ (fun r => ∀ c : Dev nD,
      r.2.mem ((c.tc : Thread nD τ).loc main_v217) = W20 m ρ c (Proc.devRef .tc main_v217)
      ∧ r.2.mem ((c.tc : Thread nD τ).loc main_v261) = W20 m ρ c (Proc.devRef .tc main_v261)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v217 (by decide)),
       h c _ (mem_uc main_v261 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c)⟩)

end Cert.KernelIdeal.RunFull

end
-- ==== Proof.RefStages.lean ====
/-
  The reference program's stages, re-exported: every operation of the reference's @main as a function of the argument
  arrays it depends on, and that function read at an index.
-/
import proofs.«130242_j57475252355428_1_alg».proof.Proof.RefReadPatched
-- ==== Proof.H0.lean ====
/-
  Boundary 1: the buffer contents after the first stretch of host operations, at the buffers later segments read.

  A buffer the stretch does not write keeps what it held before the stretch. A buffer the stretch writes holds the
  stretch's operations applied, in order, to what the stretch read; written out, that term is the reference program's
  stage of the same name-free shape (the same slices, broadcasts, gathers, scatter-adds and products of the same
  arguments), so each fact names the contents by that stage of the argument arrays.
-/
import proofs.«130242_j57475252355428_1_alg».proof.Proof.Gen.KernelIdeal.Frame
import proofs.«130242_j57475252355428_1_alg».proof.Proof.RefStages
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen
open Cert.KernelIdeal.Facts₀ (shapeCasts_S64_S1x64 shapeCasts_S128_S1x128)

variable (m : (ℓ : Loc nD τ sig) → Buf (Elt Ideal) ℓ) (ρ : Dev nD → PrngReg)

/-- The buffers this stretch writes. -/
def written0 : List (Ref sig .tc) := [main_v0, main_v1, main_v2, main_v3, main_cst, main_v4, main_cst_0, main_v5, main_v6, main_v7, main_cst_1, main_v8, main_v9, main_v10]

/-- A buffer the stretch does not write is left as it was. -/
theorem pass0 (V : Valuation τ sig (Elt Ideal)) (b : Ref sig .tc) (h : ∀ x ∈ written0, b ≠ x) :
    StableHlo.after hostOps0 V (Proc.devRef .tc b) = V (Proc.devRef .tc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem at1_arg16 (c : Dev nD) : W1 m ρ c (Proc.devRef .tc main_arg16) = m ((c : Thread nD τ).loc main_arg16) := pass0 (W0 m ρ c) main_arg16 (by decide)

theorem at1_arg15 (c : Dev nD) : W1 m ρ c (Proc.devRef .tc main_arg15) = m ((c : Thread nD τ).loc main_arg15) := pass0 (W0 m ρ c) main_arg15 (by decide)

theorem at1_arg4 (c : Dev nD) : W1 m ρ c (Proc.devRef .tc main_arg4) = m ((c : Thread nD τ).loc main_arg4) := pass0 (W0 m ρ c) main_arg4 (by decide)

theorem at1_arg12 (c : Dev nD) : W1 m ρ c (Proc.devRef .tc main_arg12) = m ((c : Thread nD τ).loc main_arg12) := pass0 (W0 m ρ c) main_arg12 (by decide)

theorem at1_arg14 (c : Dev nD) : W1 m ρ c (Proc.devRef .tc main_arg14) = m ((c : Thread nD τ).loc main_arg14) := pass0 (W0 m ρ c) main_arg14 (by decide)

theorem at1_arg13 (c : Dev nD) : W1 m ρ c (Proc.devRef .tc main_arg13) = m ((c : Thread nD τ).loc main_arg13) := pass0 (W0 m ρ c) main_arg13 (by decide)

theorem at1_arg3 (c : Dev nD) : W1 m ρ c (Proc.devRef .tc main_arg3) = m ((c : Thread nD τ).loc main_arg3) := pass0 (W0 m ρ c) main_arg3 (by decide)

theorem at1_arg11 (c : Dev nD) : W1 m ρ c (Proc.devRef .tc main_arg11) = m ((c : Thread nD τ).loc main_arg11) := pass0 (W0 m ρ c) main_arg11 (by decide)

theorem at1_arg2 (c : Dev nD) : W1 m ρ c (Proc.devRef .tc main_arg2) = m ((c : Thread nD τ).loc main_arg2) := pass0 (W0 m ρ c) main_arg2 (by decide)

theorem at1_arg10 (c : Dev nD) : W1 m ρ c (Proc.devRef .tc main_arg10) = m ((c : Thread nD τ).loc main_arg10) := pass0 (W0 m ρ c) main_arg10 (by decide)

theorem at1_arg1 (c : Dev nD) : W1 m ρ c (Proc.devRef .tc main_arg1) = m ((c : Thread nD τ).loc main_arg1) := pass0 (W0 m ρ c) main_arg1 (by decide)

theorem at1_arg9 (c : Dev nD) : W1 m ρ c (Proc.devRef .tc main_arg9) = m ((c : Thread nD τ).loc main_arg9) := pass0 (W0 m ρ c) main_arg9 (by decide)

theorem at1_arg6 (c : Dev nD) : W1 m ρ c (Proc.devRef .tc main_arg6) = m ((c : Thread nD τ).loc main_arg6) := pass0 (W0 m ρ c) main_arg6 (by decide)

theorem at1_arg8 (c : Dev nD) : W1 m ρ c (Proc.devRef .tc main_arg8) = m ((c : Thread nD τ).loc main_arg8) := pass0 (W0 m ρ c) main_arg8 (by decide)

theorem at1_arg0 (c : Dev nD) : W1 m ρ c (Proc.devRef .tc main_arg0) = m ((c : Thread nD τ).loc main_arg0) := pass0 (W0 m ρ c) main_arg0 (by decide)

theorem at1_arg7 (c : Dev nD) : W1 m ρ c (Proc.devRef .tc main_arg7) = m ((c : Thread nD τ).loc main_arg7) := pass0 (W0 m ρ c) main_arg7 (by decide)

theorem at1_v10 (c : Dev nD) : W1 m ρ c (Proc.devRef .tc main_v10) = (Cert.ReferenceIdeal.Read.val_main_v10 (F := Ideal) (m ((c : Thread nD τ).loc main_arg2))) := by
  show StableHlo.after hostOps0 (W0 m ρ c) (Proc.devRef .tc main_v10) = _
  after_results_simp
  all_goals rfl

theorem at1_v3 (c : Dev nD) : W1 m ρ c (Proc.devRef .tc main_v3) = (Cert.ReferenceIdeal.Read.val_main_v3 (F := Ideal) (m ((c : Thread nD τ).loc main_arg2))) := by
  show StableHlo.after hostOps0 (W0 m ρ c) (Proc.devRef .tc main_v3) = _
  after_results_simp
  all_goals rfl

theorem at1_v1 (c : Dev nD) : W1 m ρ c (Proc.devRef .tc main_v1) = (Cert.ReferenceIdeal.Read.val_main_v1 (F := Ideal) (m ((c : Thread nD τ).loc main_arg2))) := by
  show StableHlo.after hostOps0 (W0 m ρ c) (Proc.devRef .tc main_v1) = _
  after_results_simp
  all_goals rfl

theorem at1_arg5 (c : Dev nD) : W1 m ρ c (Proc.devRef .tc main_arg5) = m ((c : Thread nD τ).loc main_arg5) := pass0 (W0 m ρ c) main_arg5 (by decide)

end Cert.KernelIdeal.Flow

end
-- ==== Proof.GraphSpec.lean ====
/-
  The mathematics of one graph-convolution layer, stated on whole arrays of extended reals, index by index, with no
  program in sight.

  * `mm n k f x w` is the matrix product of an n×k array and a k×f array: entry (r, c) is the sum over l of
    x[r, l] · w[l, c].
  * `comb2 n f` is the epilogue of a node type that receives messages over two edge types: at entry (r, c),
    max (a₁[r,c] + a₂[r,c] + d₁[r]·x₁[r,c] + d₂[r]·x₂[r,c] + b[c], 0), where a₁, a₂ are the aggregated messages,
    x₁, x₂ the transformed features, d₁, d₂ the self-loop weights (one per node, kept as a column), and b a bias row.
    The sum is bracketed to the left, in the order just written.
  * `comb1 n f` is the same for one edge type: max (a[r,c] + d[r]·x[r,c] + b[c], 0).

  Only + and · and max of extended reals appear; nothing here needs the entries to be finite.
-/
import Idealize.ShloMosaic.PureOps.Ideal
import Idealize.ShloMosaic.Lib.ValueIdx

noncomputable section

namespace Cert.GraphSpec

open Idealize.ShloMosaic Idealize.ShloMosaic.ValueIdx

/-- A two-axis array of extended reals with `n` rows and `f` columns. -/
abbrev Arr2 (n f : Nat) : Type := (⟨2, ![n, f]⟩ : Shape).Idx → EReal

/-- The float zero, kept as the word the programs print (it is the real 0: `Ideal.ofBits_zero_f32`). -/
abbrev zeroF : EReal := Ideal.ofBits .f32 0x00000000#32

/-- Matrix product: entry (r, c) is ∑ₗ x[r, l] · w[l, c]. -/
def mm (n k f : Nat) (x : Arr2 n k) (w : Arr2 k f) : Arr2 n f :=
  fun i => ∑ l : Fin k, x (ix2 (i 0) l) * w (ix2 l (i 1))

/-- Two edge types into one node type: max (a₁ + a₂ + d₁·x₁ + d₂·x₂ + b, 0), entry by entry, the self-loop weights
    `d₁ d₂` one per row and the bias `b` one per column. -/
def comb2 (n f : Nat) (a1 a2 x1 x2 : Arr2 n f) (d1 d2 : Arr2 n 1) (b : Arr2 1 f) : Arr2 n f :=
  fun i => max (a1 i + a2 i + d1 (ix2 (i 0) 0) * x1 i + d2 (ix2 (i 0) 0) * x2 i + b (ix2 0 (i 1))) zeroF

/-- One edge type into one node type: max (a + d·x + b, 0), entry by entry. -/
def comb1 (n f : Nat) (a x : Arr2 n f) (d : Arr2 n 1) (b : Arr2 1 f) : Arr2 n f :=
  fun i => max (a i + d (ix2 (i 0) 0) * x i + b (ix2 0 (i 1))) zeroF

end Cert.GraphSpec

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.Mat0.lean ====
/-
  Region 0 of the layer: a matrix product computed in row blocks.

  The region's grid has 50 points; point t reads rows 4000·t … 4000·t + 3999 of the left operand (a 200000×128 array), the
  whole right operand (128×64), and writes rows 4000·t … 4000·t + 3999 of the result. Entry (p, q) of the block it writes is
  ∑ₗ x[4000·t + p, l] · w[l, q]: narrowing the operands to bf16 is exact on extended reals and the accumulator starts
  at zero. The 50 row blocks tile the result, so after the last point the result array is the matrix product of the two
  input arrays, entry by entry.
-/
import proofs.«130242_j57475252355428_1_alg».proof.Proof.Gen.KernelIdeal.Frame
import proofs.«130242_j57475252355428_1_alg».proof.Proof.GraphSpec
import proofs.«130242_j57475252355428_1_alg».proof.Proof.LibMatmulBlock
import Idealize.ShloMosaic.Lib.Pipeline.Value

set_option maxRecDepth 16384

noncomputable section

namespace Cert.KernelIdeal.Mat0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point t the left operand's and the result's block is row block t (column block 0);
    the right operand's block is the whole array. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's result at entry (p, q) of its block: ∑ₗ x[p, l] · w[l, q]. Narrowing to bf16 is the identity on
    extended reals, and the accumulator is the zero array. -/
theorem pay_apply (x0 : Vec Ideal S4000x128 .f32) (x1 : Vec Ideal S128x64 .f32) (p : Fin 4000) (q : Fin 64) :
    Gen.k0_pay1 (F := Ideal) x0 x1 (ix2 p q) = ∑ l : Fin 128, x0 (ix2 p l) * x1 (ix2 l q) :=
  Cert.LibMatmulBlock.matmul_zero_apply (m := 4000) (k := 128) (n := 64) Facts₀.dot_S4000x128_S128x64_S4000x64_1_0_0_1_n_n_wf none
      (truncf .bf16 x0 Facts₀.bitsLt_bf16_f32) (truncf .bf16 x1 Facts₀.bitsLt_bf16_f32) p q

/-- The left operand's block at point t is rows 4000·t … of its array. -/
theorem read_lhs (c : Dev nD) (t : Fin cfg0.N) (y : S4000x128.Idx) (i : S200000x128.Idx)
    (h0 : (i 0).val = t.val * 4000 + (y 0).val) (h1 : (i 1).val = (y 1).val) :
    (Gen.iblk0 V c 0 t : Vec Ideal S4000x128 .f32) y = (V c main_arg0 : S200000x128.Idx → EReal) i := by
  obtain ⟨e0, e1, -⟩ := idx_facts t
  unfold Gen.iblk0
  rw [View.read_apply]
  show V c main_arg0 (((cfg0.win 0).blk t).view.emb y) = V c main_arg0 i
  refine congrArg _ ?_
  funext a
  apply Fin.ext
  match a with
  | ⟨0, _⟩ => show win0_0.index t (0 : Fin 2) * 4000 + 1 * (y 0).val = (i 0).val; rw [e0, h0]; omega
  | ⟨1, _⟩ => show win0_0.index t (1 : Fin 2) * 128 + 1 * (y 1).val = (i 1).val; rw [e1, h1]; omega

/-- The right operand's block at every point is its whole array. -/
theorem read_rhs (c : Dev nD) (t : Fin cfg0.N) (y : S128x64.Idx) (i : S128x64.Idx)
    (h0 : (i 0).val = (y 0).val) (h1 : (i 1).val = (y 1).val) :
    (Gen.iblk0 V c 1 t : Vec Ideal S128x64 .f32) y = (V c main_arg5 : S128x64.Idx → EReal) i := by
  obtain ⟨-, -, e2, e3, -⟩ := idx_facts t
  unfold Gen.iblk0
  rw [View.read_apply]
  show V c main_arg5 (((cfg0.win 1).blk t).view.emb y) = V c main_arg5 i
  refine congrArg _ ?_
  funext a
  apply Fin.ext
  match a with
  | ⟨0, _⟩ => show win0_1.index t (0 : Fin 2) * 128 + 1 * (y 0).val = (i 0).val; rw [e2, h0]; omega
  | ⟨1, _⟩ => show win0_1.index t (1 : Fin 2) * 64 + 1 * (y 1).val = (i 1).val; rw [e3, h1]; omega

/-- What point t writes back is block t of the matrix product of the two input arrays. -/
theorem flushed_eq (c : Dev nD) (t : Fin cfg0.N) :
    (Gen.dat0 (F := Ideal) V c).flushed 2 t
      = ((cfg0.win 2).blk t).view.read (Elt Ideal) (GraphSpec.mm 200000 128 64 (V c main_arg0) (V c main_arg5)) := by
  show (cfg0.win 2).cut (grid0.coords t) ((Gen.dat0 V c).after 2 t) = _
  rw [Gen.after0_2]
  unfold Gen.out0_2
  rw [View.canon_unit_zero hz]
  simp only [View.ld_unit_zero (S := S4000x128) hz, View.ld_unit_zero (S := S128x64) hz]
  obtain ⟨-, -, -, -, e4, e5⟩ := idx_facts t
  funext j
  show Gen.k0_pay1 (F := Ideal) (Gen.iblk0 V c 0 t) (Gen.iblk0 V c 1 t) j
    = GraphSpec.mm 200000 128 64 (V c main_arg0) (V c main_arg5) (((cfg0.win 2).blk t).view.emb j)
  obtain ⟨p, q, rfl⟩ : ∃ (p : Fin 4000) (q : Fin 64), j = ix2 p q := ⟨j 0, j 1, eq_ix2 j⟩
  refine (pay_apply _ _ p q).trans ?_
  unfold GraphSpec.mm
  refine Finset.sum_congr rfl fun l _ => ?_
  have hr0 : ((((cfg0.win 2).blk t).view.emb (ix2 p q)) 0).val = t.val * 4000 + p.val := by
    show win0_2.index t (0 : Fin 2) * 4000 + 1 * p.val = _; rw [e4]; omega
  have hr1 : ((((cfg0.win 2).blk t).view.emb (ix2 p q)) 1).val = q.val := by
    show win0_2.index t (1 : Fin 2) * 64 + 1 * q.val = _; rw [e5]; omega
  have hl := read_lhs V c t (ix2 p l) (ix2 ((((cfg0.win 2).blk t).view.emb (ix2 p q)) 0) l) hr0 rfl
  have hr := read_rhs V c t (ix2 l q) (ix2 l ((((cfg0.win 2).blk t).view.emb (ix2 p q)) 1)) rfl hr1
  rw [hl, hr]

/-- An index of the result array is in point t's block iff each coordinate is in the block's range on its axis. -/
theorem mem_blk (t : Fin cfg0.N) (i : S200000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v11).slice (win0_2.rect t)).set ↔ _
  rw [View.set_slice_whole, Rect.mem_set_unit]
  exact Iff.rfl

/-- The row blocks tile the result: row r lies in the block of point r / 4000. -/
theorem cover (i : S200000x64.Idx) : ∃ t : Fin cfg0.N, (cfg0.win 2).flush t = true ∧ i ∈ ((cfg0.win 2).blk t).view.set := by
  have hi0 : (i 0).val < 200000 := (i 0).isLt
  have hi1 : (i 1).val < 64 := (i 1).isLt
  have hN : cfg0.N = 50 := Gen.N_0
  refine ⟨⟨(i 0).val / 4000, by rw [hN]; omega⟩, Gen.flush0_2 _, ?_⟩
  rw [mem_blk]
  obtain ⟨-, -, -, -, e4, e5⟩ := idx_facts ⟨(i 0).val / 4000, by rw [hN]; omega⟩
  intro a
  match a with
  | ⟨0, _⟩ =>
    show win0_2.index _ (0 : Fin 2) * 4000 ≤ (i 0).val ∧ (i 0).val < win0_2.index _ (0 : Fin 2) * 4000 + 4000
    rw [e4]; show (i 0).val / 4000 * 4000 ≤ (i 0).val ∧ (i 0).val < (i 0).val / 4000 * 4000 + 4000; omega
  | ⟨1, _⟩ =>
    show win0_2.index _ (1 : Fin 2) * 64 ≤ (i 1).val ∧ (i 1).val < win0_2.index _ (1 : Fin 2) * 64 + 64
    rw [e5]; omega

/-- After all 50 points the result array is the matrix product of the two input arrays. -/
theorem final (c : Dev nD) :
    (Gen.dat0 (F := Ideal) V c).arrAt 2 cfg0.N = GraphSpec.mm 200000 128 64 (V c main_arg0) (V c main_arg5) :=
  (Gen.dat0 (F := Ideal) V c).arrAt_eq_of_cover 2 _ (fun t _ => flushed_eq V c t) cover

end Cert.KernelIdeal.Mat0

end
-- ==== Proof.BridgeMM.lean ====
/-
  The reference's matrix products are the specification's.

  Each `dot_general` of the reference contracts the second axis of its left operand with the first axis of its right
  operand; read at an entry (r, c) on the extended reals it is ∑ₗ x[r, l] · w[l, c] (the generated read lemma), which is
  `GraphSpec.mm` word for word once the two index spellings — coordinates listed, or an index function — are identified.
  In the second layer the left operand is itself a stage of the arguments (the first layer's output).
-/
import proofs.«130242_j57475252355428_1_alg».proof.Proof.GraphSpec
import proofs.«130242_j57475252355428_1_alg».proof.Proof.RefStages
import Idealize.ShloMosaic.PureOps.Ideal.Laws
import Idealize.ShloMosaic.Lib.Pipeline.Value
import Idealize.ShloMosaic.Lib.ValueIdx

set_option maxRecDepth 16384

noncomputable section

namespace Cert.Bridge

open Idealize.ShloMosaic Idealize.ShloMosaic.ValueIdx Cert.ReferenceIdeal Cert.ReferenceIdeal.Read Cert.GraphSpec

/-- The reference's stage `v11` is the 200000×128 by 128×64 matrix product of its two operands. -/
theorem mm_v11 (a0 : (⟨S200000x128, .f32⟩ : BufTy).Contents (Elt Ideal)) (a5 : (⟨S128x64, .f32⟩ : BufTy).Contents (Elt Ideal)) :
    GraphSpec.mm 200000 128 64 a0 a5 = val_main_v11 (F := Ideal) a0 a5 := by
  funext i
  rw [val_main_v11_apply]
  show (∑ l : Fin 128, a0 (ix2 (i 0) l) * a5 (ix2 l (i 1))) = _
  refine Finset.sum_congr rfl fun l _ => ?_
  have e1 : (ix2 (i 0) l : S200000x128.Idx) = lidx_main_v11 i l := funext fun a => by
    match a with
    | ⟨0, _⟩ => rfl
    | ⟨1, _⟩ => rfl
  have e2 : (ix2 l (i 1) : S128x64.Idx) = ridx_main_v11 i l := funext fun a => by
    match a with
    | ⟨0, _⟩ => rfl
    | ⟨1, _⟩ => rfl
  rw [e1, e2]

/-- The reference's stage `v59` is the 200000×128 by 128×64 matrix product of its two operands. -/
theorem mm_v59 (a0 : (⟨S200000x128, .f32⟩ : BufTy).Contents (Elt Ideal)) (a7 : (⟨S128x64, .f32⟩ : BufTy).Contents (Elt Ideal)) :
    GraphSpec.mm 200000 128 64 a0 a7 = val_main_v59 (F := Ideal) a0 a7 := by
  funext i
  rw [val_main_v59_apply]
  show (∑ l : Fin 128, a0 (ix2 (i 0) l) * a7 (ix2 l (i 1))) = _
  refine Finset.sum_congr rfl fun l _ => ?_
  have e1 : (ix2 (i 0) l : S200000x128.Idx) = lidx_main_v59 i l := funext fun a => by
    match a with
    | ⟨0, _⟩ => rfl
    | ⟨1, _⟩ => rfl
  have e2 : (ix2 l (i 1) : S128x64.Idx) = ridx_main_v59 i l := funext fun a => by
    match a with
    | ⟨0, _⟩ => rfl
    | ⟨1, _⟩ => rfl
  rw [e1, e2]

/-- The reference's stage `v108` is the 100000×128 by 128×64 matrix product of its two operands. -/
theorem mm_v108 (a1 : (⟨S100000x128, .f32⟩ : BufTy).Contents (Elt Ideal)) (a9 : (⟨S128x64, .f32⟩ : BufTy).Contents (Elt Ideal)) :
    GraphSpec.mm 100000 128 64 a1 a9 = val_main_v108 (F := Ideal) a1 a9 := by
  funext i
  rw [val_main_v108_apply]
  show (∑ l : Fin 128, a1 (ix2 (i 0) l) * a9 (ix2 l (i 1))) = _
  refine Finset.sum_congr rfl fun l _ => ?_
  have e1 : (ix2 (i 0) l : S100000x128.Idx) = lidx_main_v108 i l := funext fun a => by
    match a with
    | ⟨0, _⟩ => rfl
    | ⟨1, _⟩ => rfl
  have e2 : (ix2 l (i 1) : S128x64.Idx) = ridx_main_v108 i l := funext fun a => by
    match a with
    | ⟨0, _⟩ => rfl
    | ⟨1, _⟩ => rfl
  rw [e1, e2]

/-- The reference's stage `v158` is the 200000×64 by 64×128 matrix product of its two operands. -/
theorem mm_v158 (a0 : (⟨S200000x128, .f32⟩ : BufTy).Contents (Elt Ideal)) (a2 : (⟨S2x1000000, .i32⟩ : BufTy).Contents (Elt Ideal)) (a3 : (⟨S2x600000, .i32⟩ : BufTy).Contents (Elt Ideal)) (a5 : (⟨S128x64, .f32⟩ : BufTy).Contents (Elt Ideal)) (a6 : (⟨S64, .f32⟩ : BufTy).Contents (Elt Ideal)) (a7 : (⟨S128x64, .f32⟩ : BufTy).Contents (Elt Ideal)) (a8 : (⟨S64, .f32⟩ : BufTy).Contents (Elt Ideal)) (a11 : (⟨S64x128, .f32⟩ : BufTy).Contents (Elt Ideal)) :
    GraphSpec.mm 200000 64 128 (val_main_v145 (F := Ideal) a0 a2 a3 a5 a6 a7 a8) a11 = val_main_v158 (F := Ideal) a0 a2 a3 a5 a6 a7 a8 a11 := by
  funext i
  rw [val_main_v158_apply]
  show (∑ l : Fin 64, (val_main_v145 (F := Ideal) a0 a2 a3 a5 a6 a7 a8) (ix2 (i 0) l) * a11 (ix2 l (i 1))) = _
  refine Finset.sum_congr rfl fun l _ => ?_
  have e1 : (ix2 (i 0) l : S200000x64.Idx) = lidx_main_v158 i l := funext fun a => by
    match a with
    | ⟨0, _⟩ => rfl
    | ⟨1, _⟩ => rfl
  have e2 : (ix2 l (i 1) : S64x128.Idx) = ridx_main_v158 i l := funext fun a => by
    match a with
    | ⟨0, _⟩ => rfl
    | ⟨1, _⟩ => rfl
  rw [e1, e2]

/-- The reference's stage `v206` is the 200000×64 by 64×128 matrix product of its two operands. -/
theorem mm_v206 (a0 : (⟨S200000x128, .f32⟩ : BufTy).Contents (Elt Ideal)) (a2 : (⟨S2x1000000, .i32⟩ : BufTy).Contents (Elt Ideal)) (a3 : (⟨S2x600000, .i32⟩ : BufTy).Contents (Elt Ideal)) (a5 : (⟨S128x64, .f32⟩ : BufTy).Contents (Elt Ideal)) (a6 : (⟨S64, .f32⟩ : BufTy).Contents (Elt Ideal)) (a7 : (⟨S128x64, .f32⟩ : BufTy).Contents (Elt Ideal)) (a8 : (⟨S64, .f32⟩ : BufTy).Contents (Elt Ideal)) (a13 : (⟨S64x128, .f32⟩ : BufTy).Contents (Elt Ideal)) :
    GraphSpec.mm 200000 64 128 (val_main_v145 (F := Ideal) a0 a2 a3 a5 a6 a7 a8) a13 = val_main_v206 (F := Ideal) a0 a2 a3 a5 a6 a7 a8 a13 := by
  funext i
  rw [val_main_v206_apply]
  show (∑ l : Fin 64, (val_main_v145 (F := Ideal) a0 a2 a3 a5 a6 a7 a8) (ix2 (i 0) l) * a13 (ix2 l (i 1))) = _
  refine Finset.sum_congr rfl fun l _ => ?_
  have e1 : (ix2 (i 0) l : S200000x64.Idx) = lidx_main_v206 i l := funext fun a => by
    match a with
    | ⟨0, _⟩ => rfl
    | ⟨1, _⟩ => rfl
  have e2 : (ix2 l (i 1) : S64x128.Idx) = ridx_main_v206 i l := funext fun a => by
    match a with
    | ⟨0, _⟩ => rfl
    | ⟨1, _⟩ => rfl
  rw [e1, e2]

/-- The reference's stage `v255` is the 100000×64 by 64×128 matrix product of its two operands. -/
theorem mm_v255 (a1 : (⟨S100000x128, .f32⟩ : BufTy).Contents (Elt Ideal)) (a4 : (⟨S2x600000, .i32⟩ : BufTy).Contents (Elt Ideal)) (a9 : (⟨S128x64, .f32⟩ : BufTy).Contents (Elt Ideal)) (a10 : (⟨S64, .f32⟩ : BufTy).Contents (Elt Ideal)) (a15 : (⟨S64x128, .f32⟩ : BufTy).Contents (Elt Ideal)) :
    GraphSpec.mm 100000 64 128 (val_main_v146 (F := Ideal) a1 a4 a9 a10) a15 = val_main_v255 (F := Ideal) a1 a4 a9 a10 a15 := by
  funext i
  rw [val_main_v255_apply]
  show (∑ l : Fin 64, (val_main_v146 (F := Ideal) a1 a4 a9 a10) (ix2 (i 0) l) * a15 (ix2 l (i 1))) = _
  refine Finset.sum_congr rfl fun l _ => ?_
  have e1 : (ix2 (i 0) l : S100000x64.Idx) = lidx_main_v255 i l := funext fun a => by
    match a with
    | ⟨0, _⟩ => rfl
    | ⟨1, _⟩ => rfl
  have e2 : (ix2 l (i 1) : S64x128.Idx) = ridx_main_v255 i l := funext fun a => by
    match a with
    | ⟨0, _⟩ => rfl
    | ⟨1, _⟩ => rfl
  rw [e1, e2]

end Cert.Bridge

end
-- ==== Proof.R0.lean ====
/-
  Boundary 2: the buffer contents after the first tiled region, at the buffers later segments read.

  The region replaces its output array by what its grid points wrote back — the matrix product of its two input arrays as the region found them — and
  leaves every other buffer as it was. The inputs were named at the previous boundary by stages of the argument arrays;
  the product of those stages is the reference's stage for this buffer.
-/
import proofs.«130242_j57475252355428_1_alg».proof.Proof.H0
import proofs.«130242_j57475252355428_1_alg».proof.Proof.Mat0
import proofs.«130242_j57475252355428_1_alg».proof.Proof.BridgeMM
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen
open Cert.KernelIdeal.Facts₀ (shapeCasts_S64_S1x64 shapeCasts_S128_S1x128)

variable (m : (ℓ : Loc nD τ sig) → Buf (Elt Ideal) ℓ) (ρ : Dev nD → PrngReg)

theorem at2_arg16 (c : Dev nD) : W2 m ρ c (Proc.devRef .tc main_arg16) = m ((c : Thread nD τ).loc main_arg16) :=
  (W2_of_ne m ρ c main_arg16 (by decide)).trans (at1_arg16 m ρ c)

theorem at2_arg15 (c : Dev nD) : W2 m ρ c (Proc.devRef .tc main_arg15) = m ((c : Thread nD τ).loc main_arg15) :=
  (W2_of_ne m ρ c main_arg15 (by decide)).trans (at1_arg15 m ρ c)

theorem at2_arg4 (c : Dev nD) : W2 m ρ c (Proc.devRef .tc main_arg4) = m ((c : Thread nD τ).loc main_arg4) :=
  (W2_of_ne m ρ c main_arg4 (by decide)).trans (at1_arg4 m ρ c)

theorem at2_arg12 (c : Dev nD) : W2 m ρ c (Proc.devRef .tc main_arg12) = m ((c : Thread nD τ).loc main_arg12) :=
  (W2_of_ne m ρ c main_arg12 (by decide)).trans (at1_arg12 m ρ c)

theorem at2_arg14 (c : Dev nD) : W2 m ρ c (Proc.devRef .tc main_arg14) = m ((c : Thread nD τ).loc main_arg14) :=
  (W2_of_ne m ρ c main_arg14 (by decide)).trans (at1_arg14 m ρ c)

theorem at2_arg13 (c : Dev nD) : W2 m ρ c (Proc.devRef .tc main_arg13) = m ((c : Thread nD τ).loc main_arg13) :=
  (W2_of_ne m ρ c main_arg13 (by decide)).trans (at1_arg13 m ρ c)

theorem at2_arg3 (c : Dev nD) : W2 m ρ c (Proc.devRef .tc main_arg3) = m ((c : Thread nD τ).loc main_arg3) :=
  (W2_of_ne m ρ c main_arg3 (by decide)).trans (at1_arg3 m ρ c)

theorem at2_arg11 (c : Dev nD) : W2 m ρ c (Proc.devRef .tc main_arg11) = m ((c : Thread nD τ).loc main_arg11) :=
  (W2_of_ne m ρ c main_arg11 (by decide)).trans (at1_arg11 m ρ c)

theorem at2_arg2 (c : Dev nD) : W2 m ρ c (Proc.devRef .tc main_arg2) = m ((c : Thread nD τ).loc main_arg2) :=
  (W2_of_ne m ρ c main_arg2 (by decide)).trans (at1_arg2 m ρ c)

theorem at2_arg10 (c : Dev nD) : W2 m ρ c (Proc.devRef .tc main_arg10) = m ((c : Thread nD τ).loc main_arg10) :=
  (W2_of_ne m ρ c main_arg10 (by decide)).trans (at1_arg10 m ρ c)

theorem at2_arg1 (c : Dev nD) : W2 m ρ c (Proc.devRef .tc main_arg1) = m ((c : Thread nD τ).loc main_arg1) :=
  (W2_of_ne m ρ c main_arg1 (by decide)).trans (at1_arg1 m ρ c)

theorem at2_arg9 (c : Dev nD) : W2 m ρ c (Proc.devRef .tc main_arg9) = m ((c : Thread nD τ).loc main_arg9) :=
  (W2_of_ne m ρ c main_arg9 (by decide)).trans (at1_arg9 m ρ c)

theorem at2_v11 (c : Dev nD) : W2 m ρ c (Proc.devRef .tc main_v11) = (Cert.ReferenceIdeal.Read.val_main_v11 (F := Ideal) (m ((c : Thread nD τ).loc main_arg0)) (m ((c : Thread nD τ).loc main_arg5))) :=
  (W2_arr m ρ c 2).trans <| (Cert.KernelIdeal.Mat0.final (V1 m ρ) c).trans <| by
    rw [show V1 m ρ c main_arg0 = _ from at1_arg0 m ρ c,
      show V1 m ρ c main_arg5 = _ from at1_arg5 m ρ c]
    exact Cert.Bridge.mm_v11 _ _

theorem at2_arg6 (c : Dev nD) : W2 m ρ c (Proc.devRef .tc main_arg6) = m ((c : Thread nD τ).loc main_arg6) :=
  (W2_of_ne m ρ c main_arg6 (by decide)).trans (at1_arg6 m ρ c)

theorem at2_arg8 (c : Dev nD) : W2 m ρ c (Proc.devRef .tc main_arg8) = m ((c : Thread nD τ).loc main_arg8) :=
  (W2_of_ne m ρ c main_arg8 (by decide)).trans (at1_arg8 m ρ c)

theorem at2_arg0 (c : Dev nD) : W2 m ρ c (Proc.devRef .tc main_arg0) = m ((c : Thread nD τ).loc main_arg0) :=
  (W2_arr m ρ c 0).trans (((dat0 (V1 m ρ) c).arrAt_in 0 rfl _).trans ((A_eq0 (V1 m ρ) c 0).trans (at1_arg0 m ρ c)))

theorem at2_arg7 (c : Dev nD) : W2 m ρ c (Proc.devRef .tc main_arg7) = m ((c : Thread nD τ).loc main_arg7) :=
  (W2_of_ne m ρ c main_arg7 (by decide)).trans (at1_arg7 m ρ c)

theorem at2_v10 (c : Dev nD) : W2 m ρ c (Proc.devRef .tc main_v10) = (Cert.ReferenceIdeal.Read.val_main_v10 (F := Ideal) (m ((c : Thread nD τ).loc main_arg2))) :=
  (W2_of_ne m ρ c main_v10 (by decide)).trans (at1_v10 m ρ c)

theorem at2_v3 (c : Dev nD) : W2 m ρ c (Proc.devRef .tc main_v3) = (Cert.ReferenceIdeal.Read.val_main_v3 (F := Ideal) (m ((c : Thread nD τ).loc main_arg2))) :=
  (W2_of_ne m ρ c main_v3 (by decide)).trans (at1_v3 m ρ c)

theorem at2_v1 (c : Dev nD) : W2 m ρ c (Proc.devRef .tc main_v1) = (Cert.ReferenceIdeal.Read.val_main_v1 (F := Ideal) (m ((c : Thread nD τ).loc main_arg2))) :=
  (W2_of_ne m ρ c main_v1 (by decide)).trans (at1_v1 m ρ c)

end Cert.KernelIdeal.Flow

end
-- ==== Proof.H1.lean ====
/-
  Boundary 3: the buffer contents after the second stretch of host operations, at the buffers later segments read.

  A buffer the stretch does not write keeps what it held before the stretch. A buffer the stretch writes holds the
  stretch's operations applied, in order, to what the stretch read; written out, that term is the reference program's
  stage of the same name-free shape (the same slices, broadcasts, gathers, scatter-adds and products of the same
  arguments), so each fact names the contents by that stage of the argument arrays.
-/
import proofs.«130242_j57475252355428_1_alg».proof.Proof.R0
import proofs.«130242_j57475252355428_1_alg».proof.Proof.RefStages
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen
open Cert.KernelIdeal.Facts₀ (shapeCasts_S64_S1x64 shapeCasts_S128_S1x128)

variable (m : (ℓ : Loc nD τ sig) → Buf (Elt Ideal) ℓ) (ρ : Dev nD → PrngReg)

/-- The buffers this stretch writes. -/
def written1 : List (Ref sig .tc) := [main_c, main_v12, main_v13, main_c_2, main_v14, main_v15, main_v16, main_v17, main_v18, main_c_3, main_v19, main_v20, main_c_4, main_v21, main_v22, main_v23, main_v24, main_v25, main_v26, main_v27, main_c_5, main_v28, main_v29, main_c_6, main_v30, main_v31, main_v32, main_v33, main_v34, main_v35, main_v36, main_cst_7, main_v37, main_v38, main_v39, main_v40, main_v41, main_v42, main_v43, main_v44, main_v45, main_cst_8, main_v46, main_cst_9, main_v47, main_v48, main_v49, main_cst_10, main_v50, main_v51, main_v52]

/-- A buffer the stretch does not write is left as it was. -/
theorem pass1 (V : Valuation τ sig (Elt Ideal)) (b : Ref sig .tc) (h : ∀ x ∈ written1, b ≠ x) :
    StableHlo.after hostOps1 V (Proc.devRef .tc b) = V (Proc.devRef .tc b) :=
  StableHlo.after_of_forall_not_mem (b := Proc.devRef .tc b) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem at3_arg16 (c : Dev nD) : W3 m ρ c (Proc.devRef .tc main_arg16) = m ((c : Thread nD τ).loc main_arg16) := (pass1 (W2 m ρ c) main_arg16 (by decide)).trans (at2_arg16 m ρ c)

theorem at3_arg15 (c : Dev nD) : W3 m ρ c (Proc.devRef .tc main_arg15) = m ((c : Thread nD τ).loc main_arg15) := (pass1 (W2 m ρ c) main_arg15 (by decide)).trans (at2_arg15 m ρ c)

theorem at3_arg4 (c : Dev nD) : W3 m ρ c (Proc.devRef .tc main_arg4) = m ((c : Thread nD τ).loc main_arg4) := (pass1 (W2 m ρ c) main_arg4 (by decide)).trans (at2_arg4 m ρ c)

theorem at3_arg12 (c : Dev nD) : W3 m ρ c (Proc.devRef .tc main_arg12) = m ((c : Thread nD τ).loc main_arg12) := (pass1 (W2 m ρ c) main_arg12 (by decide)).trans (at2_arg12 m ρ c)

theorem at3_arg14 (c : Dev nD) : W3 m ρ c (Proc.devRef .tc main_arg14) = m ((c : Thread nD τ).loc main_arg14) := (pass1 (W2 m ρ c) main_arg14 (by decide)).trans (at2_arg14 m ρ c)

theorem at3_arg13 (c : Dev nD) : W3 m ρ c (Proc.devRef .tc main_arg13) = m ((c : Thread nD τ).loc main_arg13) := (pass1 (W2 m ρ c) main_arg13 (by decide)).trans (at2_arg13 m ρ c)

theorem at3_arg3 (c : Dev nD) : W3 m ρ c (Proc.devRef .tc main_arg3) = m ((c : Thread nD τ).loc main_arg3) := (pass1 (W2 m ρ c) main_arg3 (by decide)).trans (at2_arg3 m ρ c)

theorem at3_arg11 (c : Dev nD) : W3 m ρ c (Proc.devRef .tc main_arg11) = m ((c : Thread nD τ).loc main_arg11) := (pass1 (W2 m ρ c) main_arg11 (by decide)).trans (at2_arg11 m ρ c)

theorem at3_arg2 (c : Dev nD) : W3 m ρ c (Proc.devRef .tc main_arg2) = m ((c : Thread nD τ).loc main_arg2) := (pass1 (W2 m ρ c) main_arg2 (by decide)).trans (at2_arg2 m ρ c)

theorem at3_arg10 (c : Dev nD) : W3 m ρ c (Proc.devRef .tc main_arg10) = m ((c : Thread nD τ).loc main_arg10) := (pass1 (W2 m ρ c) main_arg10 (by decide)).trans (at2_arg10 m ρ c)

theorem at3_arg1 (c : Dev nD) : W3 m ρ c (Proc.devRef .tc main_arg1) = m ((c : Thread nD τ).loc main_arg1) := (pass1 (W2 m ρ c) main_arg1 (by decide)).trans (at2_arg1 m ρ c)

theorem at3_arg9 (c : Dev nD) : W3 m ρ c (Proc.devRef .tc main_arg9) = m ((c : Thread nD τ).loc main_arg9) := (pass1 (W2 m ρ c) main_arg9 (by decide)).trans (at2_arg9 m ρ c)

theorem at3_v39 (c : Dev nD) : W3 m ρ c (Proc.devRef .tc main_v39) = (Cert.ReferenceIdeal.Read.val_main_v39 (F := Ideal) (m ((c : Thread nD τ).loc main_arg0)) (m ((c : Thread nD τ).loc main_arg2)) (m ((c : Thread nD τ).loc main_arg5))) := by
  show StableHlo.after hostOps1 (W2 m ρ c) (Proc.devRef .tc main_v39) = _
  after_results_simp
  all_goals try simp only [at2_v3 m ρ c, at2_v10 m ρ c, at2_v1 m ρ c, at2_v11 m ρ c]
  all_goals rfl

theorem at3_v11 (c : Dev nD) : W3 m ρ c (Proc.devRef .tc main_v11) = (Cert.ReferenceIdeal.Read.val_main_v11 (F := Ideal) (m ((c : Thread nD τ).loc main_arg0)) (m ((c : Thread nD τ).loc main_arg5))) := (pass1 (W2 m ρ c) main_v11 (by decide)).trans (at2_v11 m ρ c)

theorem at3_v41 (c : Dev nD) : W3 m ρ c (Proc.devRef .tc main_v41) = (Cert.ReferenceIdeal.Read.val_main_v41 (F := Ideal) (m ((c : Thread nD τ).loc main_arg2))) := by
  show StableHlo.after hostOps1 (W2 m ρ c) (Proc.devRef .tc main_v41) = _
  after_results_simp
  all_goals try simp only [at2_v10 m ρ c]
  all_goals rfl

theorem at3_arg6 (c : Dev nD) : W3 m ρ c (Proc.devRef .tc main_arg6) = m ((c : Thread nD τ).loc main_arg6) := (pass1 (W2 m ρ c) main_arg6 (by decide)).trans (at2_arg6 m ρ c)

theorem at3_arg8 (c : Dev nD) : W3 m ρ c (Proc.devRef .tc main_arg8) = m ((c : Thread nD τ).loc main_arg8) := (pass1 (W2 m ρ c) main_arg8 (by decide)).trans (at2_arg8 m ρ c)

theorem at3_v52 (c : Dev nD) : W3 m ρ c (Proc.devRef .tc main_v52) = (Cert.ReferenceIdeal.Read.val_main_v58 (F := Ideal) (m ((c : Thread nD τ).loc main_arg3))) := by
  show StableHlo.after hostOps1 (W2 m ρ c) (Proc.devRef .tc main_v52) = _
  after_results_simp
  all_goals try simp only [at2_arg3 m ρ c]
  all_goals rfl

theorem at3_v45 (c : Dev nD) : W3 m ρ c (Proc.devRef .tc main_v45) = (Cert.ReferenceIdeal.Read.val_main_v51 (F := Ideal) (m ((c : Thread nD τ).loc main_arg3))) := by
  show StableHlo.after hostOps1 (W2 m ρ c) (Proc.devRef .tc main_v45) = _
  after_results_simp
  all_goals try simp only [at2_arg3 m ρ c]
  all_goals rfl

theorem at3_v43 (c : Dev nD) : W3 m ρ c (Proc.devRef .tc main_v43) = (Cert.ReferenceIdeal.Read.val_main_v49 (F := Ideal) (m ((c : Thread nD τ).loc main_arg3))) := by
  show StableHlo.after hostOps1 (W2 m ρ c) (Proc.devRef .tc main_v43) = _
  after_results_simp
  all_goals try simp only [at2_arg3 m ρ c]
  all_goals rfl

theorem at3_arg0 (c : Dev nD) : W3 m ρ c (Proc.devRef .tc main_arg0) = m ((c : Thread nD τ).loc main_arg0) := (pass1 (W2 m ρ c) main_arg0 (by decide)).trans (at2_arg0 m ρ c)

theorem at3_arg7 (c : Dev nD) : W3 m ρ c (Proc.devRef .tc main_arg7) = m ((c : Thread nD τ).loc main_arg7) := (pass1 (W2 m ρ c) main_arg7 (by decide)).trans (at2_arg7 m ρ c)

end Cert.KernelIdeal.Flow

end
-- ==== Proof.Mat1.lean ====
/-
  Region 1 of the layer: a matrix product computed in row blocks.

  The region's grid has 50 points; point t reads rows 4000·t … 4000·t + 3999 of the left operand (a 200000×128 array), the
  whole right operand (128×64), and writes rows 4000·t … 4000·t + 3999 of the result. Entry (p, q) of the block it writes is
  ∑ₗ x[4000·t + p, l] · w[l, q]: narrowing the operands to bf16 is exact on extended reals and the accumulator starts
  at zero. The 50 row blocks tile the result, so after the last point the result array is the matrix product of the two
  input arrays, entry by entry.
-/
import proofs.«130242_j57475252355428_1_alg».proof.Proof.Gen.KernelIdeal.Frame
import proofs.«130242_j57475252355428_1_alg».proof.Proof.GraphSpec
import proofs.«130242_j57475252355428_1_alg».proof.Proof.LibMatmulBlock
import Idealize.ShloMosaic.Lib.Pipeline.Value

set_option maxRecDepth 16384

noncomputable section

namespace Cert.KernelIdeal.Mat1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point t the left operand's and the result's block is row block t (column block 0);
    the right operand's block is the whole array. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's result at entry (p, q) of its block: ∑ₗ x[p, l] · w[l, q]. Narrowing to bf16 is the identity on
    extended reals, and the accumulator is the zero array. -/
theorem pay_apply (x0 : Vec Ideal S4000x128 .f32) (x1 : Vec Ideal S128x64 .f32) (p : Fin 4000) (q : Fin 64) :
    Gen.k1_pay1 (F := Ideal) x0 x1 (ix2 p q) = ∑ l : Fin 128, x0 (ix2 p l) * x1 (ix2 l q) :=
  Cert.LibMatmulBlock.matmul_zero_apply (m := 4000) (k := 128) (n := 64) Facts₀.dot_S4000x128_S128x64_S4000x64_1_0_0_1_n_n_wf none
      (truncf .bf16 x0 Facts₀.bitsLt_bf16_f32) (truncf .bf16 x1 Facts₀.bitsLt_bf16_f32) p q

/-- The left operand's block at point t is rows 4000·t … of its array. -/
theorem read_lhs (c : Dev nD) (t : Fin cfg1.N) (y : S4000x128.Idx) (i : S200000x128.Idx)
    (h0 : (i 0).val = t.val * 4000 + (y 0).val) (h1 : (i 1).val = (y 1).val) :
    (Gen.iblk1 V c 0 t : Vec Ideal S4000x128 .f32) y = (V c main_arg0 : S200000x128.Idx → EReal) i := by
  obtain ⟨e0, e1, -⟩ := idx_facts t
  unfold Gen.iblk1
  rw [View.read_apply]
  show V c main_arg0 (((cfg1.win 0).blk t).view.emb y) = V c main_arg0 i
  refine congrArg _ ?_
  funext a
  apply Fin.ext
  match a with
  | ⟨0, _⟩ => show win1_0.index t (0 : Fin 2) * 4000 + 1 * (y 0).val = (i 0).val; rw [e0, h0]; omega
  | ⟨1, _⟩ => show win1_0.index t (1 : Fin 2) * 128 + 1 * (y 1).val = (i 1).val; rw [e1, h1]; omega

/-- The right operand's block at every point is its whole array. -/
theorem read_rhs (c : Dev nD) (t : Fin cfg1.N) (y : S128x64.Idx) (i : S128x64.Idx)
    (h0 : (i 0).val = (y 0).val) (h1 : (i 1).val = (y 1).val) :
    (Gen.iblk1 V c 1 t : Vec Ideal S128x64 .f32) y = (V c main_arg7 : S128x64.Idx → EReal) i := by
  obtain ⟨-, -, e2, e3, -⟩ := idx_facts t
  unfold Gen.iblk1
  rw [View.read_apply]
  show V c main_arg7 (((cfg1.win 1).blk t).view.emb y) = V c main_arg7 i
  refine congrArg _ ?_
  funext a
  apply Fin.ext
  match a with
  | ⟨0, _⟩ => show win1_1.index t (0 : Fin 2) * 128 + 1 * (y 0).val = (i 0).val; rw [e2, h0]; omega
  | ⟨1, _⟩ => show win1_1.index t (1 : Fin 2) * 64 + 1 * (y 1).val = (i 1).val; rw [e3, h1]; omega

/-- What point t writes back is block t of the matrix product of the two input arrays. -/
theorem flushed_eq (c : Dev nD) (t : Fin cfg1.N) :
    (Gen.dat1 (F := Ideal) V c).flushed 2 t
      = ((cfg1.win 2).blk t).view.read (Elt Ideal) (GraphSpec.mm 200000 128 64 (V c main_arg0) (V c main_arg7)) := by
  show (cfg1.win 2).cut (grid1.coords t) ((Gen.dat1 V c).after 2 t) = _
  rw [Gen.after1_2]
  unfold Gen.out1_2
  rw [View.canon_unit_zero hz]
  simp only [View.ld_unit_zero (S := S4000x128) hz, View.ld_unit_zero (S := S128x64) hz]
  obtain ⟨-, -, -, -, e4, e5⟩ := idx_facts t
  funext j
  show Gen.k1_pay1 (F := Ideal) (Gen.iblk1 V c 0 t) (Gen.iblk1 V c 1 t) j
    = GraphSpec.mm 200000 128 64 (V c main_arg0) (V c main_arg7) (((cfg1.win 2).blk t).view.emb j)
  obtain ⟨p, q, rfl⟩ : ∃ (p : Fin 4000) (q : Fin 64), j = ix2 p q := ⟨j 0, j 1, eq_ix2 j⟩
  refine (pay_apply _ _ p q).trans ?_
  unfold GraphSpec.mm
  refine Finset.sum_congr rfl fun l _ => ?_
  have hr0 : ((((cfg1.win 2).blk t).view.emb (ix2 p q)) 0).val = t.val * 4000 + p.val := by
    show win1_2.index t (0 : Fin 2) * 4000 + 1 * p.val = _; rw [e4]; omega
  have hr1 : ((((cfg1.win 2).blk t).view.emb (ix2 p q)) 1).val = q.val := by
    show win1_2.index t (1 : Fin 2) * 64 + 1 * q.val = _; rw [e5]; omega
  have hl := read_lhs V c t (ix2 p l) (ix2 ((((cfg1.win 2).blk t).view.emb (ix2 p q)) 0) l) hr0 rfl
  have hr := read_rhs V c t (ix2 l q) (ix2 l ((((cfg1.win 2).blk t).view.emb (ix2 p q)) 1)) rfl hr1
  rw [hl, hr]

/-- An index of the result array is in point t's block iff each coordinate is in the block's range on its axis. -/
theorem mem_blk (t : Fin cfg1.N) (i : S200000x64.Idx) :
    i ∈ ((cfg1.win 2).blk t).view.set ↔ ∀ a : Fin 2, win1_2.index t a * S4000x64.size a ≤ (i a).val ∧ (i a).val < win1_2.index t a * S4000x64.size a + S4000x64.size a := by
  show i ∈ ((View.whole main_v53).slice (win1_2.rect t)).set ↔ _
  rw [View.set_slice_whole, Rect.mem_set_unit]
  exact Iff.rfl

/-- The row blocks tile the result: row r lies in the block of point r / 4000. -/
theorem cover (i : S200000x64.Idx) : ∃ t : Fin cfg1.N, (cfg1.win 2).flush t = true ∧ i ∈ ((cfg1.win 2).blk t).view.set := by
  have hi0 : (i 0).val < 200000 := (i 0).isLt
  have hi1 : (i 1).val < 64 := (i 1).isLt
  have hN : cfg1.N = 50 := Gen.N_1
  refine ⟨⟨(i 0).val / 4000, by rw [hN]; omega⟩, Gen.flush1_2 _, ?_⟩
  rw [mem_blk]
  obtain ⟨-, -, -, -, e4, e5⟩ := idx_facts ⟨(i 0).val / 4000, by rw [hN]; omega⟩
  intro a
  match a with
  | ⟨0, _⟩ =>
    show win1_2.index _ (0 : Fin 2) * 4000 ≤ (i 0).val ∧ (i 0).val < win1_2.index _ (0 : Fin 2) * 4000 + 4000
    rw [e4]; show (i 0).val / 4000 * 4000 ≤ (i 0).val ∧ (i 0).val < (i 0).val / 4000 * 4000 + 4000; omega
  | ⟨1, _⟩ =>
    show win1_2.index _ (1 : Fin 2) * 64 ≤ (i 1).val ∧ (i 1).val < win1_2.index _ (1 : Fin 2) * 64 + 64
    rw [e5]; omega

/-- After all 50 points the result array is the matrix product of the two input arrays. -/
theorem final (c : Dev nD) :
    (Gen.dat1 (F := Ideal) V c).arrAt 2 cfg1.N = GraphSpec.mm 200000 128 64 (V c main_arg0) (V c main_arg7) :=
  (Gen.dat1 (F := Ideal) V c).arrAt_eq_of_cover 2 _ (fun t _ => flushed_eq V c t) cover

end Cert.KernelIdeal.Mat1

end
-- ==== Proof.R1.lean ====
/-
  Boundary 4: the buffer contents after the second tiled region, at the buffers later segments read.

  The region replaces its output array by what its grid points wrote back — the matrix product of its two input arrays as the region found them — and
  leaves every other buffer as it was. The inputs were named at the previous boundary by stages of the argument arrays;
  the product of those stages is the reference's stage for this buffer.
-/
import proofs.«130242_j57475252355428_1_alg».proof.Proof.H1
import proofs.«130242_j57475252355428_1_alg».proof.Proof.Mat1
import proofs.«130242_j57475252355428_1_alg».proof.Proof.BridgeMM
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen
open Cert.KernelIdeal.Facts₀ (shapeCasts_S64_S1x64 shapeCasts_S128_S1x128)

variable (m : (ℓ : Loc nD τ sig) → Buf (Elt Ideal) ℓ) (ρ : Dev nD → PrngReg)

theorem at4_arg16 (c : Dev nD) : W4 m ρ c (Proc.devRef .tc main_arg16) = m ((c : Thread nD τ).loc main_arg16) :=
  (W4_of_ne m ρ c main_arg16 (by decide)).trans (at3_arg16 m ρ c)

theorem at4_arg15 (c : Dev nD) : W4 m ρ c (Proc.devRef .tc main_arg15) = m ((c : Thread nD τ).loc main_arg15) :=
  (W4_of_ne m ρ c main_arg15 (by decide)).trans (at3_arg15 m ρ c)

theorem at4_arg4 (c : Dev nD) : W4 m ρ c (Proc.devRef .tc main_arg4) = m ((c : Thread nD τ).loc main_arg4) :=
  (W4_of_ne m ρ c main_arg4 (by decide)).trans (at3_arg4 m ρ c)

theorem at4_arg12 (c : Dev nD) : W4 m ρ c (Proc.devRef .tc main_arg12) = m ((c : Thread nD τ).loc main_arg12) :=
  (W4_of_ne m ρ c main_arg12 (by decide)).trans (at3_arg12 m ρ c)

theorem at4_arg14 (c : Dev nD) : W4 m ρ c (Proc.devRef .tc main_arg14) = m ((c : Thread nD τ).loc main_arg14) :=
  (W4_of_ne m ρ c main_arg14 (by decide)).trans (at3_arg14 m ρ c)

theorem at4_arg13 (c : Dev nD) : W4 m ρ c (Proc.devRef .tc main_arg13) = m ((c : Thread nD τ).loc main_arg13) :=
  (W4_of_ne m ρ c main_arg13 (by decide)).trans (at3_arg13 m ρ c)

theorem at4_arg3 (c : Dev nD) : W4 m ρ c (Proc.devRef .tc main_arg3) = m ((c : Thread nD τ).loc main_arg3) :=
  (W4_of_ne m ρ c main_arg3 (by decide)).trans (at3_arg3 m ρ c)

theorem at4_arg11 (c : Dev nD) : W4 m ρ c (Proc.devRef .tc main_arg11) = m ((c : Thread nD τ).loc main_arg11) :=
  (W4_of_ne m ρ c main_arg11 (by decide)).trans (at3_arg11 m ρ c)

theorem at4_arg2 (c : Dev nD) : W4 m ρ c (Proc.devRef .tc main_arg2) = m ((c : Thread nD τ).loc main_arg2) :=
  (W4_of_ne m ρ c main_arg2 (by decide)).trans (at3_arg2 m ρ c)

theorem at4_arg10 (c : Dev nD) : W4 m ρ c (Proc.devRef .tc main_arg10) = m ((c : Thread nD τ).loc main_arg10) :=
  (W4_of_ne m ρ c main_arg10 (by decide)).trans (at3_arg10 m ρ c)

theorem at4_arg1 (c : Dev nD) : W4 m ρ c (Proc.devRef .tc main_arg1) = m ((c : Thread nD τ).loc main_arg1) :=
  (W4_of_ne m ρ c main_arg1 (by decide)).trans (at3_arg1 m ρ c)

theorem at4_arg9 (c : Dev nD) : W4 m ρ c (Proc.devRef .tc main_arg9) = m ((c : Thread nD τ).loc main_arg9) :=
  (W4_of_ne m ρ c main_arg9 (by decide)).trans (at3_arg9 m ρ c)

theorem at4_v39 (c : Dev nD) : W4 m ρ c (Proc.devRef .tc main_v39) = (Cert.ReferenceIdeal.Read.val_main_v39 (F := Ideal) (m ((c : Thread nD τ).loc main_arg0)) (m ((c : Thread nD τ).loc main_arg2)) (m ((c : Thread nD τ).loc main_arg5))) :=
  (W4_of_ne m ρ c main_v39 (by decide)).trans (at3_v39 m ρ c)

theorem at4_v11 (c : Dev nD) : W4 m ρ c (Proc.devRef .tc main_v11) = (Cert.ReferenceIdeal.Read.val_main_v11 (F := Ideal) (m ((c : Thread nD τ).loc main_arg0)) (m ((c : Thread nD τ).loc main_arg5))) :=
  (W4_of_ne m ρ c main_v11 (by decide)).trans (at3_v11 m ρ c)

theorem at4_v53 (c : Dev nD) : W4 m ρ c (Proc.devRef .tc main_v53) = (Cert.ReferenceIdeal.Read.val_main_v59 (F := Ideal) (m ((c : Thread nD τ).loc main_arg0)) (m ((c : Thread nD τ).loc main_arg7))) :=
  (W4_arr m ρ c 2).trans <| (Cert.KernelIdeal.Mat1.final (V3 m ρ) c).trans <| by
    rw [show V3 m ρ c main_arg0 = _ from at3_arg0 m ρ c,
      show V3 m ρ c main_arg7 = _ from at3_arg7 m ρ c]
    exact Cert.Bridge.mm_v59 _ _

theorem at4_v41 (c : Dev nD) : W4 m ρ c (Proc.devRef .tc main_v41) = (Cert.ReferenceIdeal.Read.val_main_v41 (F := Ideal) (m ((c : Thread nD τ).loc main_arg2))) :=
  (W4_of_ne m ρ c main_v41 (by decide)).trans (at3_v41 m ρ c)

theorem at4_arg6 (c : Dev nD) : W4 m ρ c (Proc.devRef .tc main_arg6) = m ((c : Thread nD τ).loc main_arg6) :=
  (W4_of_ne m ρ c main_arg6 (by decide)).trans (at3_arg6 m ρ c)

theorem at4_arg8 (c : Dev nD) : W4 m ρ c (Proc.devRef .tc main_arg8) = m ((c : Thread nD τ).loc main_arg8) :=
  (W4_of_ne m ρ c main_arg8 (by decide)).trans (at3_arg8 m ρ c)

theorem at4_v52 (c : Dev nD) : W4 m ρ c (Proc.devRef .tc main_v52) = (Cert.ReferenceIdeal.Read.val_main_v58 (F := Ideal) (m ((c : Thread nD τ).loc main_arg3))) :=
  (W4_of_ne m ρ c main_v52 (by decide)).trans (at3_v52 m ρ c)

theorem at4_v45 (c : Dev nD) : W4 m ρ c (Proc.devRef .tc main_v45) = (Cert.ReferenceIdeal.Read.val_main_v51 (F := Ideal) (m ((c : Thread nD τ).loc main_arg3))) :=
  (W4_of_ne m ρ c main_v45 (by decide)).trans (at3_v45 m ρ c)

theorem at4_v43 (c : Dev nD) : W4 m ρ c (Proc.devRef .tc main_v43) = (Cert.ReferenceIdeal.Read.val_main_v49 (F := Ideal) (m ((c : Thread nD τ).loc main_arg3))) :=
  (W4_of_ne m ρ c main_v43 (by decide)).trans (at3_v43 m ρ c)

end Cert.KernelIdeal.Flow

end
-- ==== Proof.H2.lean ====
/-
  Boundary 5: the buffer contents after the third stretch of host operations, at the buffers later segments read.

  A buffer the stretch does not write keeps what it held before the stretch. A buffer the stretch writes holds the
  stretch's operations applied, in order, to what the stretch read; written out, that term is the reference program's
  stage of the same name-free shape (the same slices, broadcasts, gathers, scatter-adds and products of the same
  arguments), so each fact names the contents by that stage of the argument arrays.
-/
import proofs.«130242_j57475252355428_1_alg».proof.Proof.R1
import proofs.«130242_j57475252355428_1_alg».proof.Proof.RefStages
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The buffers this stretch writes. -/
def written2 : List (Ref sig .tc) := [main_c_11, main_v54, main_v55, main_c_12, main_v56, main_v57, main_v58, main_v59, main_v60, main_c_13, main_v61, main_v62, main_c_14, main_v63, main_v64, main_v65, main_v66, main_v67, main_v68, main_v69, main_c_15, main_v70, main_v71, main_c_16, main_v72, main_v73, main_v74, main_v75, main_v76, main_v77, main_v78, main_cst_17, main_v79, main_v80, main_v81, main_v82, main_v83, main_v84, main_v85]

/-- A buffer the stretch does not write is left as it was. -/
theorem pass2 (V : Valuation τ sig (Elt Ideal)) (b : Ref sig .tc) (h : ∀ x ∈ written2, b ≠ x) :
    StableHlo.after hostOps2 V (Proc.devRef .tc b) = V (Proc.devRef .tc b) :=
  StableHlo.after_of_forall_not_mem (b := Proc.devRef .tc b) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem at5_arg16 (c : Dev nD) : W5 m ρ c (Proc.devRef .tc main_arg16) = m ((c : Thread nD τ).loc main_arg16) := (pass2 (W4 m ρ c) main_arg16 (by decide)).trans (at4_arg16 m ρ c)

theorem at5_arg15 (c : Dev nD) : W5 m ρ c (Proc.devRef .tc main_arg15) = m ((c : Thread nD τ).loc main_arg15) := (pass2 (W4 m ρ c) main_arg15 (by decide)).trans (at4_arg15 m ρ c)

theorem at5_arg4 (c : Dev nD) : W5 m ρ c (Proc.devRef .tc main_arg4) = m ((c : Thread nD τ).loc main_arg4) := (pass2 (W4 m ρ c) main_arg4 (by decide)).trans (at4_arg4 m ρ c)

theorem at5_arg12 (c : Dev nD) : W5 m ρ c (Proc.devRef .tc main_arg12) = m ((c : Thread nD τ).loc main_arg12) := (pass2 (W4 m ρ c) main_arg12 (by decide)).trans (at4_arg12 m ρ c)

theorem at5_arg14 (c : Dev nD) : W5 m ρ c (Proc.devRef .tc main_arg14) = m ((c : Thread nD τ).loc main_arg14) := (pass2 (W4 m ρ c) main_arg14 (by decide)).trans (at4_arg14 m ρ c)

theorem at5_arg13 (c : Dev nD) : W5 m ρ c (Proc.devRef .tc main_arg13) = m ((c : Thread nD τ).loc main_arg13) := (pass2 (W4 m ρ c) main_arg13 (by decide)).trans (at4_arg13 m ρ c)

theorem at5_arg3 (c : Dev nD) : W5 m ρ c (Proc.devRef .tc main_arg3) = m ((c : Thread nD τ).loc main_arg3) := (pass2 (W4 m ρ c) main_arg3 (by decide)).trans (at4_arg3 m ρ c)

theorem at5_arg11 (c : Dev nD) : W5 m ρ c (Proc.devRef .tc main_arg11) = m ((c : Thread nD τ).loc main_arg11) := (pass2 (W4 m ρ c) main_arg11 (by decide)).trans (at4_arg11 m ρ c)

theorem at5_arg2 (c : Dev nD) : W5 m ρ c (Proc.devRef .tc main_arg2) = m ((c : Thread nD τ).loc main_arg2) := (pass2 (W4 m ρ c) main_arg2 (by decide)).trans (at4_arg2 m ρ c)

theorem at5_arg10 (c : Dev nD) : W5 m ρ c (Proc.devRef .tc main_arg10) = m ((c : Thread nD τ).loc main_arg10) := (pass2 (W4 m ρ c) main_arg10 (by decide)).trans (at4_arg10 m ρ c)

theorem at5_arg1 (c : Dev nD) : W5 m ρ c (Proc.devRef .tc main_arg1) = m ((c : Thread nD τ).loc main_arg1) := (pass2 (W4 m ρ c) main_arg1 (by decide)).trans (at4_arg1 m ρ c)

theorem at5_arg9 (c : Dev nD) : W5 m ρ c (Proc.devRef .tc main_arg9) = m ((c : Thread nD τ).loc main_arg9) := (pass2 (W4 m ρ c) main_arg9 (by decide)).trans (at4_arg9 m ρ c)

theorem at5_v39 (c : Dev nD) : W5 m ρ c (Proc.devRef .tc main_v39) = (Cert.ReferenceIdeal.Read.val_main_v39 (F := Ideal) (m ((c : Thread nD τ).loc main_arg0)) (m ((c : Thread nD τ).loc main_arg2)) (m ((c : Thread nD τ).loc main_arg5))) := (pass2 (W4 m ρ c) main_v39 (by decide)).trans (at4_v39 m ρ c)

theorem at5_v81 (c : Dev nD) : W5 m ρ c (Proc.devRef .tc main_v81) = (Cert.ReferenceIdeal.Read.val_main_v87 (F := Ideal) (m ((c : Thread nD τ).loc main_arg0)) (m ((c : Thread nD τ).loc main_arg3)) (m ((c : Thread nD τ).loc main_arg7))) := by
  show StableHlo.after hostOps2 (W4 m ρ c) (Proc.devRef .tc main_v81) = _
  after_results_simp
  all_goals try simp only [at4_v45 m ρ c, at4_v52 m ρ c, at4_v43 m ρ c, at4_v53 m ρ c]
  all_goals rfl

theorem at5_v11 (c : Dev nD) : W5 m ρ c (Proc.devRef .tc main_v11) = (Cert.ReferenceIdeal.Read.val_main_v11 (F := Ideal) (m ((c : Thread nD τ).loc main_arg0)) (m ((c : Thread nD τ).loc main_arg5))) := (pass2 (W4 m ρ c) main_v11 (by decide)).trans (at4_v11 m ρ c)

theorem at5_v53 (c : Dev nD) : W5 m ρ c (Proc.devRef .tc main_v53) = (Cert.ReferenceIdeal.Read.val_main_v59 (F := Ideal) (m ((c : Thread nD τ).loc main_arg0)) (m ((c : Thread nD τ).loc main_arg7))) := (pass2 (W4 m ρ c) main_v53 (by decide)).trans (at4_v53 m ρ c)

theorem at5_v41 (c : Dev nD) : W5 m ρ c (Proc.devRef .tc main_v41) = (Cert.ReferenceIdeal.Read.val_main_v41 (F := Ideal) (m ((c : Thread nD τ).loc main_arg2))) := (pass2 (W4 m ρ c) main_v41 (by decide)).trans (at4_v41 m ρ c)

theorem at5_v83 (c : Dev nD) : W5 m ρ c (Proc.devRef .tc main_v83) = (Cert.ReferenceIdeal.Read.val_main_v89 (F := Ideal) (m ((c : Thread nD τ).loc main_arg3))) := by
  show StableHlo.after hostOps2 (W4 m ρ c) (Proc.devRef .tc main_v83) = _
  after_results_simp
  all_goals try simp only [at4_v52 m ρ c]
  all_goals rfl

theorem at5_v85 (c : Dev nD) : W5 m ρ c (Proc.devRef .tc main_v85) = (shapeCast S1x64 (addf (F := Ideal) (φ := .f32) (m ((c : Thread nD τ).loc main_arg6)) (m ((c : Thread nD τ).loc main_arg8))) shapeCasts_S64_S1x64 : (⟨S1x64, .f32⟩ : BufTy).Contents (Elt Ideal)) := by
  show StableHlo.after hostOps2 (W4 m ρ c) (Proc.devRef .tc main_v85) = _
  after_results_simp
  all_goals try simp only [at4_arg6 m ρ c, at4_arg8 m ρ c]
  all_goals rfl

end Cert.KernelIdeal.Flow

end
-- ==== Proof.LibBroadcastRowCol.lean ====
/-
  A column broadcast read at an index.

  An array with `a` rows and ONE column, broadcast to `a` rows and `b` columns, holds at entry (p, c) the operand's
  entry (p, 0): every column of the result is the operand's one column. This is the keepdims column form of a
  broadcast; the companion row form (one row broadcast over many, entry (p, c) is the operand's (0, c)) is the
  library's `broadcastTo_1b_ab_apply`. Both are instances of `broadcastTo_apply`: on an axis where the operand's
  extent is 1 the operand's coordinate is 0, elsewhere it is the result's coordinate.
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Comb2.lean ====
/-
  The two-edge-type epilogue at 64 columns (region 2 of the kernel program): after its 50 grid points the output
  array is `GraphSpec.comb2` of the seven input arrays, entry by entry
      out[r, c] = max (a₁[r, c] + a₂[r, c] + d₁[r, 0] · x₁[r, c] + d₂[r, 0] · x₂[r, c] + b[0, c], 0),
  the sum bracketed to the left in the order written.

  The region walks the 200000 rows in 50 blocks of 4000 rows, the feature axis whole. At grid point t the body reads
  rows 4000·t … 4000·t + 3999 of a₁, a₂, x₁, x₂ and of the columns d₁, d₂, and the whole bias row b, and writes the same
  rows of the output. So three things are shown:
    * the body's arithmetic at one entry (p, q) of a block is that expression of the block entries (`pay_apply`): the
      shape casts are identities, each column is broadcast along the row, the bias row down the rows;
    * entry (p, q) of block t of every row-blocked window is entry (4000·t + p, q) of its array, and the bias block is
      the bias row itself; hence what point t writes back is block t of the whole-array function (`flushed_eq`);
    * the 50 blocks tile the array: row r lies in block r / 4000 (`cover`).
  Together: the array after the last point is that function (`final`).
-/
import proofs.«130242_j57475252355428_1_alg».proof.Proof.Gen.KernelIdeal.Frame
import proofs.«130242_j57475252355428_1_alg».proof.Proof.GraphSpec
import proofs.«130242_j57475252355428_1_alg».proof.Proof.LibBroadcastRowCol
import Idealize.ShloMosaic.Lib.Pipeline.Value
import Idealize.ShloMosaic.Lib.ValueLayout

set_option maxRecDepth 16384

noncomputable section

namespace Cert.KernelIdeal.Comb2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem hz : (![0, 0] : Fin 2 → Nat) = fun _ => 0 := funext fun a => by fin_cases a <;> rfl

/-- THE BODY AT ONE ENTRY: max (a₁ + a₂ + d₁·x₁ + d₂·x₂ + b, 0), each column read at the entry's row, the bias row at its
    column. The operands are in the order the body reads them: a₁, a₂, d₁, x₁, d₂, x₂, b. -/
theorem pay_apply (v0 v2 : Vec Ideal S4000x64 .f32) (v5 : Vec Ideal S4000x1 .f32) (v7 : Vec Ideal S4000x64 .f32)
    (v12 : Vec Ideal S4000x1 .f32) (v14 : Vec Ideal S4000x64 .f32) (v19 : Vec Ideal S1x64 .f32) (p : Fin 4000) (q : Fin 64) :
    Gen.k2_pay1 v0 v2 v5 v7 v12 v14 v19 (ix2 p q)
      = max (v0 (ix2 p q) + v2 (ix2 p q) + v5 (ix2 p (0 : Fin 1)) * v7 (ix2 p q) + v12 (ix2 p (0 : Fin 1)) * v14 (ix2 p q)
          + v19 (ix2 (0 : Fin 1) q)) (Ideal.ofBits .f32 0x00000000#32) := by
  unfold Gen.k2_pay1
  simp only [shapeCast_self]
  rw [maximumf_apply, addf_apply, addf_apply, addf_apply, addf_apply, mulf_apply, mulf_apply, broadcast_apply,
    broadcastTo_a1_ab_apply, broadcastTo_a1_ab_apply, broadcastTo_1b_ab_apply]
  rfl

/-- The body at entry (p, q) of a block is the whole-array function at entry (r, q), as soon as the seven blocks hold
    there what the seven arrays hold at row `r` (the bias at its only row). -/
theorem point_eq (v0 v2 : Vec Ideal S4000x64 .f32) (v5 : Vec Ideal S4000x1 .f32) (v7 : Vec Ideal S4000x64 .f32)
    (v12 : Vec Ideal S4000x1 .f32) (v14 : Vec Ideal S4000x64 .f32) (v19 : Vec Ideal S1x64 .f32)
    (a1 a2 x1 x2 : GraphSpec.Arr2 200000 64) (d1 d2 : GraphSpec.Arr2 200000 1) (b : GraphSpec.Arr2 1 64)
    (p : Fin 4000) (q : Fin 64) (r : Fin 200000)
    (h0 : v0 (ix2 p q) = a1 (ix2 r q)) (h2 : v2 (ix2 p q) = a2 (ix2 r q))
    (h5 : v5 (ix2 p (0 : Fin 1)) = d1 (ix2 r (0 : Fin 1))) (h7 : v7 (ix2 p q) = x1 (ix2 r q))
    (h12 : v12 (ix2 p (0 : Fin 1)) = d2 (ix2 r (0 : Fin 1))) (h14 : v14 (ix2 p q) = x2 (ix2 r q))
    (h19 : v19 (ix2 (0 : Fin 1) q) = b (ix2 (0 : Fin 1) q)) :
    Gen.k2_pay1 v0 v2 v5 v7 v12 v14 v19 (ix2 p q) = GraphSpec.comb2 200000 64 a1 a2 x1 x2 d1 d2 b (ix2 r q) := by
  rw [pay_apply, h0, h2, h5, h7, h12, h14, h19]
  rfl

/-- The printed index maps, decided over the 50 grid points: every row-blocked window is at block (t, 0), the bias row at
    block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- WHAT POINT `t` WRITES BACK is block `t` of the whole-array function of the arrays as the region finds them. -/
theorem flushed_eq (c : Dev nD) (t : Fin cfg2.N) :
    (Gen.dat2 (F := Ideal) V c).flushed 7 t
      = ((cfg2.win 7).blk t).view.read (Elt Ideal)
          (GraphSpec.comb2 200000 64 (V c main_v39) (V c main_v81) (V c main_v11) (V c main_v53) (V c main_v41) (V c main_v83) (V c main_v85)) := by
  show (cfg2.win 7).cut (grid2.coords t) ((Gen.dat2 V c).after 7 t) = _
  rw [Gen.after2_7]
  unfold Gen.out2_7
  rw [View.canon_unit_zero hz]
  simp only [View.ld_unit_zero (S := S4000x64) hz, View.ld_unit_zero (S := S4000x1) hz, View.ld_unit_zero (S := S1x64) hz]
  obtain ⟨e00, e01, e10, e11, e20, e21, e30, e31, e40, e41, e50, e51, e60, e61, eo0, eo1⟩ := idx_facts t
  have hN : cfg2.N = 50 := Gen.N_2
  have ht : t.val < 50 := lt_of_lt_of_eq t.isLt hN
  funext j
  have hj0 : (j 0).val < 4000 := (j 0).isLt
  have hj1 : (j 1).val < 64 := (j 1).isLt
  have e1 : (cfg2.win 7).xinj (grid2.coords t) j = ix2 (⟨(j 0).val, hj0⟩ : Fin 4000) (⟨(j 1).val, hj1⟩ : Fin 64) :=
    funext fun a => by match a with | ⟨0, _⟩ => rfl | ⟨1, _⟩ => rfl
  have e2 : ((cfg2.win 7).blk t).view.emb j
      = ix2 (⟨t.val * 4000 + (j 0).val, by omega⟩ : Fin 200000) (⟨(j 1).val, hj1⟩ : Fin 64) :=
    funext fun a => Fin.ext (by
      match a with
      | ⟨0, _⟩ => show win2_7.index t (0 : Fin 2) * 4000 + 1 * (j 0).val = t.val * 4000 + (j 0).val; omega
      | ⟨1, _⟩ => show win2_7.index t (1 : Fin 2) * 64 + 1 * (j 1).val = (j 1).val; omega)
  show Gen.k2_pay1 (Gen.iblk2 V c 0 t) (Gen.iblk2 V c 1 t) (Gen.iblk2 V c 4 t) (Gen.iblk2 V c 2 t)
      (Gen.iblk2 V c 5 t) (Gen.iblk2 V c 3 t) (Gen.iblk2 V c 6 t) ((cfg2.win 7).xinj (grid2.coords t) j)
    = GraphSpec.comb2 200000 64 (V c main_v39) (V c main_v81) (V c main_v11) (V c main_v53) (V c main_v41) (V c main_v83) (V c main_v85) (((cfg2.win 7).blk t).view.emb j)
  rw [e1, e2]
  refine point_eq _ _ _ _ _ _ _ _ _ _ _ _ _ _ _ _ _ ?_ ?_ ?_ ?_ ?_ ?_ ?_
  · show V c main_v39 (((cfg2.win 0).blk t).view.emb (ix2 (⟨(j 0).val, hj0⟩ : Fin 4000) (⟨(j 1).val, hj1⟩ : Fin 64))) = V c main_v39 _
    refine congrArg (V c main_v39) (funext fun a => Fin.ext ?_)
    match a with
    | ⟨0, _⟩ => show win2_0.index t (0 : Fin 2) * 4000 + 1 * (j 0).val = t.val * 4000 + (j 0).val; omega
    | ⟨1, _⟩ => show win2_0.index t (1 : Fin 2) * 64 + 1 * (j 1).val = (j 1).val; omega
  · show V c main_v81 (((cfg2.win 1).blk t).view.emb (ix2 (⟨(j 0).val, hj0⟩ : Fin 4000) (⟨(j 1).val, hj1⟩ : Fin 64))) = V c main_v81 _
    refine congrArg (V c main_v81) (funext fun a => Fin.ext ?_)
    match a with
    | ⟨0, _⟩ => show win2_1.index t (0 : Fin 2) * 4000 + 1 * (j 0).val = t.val * 4000 + (j 0).val; omega
    | ⟨1, _⟩ => show win2_1.index t (1 : Fin 2) * 64 + 1 * (j 1).val = (j 1).val; omega
  · show V c main_v41 (((cfg2.win 4).blk t).view.emb (ix2 (⟨(j 0).val, hj0⟩ : Fin 4000) (0 : Fin 1))) = V c main_v41 _
    refine congrArg (V c main_v41) (funext fun a => Fin.ext ?_)
    match a with
    | ⟨0, _⟩ => show win2_4.index t (0 : Fin 2) * 4000 + 1 * (j 0).val = t.val * 4000 + (j 0).val; omega
    | ⟨1, _⟩ => show win2_4.index t (1 : Fin 2) * 1 + 1 * 0 = 0; omega
  · show V c main_v11 (((cfg2.win 2).blk t).view.emb (ix2 (⟨(j 0).val, hj0⟩ : Fin 4000) (⟨(j 1).val, hj1⟩ : Fin 64))) = V c main_v11 _
    refine congrArg (V c main_v11) (funext fun a => Fin.ext ?_)
    match a with
    | ⟨0, _⟩ => show win2_2.index t (0 : Fin 2) * 4000 + 1 * (j 0).val = t.val * 4000 + (j 0).val; omega
    | ⟨1, _⟩ => show win2_2.index t (1 : Fin 2) * 64 + 1 * (j 1).val = (j 1).val; omega
  · show V c main_v83 (((cfg2.win 5).blk t).view.emb (ix2 (⟨(j 0).val, hj0⟩ : Fin 4000) (0 : Fin 1))) = V c main_v83 _
    refine congrArg (V c main_v83) (funext fun a => Fin.ext ?_)
    match a with
    | ⟨0, _⟩ => show win2_5.index t (0 : Fin 2) * 4000 + 1 * (j 0).val = t.val * 4000 + (j 0).val; omega
    | ⟨1, _⟩ => show win2_5.index t (1 : Fin 2) * 1 + 1 * 0 = 0; omega
  · show V c main_v53 (((cfg2.win 3).blk t).view.emb (ix2 (⟨(j 0).val, hj0⟩ : Fin 4000) (⟨(j 1).val, hj1⟩ : Fin 64))) = V c main_v53 _
    refine congrArg (V c main_v53) (funext fun a => Fin.ext ?_)
    match a with
    | ⟨0, _⟩ => show win2_3.index t (0 : Fin 2) * 4000 + 1 * (j 0).val = t.val * 4000 + (j 0).val; omega
    | ⟨1, _⟩ => show win2_3.index t (1 : Fin 2) * 64 + 1 * (j 1).val = (j 1).val; omega
  · show V c main_v85 (((cfg2.win 6).blk t).view.emb (ix2 (0 : Fin 1) (⟨(j 1).val, hj1⟩ : Fin 64))) = V c main_v85 _
    refine congrArg (V c main_v85) (funext fun a => Fin.ext ?_)
    match a with
    | ⟨0, _⟩ => show win2_6.index t (0 : Fin 2) * 1 + 1 * 0 = 0; omega
    | ⟨1, _⟩ => show win2_6.index t (1 : Fin 2) * 64 + 1 * (j 1).val = (j 1).val; omega

/-- An index of the array is in point `t`'s block iff each coordinate is in the block's range on its axis. -/
theorem mem_blk (t : Fin cfg2.N) (i : S200000x64.Idx) :
    i ∈ ((cfg2.win 7).blk t).view.set
      ↔ ∀ a : Fin 2, win2_7.index t a * S4000x64.size a ≤ (i a).val
          ∧ (i a).val < win2_7.index t a * S4000x64.size a + S4000x64.size a := by
  show i ∈ ((View.whole main_v86).slice (win2_7.rect t)).set ↔ _
  rw [View.set_slice_whole, Rect.mem_set_unit]
  exact Iff.rfl

/-- THE BLOCKS TILE THE ARRAY: row `r` lies in the block of point `r / 4000`. -/
theorem cover (i : S200000x64.Idx) :
    ∃ t : Fin cfg2.N, (cfg2.win 7).flush t = true ∧ i ∈ ((cfg2.win 7).blk t).view.set := by
  have hi0 : (i 0).val < 200000 := (i 0).isLt
  have hi1 : (i 1).val < 64 := (i 1).isLt
  have hlt : (i 0).val / 4000 < cfg2.N := by rw [show cfg2.N = 50 from Gen.N_2]; omega
  obtain ⟨t, ht⟩ : ∃ t : Fin cfg2.N, t.val = (i 0).val / 4000 := ⟨⟨_, hlt⟩, rfl⟩
  obtain ⟨-, -, -, -, -, -, -, -, -, -, -, -, -, -, eo0, eo1⟩ := idx_facts t
  refine ⟨t, Gen.flush2_7 t, ?_⟩
  rw [mem_blk]
  intro a
  match a with
  | ⟨0, _⟩ =>
    show win2_7.index t (0 : Fin 2) * 4000 ≤ (i 0).val ∧ (i 0).val < win2_7.index t (0 : Fin 2) * 4000 + 4000
    omega
  | ⟨1, _⟩ =>
    show win2_7.index t (1 : Fin 2) * 64 ≤ (i 1).val ∧ (i 1).val < win2_7.index t (1 : Fin 2) * 64 + 64
    omega

/-- THE ARRAY after the region: the whole-array function of the seven input arrays as the region finds them. -/
theorem final (c : Dev nD) :
    (Gen.dat2 (F := Ideal) V c).arrAt 7 cfg2.N
      = GraphSpec.comb2 200000 64 (V c main_v39) (V c main_v81) (V c main_v11) (V c main_v53) (V c main_v41) (V c main_v83) (V c main_v85) :=
  (Gen.dat2 V c).arrAt_eq_of_cover 7 _ (fun t _ => flushed_eq V c t) cover

end Cert.KernelIdeal.Comb2

end
-- ==== Proof.BridgeComb.lean ====
/-
  The reference's epilogues are the specification's.

  After the scatter-add of the messages the reference finishes one convolution as (agg + d·xw) + b, with the
  self-loop weight d = dinv² kept as a column and broadcast along the features, and the bias broadcast along the nodes;
  a node type fed by two edge types adds its two convolutions; then max(·, 0). Entry by entry that is a sum of the same
  extended reals as the fused form agg₁ + agg₂ + d₁·xw₁ + d₂·xw₂ + (b₁ + b₂), in another order and bracketing, and
  addition of extended reals is commutative and associative, so nothing needs to be finite.
-/
import proofs.«130242_j57475252355428_1_alg».proof.Proof.GraphSpec
import proofs.«130242_j57475252355428_1_alg».proof.Proof.RefStages
import proofs.«130242_j57475252355428_1_alg».proof.Proof.Gen.KernelIdeal
import Idealize.ShloMosaic.PureOps.Ideal.Laws
import Idealize.ShloMosaic.Lib.Pipeline.Value
import Idealize.ShloMosaic.Lib.ValueIdx

set_option maxRecDepth 16384

noncomputable section

namespace Cert.Bridge

open Idealize.ShloMosaic Idealize.ShloMosaic.ValueIdx Cert.ReferenceIdeal Cert.ReferenceIdeal.Read Cert.GraphSpec
-- the two reshape facts [f] → [1, f] of the bias rows, as the kernel program's host reshapes cite them
open Cert.KernelIdeal.Facts₀ (shapeCasts_S64_S1x64 shapeCasts_S128_S1x128)

/-- The reference's stage `v145` — the two edge types' convolutions, each `(agg + d·xw) + b`, added and passed
    through max(·, 0) — is the fused epilogue of the same pieces with the two bias rows added first: only the order and
    bracketing of a sum of extended reals differ. -/
theorem comb_v145 (a0 : (⟨S200000x128, .f32⟩ : BufTy).Contents (Elt Ideal)) (a2 : (⟨S2x1000000, .i32⟩ : BufTy).Contents (Elt Ideal)) (a3 : (⟨S2x600000, .i32⟩ : BufTy).Contents (Elt Ideal)) (a5 : (⟨S128x64, .f32⟩ : BufTy).Contents (Elt Ideal)) (a6 : (⟨S64, .f32⟩ : BufTy).Contents (Elt Ideal)) (a7 : (⟨S128x64, .f32⟩ : BufTy).Contents (Elt Ideal)) (a8 : (⟨S64, .f32⟩ : BufTy).Contents (Elt Ideal)) :
    GraphSpec.comb2 200000 64 (val_main_v39 (F := Ideal) a0 a2 a5) (val_main_v87 (F := Ideal) a0 a3 a7) (val_main_v11 (F := Ideal) a0 a5) (val_main_v59 (F := Ideal) a0 a7) (val_main_v41 (F := Ideal) a2) (val_main_v89 (F := Ideal) a3)
      (shapeCast S1x64 (addf (F := Ideal) (φ := .f32) a6 a8) shapeCasts_S64_S1x64 : (⟨S1x64, .f32⟩ : BufTy).Contents (Elt Ideal))
    = val_main_v145 (F := Ideal) a0 a2 a3 a5 a6 a7 a8 := by
  funext i
  rw [val_main_v145_apply, val_main_v96_apply, val_main_v47_apply, val_main_v44_apply, val_main_v43_apply, val_main_v42_apply,
    val_main_v46_apply, val_main_v45_apply, val_main_v95_apply, val_main_v92_apply, val_main_v91_apply, val_main_v90_apply,
    val_main_v94_apply, val_main_v93_apply, val_main_call0_v0_apply, val_main_call0_cst_apply]
  have hb : (shapeCast S1x64 (addf (F := Ideal) (φ := .f32) a6 a8) shapeCasts_S64_S1x64 : (⟨S1x64, .f32⟩ : BufTy).Contents (Elt Ideal)) (ix2 0 (i 1))
      = a6 (idx_main_v45 (idx_main_v46 i)) + a8 (idx_main_v93 (idx_main_v94 i)) := by
    rw [shapeCast_apply (addf (F := Ideal) (φ := .f32) a6 a8) shapeCasts_S64_S1x64 (ix2 0 (i 1)) (idx_main_v45 (idx_main_v46 i))
      (by rewrite [Shape.rowMajor_val_one, Shape.rowMajor_val_two]; show (i 1).val = 0 * 64 + (i 1).val; omega)]
    rfl
  have hd1 : (ix2 (i 0) 0 : S200000x1.Idx) = idx_main_v42 i := funext fun a => by
    match a with
    | ⟨0, _⟩ => rfl
    | ⟨1, _⟩ => rfl
  have hd2 : (ix2 (i 0) 0 : S200000x1.Idx) = idx_main_v90 i := funext fun a => by
    match a with
    | ⟨0, _⟩ => rfl
    | ⟨1, _⟩ => rfl
  unfold GraphSpec.comb2
  rw [hb, hd1, ← hd2, hd1]
  simp only [Ideal.addf_def, Ideal.mulf_def, Ideal.maximumf_def, Ideal.ofBits_def]
  -- the identity is one between two sums of the same eight extended reals, whatever they are: name the stage values
  generalize val_main_v39 (F := Ideal) a0 a2 a5 i = p1
  generalize val_main_v87 (F := Ideal) a0 a3 a7 i = p2
  generalize val_main_v11 (F := Ideal) a0 a5 i = q1
  generalize val_main_v59 (F := Ideal) a0 a7 i = q2
  generalize val_main_v41 (F := Ideal) a2 (idx_main_v42 i) = d1
  generalize val_main_v89 (F := Ideal) a3 (idx_main_v42 i) = d2
  refine congrArg (fun t => max t _) ?_
  ac_rfl

/-- The reference's stage `v146` — one edge type's convolution `(agg + d·xw) + b` passed through max(·, 0) — is the
    fused epilogue of the same pieces. -/
theorem comb_v146 (a1 : (⟨S100000x128, .f32⟩ : BufTy).Contents (Elt Ideal)) (a4 : (⟨S2x600000, .i32⟩ : BufTy).Contents (Elt Ideal)) (a9 : (⟨S128x64, .f32⟩ : BufTy).Contents (Elt Ideal)) (a10 : (⟨S64, .f32⟩ : BufTy).Contents (Elt Ideal)) :
    GraphSpec.comb1 100000 64 (val_main_v136 (F := Ideal) a1 a4 a9) (val_main_v108 (F := Ideal) a1 a9) (val_main_v138 (F := Ideal) a4)
      (shapeCast S1x64 a10 shapeCasts_S64_S1x64 : (⟨S1x64, .f32⟩ : BufTy).Contents (Elt Ideal))
    = val_main_v146 (F := Ideal) a1 a4 a9 a10 := by
  funext i
  rw [val_main_v146_apply, val_main_v144_apply, val_main_v141_apply, val_main_v140_apply, val_main_v139_apply,
    val_main_v143_apply, val_main_v142_apply, val_main_call1_v0_apply, val_main_call1_cst_apply]
  have hb : (shapeCast S1x64 a10 shapeCasts_S64_S1x64 : (⟨S1x64, .f32⟩ : BufTy).Contents (Elt Ideal)) (ix2 0 (i 1))
      = a10 (idx_main_v142 (idx_main_v143 i)) :=
    shapeCast_apply a10 shapeCasts_S64_S1x64 (ix2 0 (i 1)) (idx_main_v142 (idx_main_v143 i))
      (by rewrite [Shape.rowMajor_val_one, Shape.rowMajor_val_two]; show (i 1).val = 0 * 64 + (i 1).val; omega)
  have hd : (ix2 (i 0) 0 : S100000x1.Idx) = idx_main_v139 i := funext fun a => by
    match a with
    | ⟨0, _⟩ => rfl
    | ⟨1, _⟩ => rfl
  unfold GraphSpec.comb1
  rw [hb, hd]
  simp only [Ideal.addf_def, Ideal.mulf_def, Ideal.maximumf_def, Ideal.ofBits_def]

/-- The reference's stage `v292` — the two edge types' convolutions, each `(agg + d·xw) + b`, added and passed
    through max(·, 0) — is the fused epilogue of the same pieces with the two bias rows added first: only the order and
    bracketing of a sum of extended reals differ. -/
theorem comb_v292 (a0 : (⟨S200000x128, .f32⟩ : BufTy).Contents (Elt Ideal)) (a2 : (⟨S2x1000000, .i32⟩ : BufTy).Contents (Elt Ideal)) (a3 : (⟨S2x600000, .i32⟩ : BufTy).Contents (Elt Ideal)) (a5 : (⟨S128x64, .f32⟩ : BufTy).Contents (Elt Ideal)) (a6 : (⟨S64, .f32⟩ : BufTy).Contents (Elt Ideal)) (a7 : (⟨S128x64, .f32⟩ : BufTy).Contents (Elt Ideal)) (a8 : (⟨S64, .f32⟩ : BufTy).Contents (Elt Ideal)) (a11 : (⟨S64x128, .f32⟩ : BufTy).Contents (Elt Ideal)) (a12 : (⟨S128, .f32⟩ : BufTy).Contents (Elt Ideal)) (a13 : (⟨S64x128, .f32⟩ : BufTy).Contents (Elt Ideal)) (a14 : (⟨S128, .f32⟩ : BufTy).Contents (Elt Ideal)) :
    GraphSpec.comb2 200000 128 (val_main_v186 (F := Ideal) a0 a2 a3 a5 a6 a7 a8 a11) (val_main_v234 (F := Ideal) a0 a2 a3 a5 a6 a7 a8 a13) (val_main_v158 (F := Ideal) a0 a2 a3 a5 a6 a7 a8 a11) (val_main_v206 (F := Ideal) a0 a2 a3 a5 a6 a7 a8 a13) (val_main_v188 (F := Ideal) a2) (val_main_v236 (F := Ideal) a3)
      (shapeCast S1x128 (addf (F := Ideal) (φ := .f32) a12 a14) shapeCasts_S128_S1x128 : (⟨S1x128, .f32⟩ : BufTy).Contents (Elt Ideal))
    = val_main_v292 (F := Ideal) a0 a2 a3 a5 a6 a7 a8 a11 a12 a13 a14 := by
  funext i
  rw [val_main_v292_apply, val_main_v243_apply, val_main_v194_apply, val_main_v191_apply, val_main_v190_apply, val_main_v189_apply,
    val_main_v193_apply, val_main_v192_apply, val_main_v242_apply, val_main_v239_apply, val_main_v238_apply, val_main_v237_apply,
    val_main_v241_apply, val_main_v240_apply, val_main_call2_v0_apply, val_main_call2_cst_apply]
  have hb : (shapeCast S1x128 (addf (F := Ideal) (φ := .f32) a12 a14) shapeCasts_S128_S1x128 : (⟨S1x128, .f32⟩ : BufTy).Contents (Elt Ideal)) (ix2 0 (i 1))
      = a12 (idx_main_v192 (idx_main_v193 i)) + a14 (idx_main_v240 (idx_main_v241 i)) := by
    rw [shapeCast_apply (addf (F := Ideal) (φ := .f32) a12 a14) shapeCasts_S128_S1x128 (ix2 0 (i 1)) (idx_main_v192 (idx_main_v193 i))
      (by rewrite [Shape.rowMajor_val_one, Shape.rowMajor_val_two]; show (i 1).val = 0 * 128 + (i 1).val; omega)]
    rfl
  have hd1 : (ix2 (i 0) 0 : S200000x1.Idx) = idx_main_v189 i := funext fun a => by
    match a with
    | ⟨0, _⟩ => rfl
    | ⟨1, _⟩ => rfl
  have hd2 : (ix2 (i 0) 0 : S200000x1.Idx) = idx_main_v237 i := funext fun a => by
    match a with
    | ⟨0, _⟩ => rfl
    | ⟨1, _⟩ => rfl
  unfold GraphSpec.comb2
  rw [hb, hd1, ← hd2, hd1]
  simp only [Ideal.addf_def, Ideal.mulf_def, Ideal.maximumf_def, Ideal.ofBits_def]
  -- the identity is one between two sums of the same eight extended reals, whatever they are: name the stage values
  generalize val_main_v186 (F := Ideal) a0 a2 a3 a5 a6 a7 a8 a11 i = p1
  generalize val_main_v234 (F := Ideal) a0 a2 a3 a5 a6 a7 a8 a13 i = p2
  generalize val_main_v158 (F := Ideal) a0 a2 a3 a5 a6 a7 a8 a11 i = q1
  generalize val_main_v206 (F := Ideal) a0 a2 a3 a5 a6 a7 a8 a13 i = q2
  generalize val_main_v188 (F := Ideal) a2 (idx_main_v189 i) = d1
  generalize val_main_v236 (F := Ideal) a3 (idx_main_v189 i) = d2
  refine congrArg (fun t => max t _) ?_
  ac_rfl

/-- The reference's stage `v293` — one edge type's convolution `(agg + d·xw) + b` passed through max(·, 0) — is the
    fused epilogue of the same pieces. -/
theorem comb_v293 (a1 : (⟨S100000x128, .f32⟩ : BufTy).Contents (Elt Ideal)) (a4 : (⟨S2x600000, .i32⟩ : BufTy).Contents (Elt Ideal)) (a9 : (⟨S128x64, .f32⟩ : BufTy).Contents (Elt Ideal)) (a10 : (⟨S64, .f32⟩ : BufTy).Contents (Elt Ideal)) (a15 : (⟨S64x128, .f32⟩ : BufTy).Contents (Elt Ideal)) (a16 : (⟨S128, .f32⟩ : BufTy).Contents (Elt Ideal)) :
    GraphSpec.comb1 100000 128 (val_main_v283 (F := Ideal) a1 a4 a9 a10 a15) (val_main_v255 (F := Ideal) a1 a4 a9 a10 a15) (val_main_v285 (F := Ideal) a4)
      (shapeCast S1x128 a16 shapeCasts_S128_S1x128 : (⟨S1x128, .f32⟩ : BufTy).Contents (Elt Ideal))
    = val_main_v293 (F := Ideal) a1 a4 a9 a10 a15 a16 := by
  funext i
  rw [val_main_v293_apply, val_main_v291_apply, val_main_v288_apply, val_main_v287_apply, val_main_v286_apply,
    val_main_v290_apply, val_main_v289_apply, val_main_call3_v0_apply, val_main_call3_cst_apply]
  have hb : (shapeCast S1x128 a16 shapeCasts_S128_S1x128 : (⟨S1x128, .f32⟩ : BufTy).Contents (Elt Ideal)) (ix2 0 (i 1))
      = a16 (idx_main_v289 (idx_main_v290 i)) :=
    shapeCast_apply a16 shapeCasts_S128_S1x128 (ix2 0 (i 1)) (idx_main_v289 (idx_main_v290 i))
      (by rewrite [Shape.rowMajor_val_one, Shape.rowMajor_val_two]; show (i 1).val = 0 * 128 + (i 1).val; omega)
  have hd : (ix2 (i 0) 0 : S100000x1.Idx) = idx_main_v286 i := funext fun a => by
    match a with
    | ⟨0, _⟩ => rfl
    | ⟨1, _⟩ => rfl
  unfold GraphSpec.comb1
  rw [hb, hd]
  simp only [Ideal.addf_def, Ideal.mulf_def, Ideal.maximumf_def, Ideal.ofBits_def]

end Cert.Bridge

end
-- ==== Proof.R2.lean ====
/-
  Boundary 6: the buffer contents after the third tiled region, at the buffers later segments read.

  The region replaces its output array by what its grid points wrote back — the fused epilogue (self-loop term, bias, sum over edge types, max with 0) of its input arrays as the region found them — and
  leaves every other buffer as it was. The inputs were named at the previous boundary by stages of the argument arrays;
  the product form of those stages is the reference's stage for this buffer.
-/
import proofs.«130242_j57475252355428_1_alg».proof.Proof.H2
import proofs.«130242_j57475252355428_1_alg».proof.Proof.Comb2
import proofs.«130242_j57475252355428_1_alg».proof.Proof.BridgeComb
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem at6_arg16 (c : Dev nD) : W6 m ρ c (Proc.devRef .tc main_arg16) = m ((c : Thread nD τ).loc main_arg16) :=
  (W6_of_ne m ρ c main_arg16 (by decide)).trans (at5_arg16 m ρ c)

theorem at6_arg15 (c : Dev nD) : W6 m ρ c (Proc.devRef .tc main_arg15) = m ((c : Thread nD τ).loc main_arg15) :=
  (W6_of_ne m ρ c main_arg15 (by decide)).trans (at5_arg15 m ρ c)

theorem at6_arg4 (c : Dev nD) : W6 m ρ c (Proc.devRef .tc main_arg4) = m ((c : Thread nD τ).loc main_arg4) :=
  (W6_of_ne m ρ c main_arg4 (by decide)).trans (at5_arg4 m ρ c)

theorem at6_arg12 (c : Dev nD) : W6 m ρ c (Proc.devRef .tc main_arg12) = m ((c : Thread nD τ).loc main_arg12) :=
  (W6_of_ne m ρ c main_arg12 (by decide)).trans (at5_arg12 m ρ c)

theorem at6_arg14 (c : Dev nD) : W6 m ρ c (Proc.devRef .tc main_arg14) = m ((c : Thread nD τ).loc main_arg14) :=
  (W6_of_ne m ρ c main_arg14 (by decide)).trans (at5_arg14 m ρ c)

theorem at6_v86 (c : Dev nD) : W6 m ρ c (Proc.devRef .tc main_v86) = (Cert.ReferenceIdeal.Read.val_main_v145 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) :=
  (W6_arr m ρ c 7).trans <| (Cert.KernelIdeal.Comb2.final (V5 m ρ) c).trans <| by
    rw [show V5 m ρ c main_v39 = _ from at5_v39 m ρ c,
      show V5 m ρ c main_v81 = _ from at5_v81 m ρ c,
      show V5 m ρ c main_v11 = _ from at5_v11 m ρ c,
      show V5 m ρ c main_v53 = _ from at5_v53 m ρ c,
      show V5 m ρ c main_v41 = _ from at5_v41 m ρ c,
      show V5 m ρ c main_v83 = _ from at5_v83 m ρ c,
      show V5 m ρ c main_v85 = _ from at5_v85 m ρ c]
    exact Cert.Bridge.comb_v145 _ _ _ _ _ _ _

theorem at6_arg13 (c : Dev nD) : W6 m ρ c (Proc.devRef .tc main_arg13) = m ((c : Thread nD τ).loc main_arg13) :=
  (W6_of_ne m ρ c main_arg13 (by decide)).trans (at5_arg13 m ρ c)

theorem at6_arg3 (c : Dev nD) : W6 m ρ c (Proc.devRef .tc main_arg3) = m ((c : Thread nD τ).loc main_arg3) :=
  (W6_of_ne m ρ c main_arg3 (by decide)).trans (at5_arg3 m ρ c)

theorem at6_arg11 (c : Dev nD) : W6 m ρ c (Proc.devRef .tc main_arg11) = m ((c : Thread nD τ).loc main_arg11) :=
  (W6_of_ne m ρ c main_arg11 (by decide)).trans (at5_arg11 m ρ c)

theorem at6_arg2 (c : Dev nD) : W6 m ρ c (Proc.devRef .tc main_arg2) = m ((c : Thread nD τ).loc main_arg2) :=
  (W6_of_ne m ρ c main_arg2 (by decide)).trans (at5_arg2 m ρ c)

theorem at6_arg10 (c : Dev nD) : W6 m ρ c (Proc.devRef .tc main_arg10) = m ((c : Thread nD τ).loc main_arg10) :=
  (W6_of_ne m ρ c main_arg10 (by decide)).trans (at5_arg10 m ρ c)

theorem at6_arg1 (c : Dev nD) : W6 m ρ c (Proc.devRef .tc main_arg1) = m ((c : Thread nD τ).loc main_arg1) :=
  (W6_of_ne m ρ c main_arg1 (by decide)).trans (at5_arg1 m ρ c)

theorem at6_arg9 (c : Dev nD) : W6 m ρ c (Proc.devRef .tc main_arg9) = m ((c : Thread nD τ).loc main_arg9) :=
  (W6_of_ne m ρ c main_arg9 (by decide)).trans (at5_arg9 m ρ c)

end Cert.KernelIdeal.Flow

end
-- ==== Proof.H3.lean ====
/-
  Boundary 7: the buffer contents after the fourth stretch of host operations, at the buffers later segments read.

  A buffer the stretch does not write keeps what it held before the stretch. A buffer the stretch writes holds the
  stretch's operations applied, in order, to what the stretch read; written out, that term is the reference program's
  stage of the same name-free shape (the same slices, broadcasts, gathers, scatter-adds and products of the same
  arguments), so each fact names the contents by that stage of the argument arrays.
-/
import proofs.«130242_j57475252355428_1_alg».proof.Proof.R2
import proofs.«130242_j57475252355428_1_alg».proof.Proof.RefStages
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The buffers this stretch writes. -/
def written3 : List (Ref sig .tc) := [main_v87, main_v88, main_v89, main_v90, main_cst_18, main_v91, main_cst_19, main_v92, main_v93, main_v94, main_cst_20, main_v95, main_v96, main_v97]

/-- A buffer the stretch does not write is left as it was. -/
theorem pass3 (V : Valuation τ sig (Elt Ideal)) (b : Ref sig .tc) (h : ∀ x ∈ written3, b ≠ x) :
    StableHlo.after hostOps3 V (Proc.devRef .tc b) = V (Proc.devRef .tc b) :=
  StableHlo.after_of_forall_not_mem (b := Proc.devRef .tc b) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem at7_arg16 (c : Dev nD) : W7 m ρ c (Proc.devRef .tc main_arg16) = m ((c : Thread nD τ).loc main_arg16) := (pass3 (W6 m ρ c) main_arg16 (by decide)).trans (at6_arg16 m ρ c)

theorem at7_arg15 (c : Dev nD) : W7 m ρ c (Proc.devRef .tc main_arg15) = m ((c : Thread nD τ).loc main_arg15) := (pass3 (W6 m ρ c) main_arg15 (by decide)).trans (at6_arg15 m ρ c)

theorem at7_arg4 (c : Dev nD) : W7 m ρ c (Proc.devRef .tc main_arg4) = m ((c : Thread nD τ).loc main_arg4) := (pass3 (W6 m ρ c) main_arg4 (by decide)).trans (at6_arg4 m ρ c)

theorem at7_arg12 (c : Dev nD) : W7 m ρ c (Proc.devRef .tc main_arg12) = m ((c : Thread nD τ).loc main_arg12) := (pass3 (W6 m ρ c) main_arg12 (by decide)).trans (at6_arg12 m ρ c)

theorem at7_arg14 (c : Dev nD) : W7 m ρ c (Proc.devRef .tc main_arg14) = m ((c : Thread nD τ).loc main_arg14) := (pass3 (W6 m ρ c) main_arg14 (by decide)).trans (at6_arg14 m ρ c)

theorem at7_v86 (c : Dev nD) : W7 m ρ c (Proc.devRef .tc main_v86) = (Cert.ReferenceIdeal.Read.val_main_v145 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) := (pass3 (W6 m ρ c) main_v86 (by decide)).trans (at6_v86 m ρ c)

theorem at7_arg13 (c : Dev nD) : W7 m ρ c (Proc.devRef .tc main_arg13) = m ((c : Thread nD τ).loc main_arg13) := (pass3 (W6 m ρ c) main_arg13 (by decide)).trans (at6_arg13 m ρ c)

theorem at7_arg3 (c : Dev nD) : W7 m ρ c (Proc.devRef .tc main_arg3) = m ((c : Thread nD τ).loc main_arg3) := (pass3 (W6 m ρ c) main_arg3 (by decide)).trans (at6_arg3 m ρ c)

theorem at7_arg11 (c : Dev nD) : W7 m ρ c (Proc.devRef .tc main_arg11) = m ((c : Thread nD τ).loc main_arg11) := (pass3 (W6 m ρ c) main_arg11 (by decide)).trans (at6_arg11 m ρ c)

theorem at7_arg2 (c : Dev nD) : W7 m ρ c (Proc.devRef .tc main_arg2) = m ((c : Thread nD τ).loc main_arg2) := (pass3 (W6 m ρ c) main_arg2 (by decide)).trans (at6_arg2 m ρ c)

theorem at7_arg10 (c : Dev nD) : W7 m ρ c (Proc.devRef .tc main_arg10) = m ((c : Thread nD τ).loc main_arg10) := (pass3 (W6 m ρ c) main_arg10 (by decide)).trans (at6_arg10 m ρ c)

theorem at7_v97 (c : Dev nD) : W7 m ρ c (Proc.devRef .tc main_v97) = (Cert.ReferenceIdeal.Read.val_main_v107 (F := Ideal) (m ((c : Thread nD τ).loc main_arg4))) := by
  show StableHlo.after hostOps3 (W6 m ρ c) (Proc.devRef .tc main_v97) = _
  after_results_simp
  all_goals try simp only [at6_arg4 m ρ c]
  all_goals rfl

theorem at7_v90 (c : Dev nD) : W7 m ρ c (Proc.devRef .tc main_v90) = (Cert.ReferenceIdeal.Read.val_main_v100 (F := Ideal) (m ((c : Thread nD τ).loc main_arg4))) := by
  show StableHlo.after hostOps3 (W6 m ρ c) (Proc.devRef .tc main_v90) = _
  after_results_simp
  all_goals try simp only [at6_arg4 m ρ c]
  all_goals rfl

theorem at7_v88 (c : Dev nD) : W7 m ρ c (Proc.devRef .tc main_v88) = (Cert.ReferenceIdeal.Read.val_main_v98 (F := Ideal) (m ((c : Thread nD τ).loc main_arg4))) := by
  show StableHlo.after hostOps3 (W6 m ρ c) (Proc.devRef .tc main_v88) = _
  after_results_simp
  all_goals try simp only [at6_arg4 m ρ c]
  all_goals rfl

theorem at7_arg1 (c : Dev nD) : W7 m ρ c (Proc.devRef .tc main_arg1) = m ((c : Thread nD τ).loc main_arg1) := (pass3 (W6 m ρ c) main_arg1 (by decide)).trans (at6_arg1 m ρ c)

theorem at7_arg9 (c : Dev nD) : W7 m ρ c (Proc.devRef .tc main_arg9) = m ((c : Thread nD τ).loc main_arg9) := (pass3 (W6 m ρ c) main_arg9 (by decide)).trans (at6_arg9 m ρ c)

end Cert.KernelIdeal.Flow

end
-- ==== Proof.Mat3.lean ====
/-
  Region 3 of the layer: a matrix product computed in row blocks.

  The region's grid has 25 points; point t reads rows 4000·t … 4000·t + 3999 of the left operand (a 100000×128 array), the
  whole right operand (128×64), and writes rows 4000·t … 4000·t + 3999 of the result. Entry (p, q) of the block it writes is
  ∑ₗ x[4000·t + p, l] · w[l, q]: narrowing the operands to bf16 is exact on extended reals and the accumulator starts
  at zero. The 25 row blocks tile the result, so after the last point the result array is the matrix product of the two
  input arrays, entry by entry.
-/
import proofs.«130242_j57475252355428_1_alg».proof.Proof.Gen.KernelIdeal.Frame
import proofs.«130242_j57475252355428_1_alg».proof.Proof.GraphSpec
import proofs.«130242_j57475252355428_1_alg».proof.Proof.LibMatmulBlock
import Idealize.ShloMosaic.Lib.Pipeline.Value

set_option maxRecDepth 16384

noncomputable section

namespace Cert.KernelIdeal.Mat3

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point t the left operand's and the result's block is row block t (column block 0);
    the right operand's block is the whole array. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's result at entry (p, q) of its block: ∑ₗ x[p, l] · w[l, q]. Narrowing to bf16 is the identity on
    extended reals, and the accumulator is the zero array. -/
theorem pay_apply (x0 : Vec Ideal S4000x128 .f32) (x1 : Vec Ideal S128x64 .f32) (p : Fin 4000) (q : Fin 64) :
    Gen.k3_pay1 (F := Ideal) x0 x1 (ix2 p q) = ∑ l : Fin 128, x0 (ix2 p l) * x1 (ix2 l q) :=
  Cert.LibMatmulBlock.matmul_zero_apply (m := 4000) (k := 128) (n := 64) Facts₀.dot_S4000x128_S128x64_S4000x64_1_0_0_1_n_n_wf none
      (truncf .bf16 x0 Facts₀.bitsLt_bf16_f32) (truncf .bf16 x1 Facts₀.bitsLt_bf16_f32) p q

/-- The left operand's block at point t is rows 4000·t … of its array. -/
theorem read_lhs (c : Dev nD) (t : Fin cfg3.N) (y : S4000x128.Idx) (i : S100000x128.Idx)
    (h0 : (i 0).val = t.val * 4000 + (y 0).val) (h1 : (i 1).val = (y 1).val) :
    (Gen.iblk3 V c 0 t : Vec Ideal S4000x128 .f32) y = (V c main_arg1 : S100000x128.Idx → EReal) i := by
  obtain ⟨e0, e1, -⟩ := idx_facts t
  unfold Gen.iblk3
  rw [View.read_apply]
  show V c main_arg1 (((cfg3.win 0).blk t).view.emb y) = V c main_arg1 i
  refine congrArg _ ?_
  funext a
  apply Fin.ext
  match a with
  | ⟨0, _⟩ => show win3_0.index t (0 : Fin 2) * 4000 + 1 * (y 0).val = (i 0).val; rw [e0, h0]; omega
  | ⟨1, _⟩ => show win3_0.index t (1 : Fin 2) * 128 + 1 * (y 1).val = (i 1).val; rw [e1, h1]; omega

/-- The right operand's block at every point is its whole array. -/
theorem read_rhs (c : Dev nD) (t : Fin cfg3.N) (y : S128x64.Idx) (i : S128x64.Idx)
    (h0 : (i 0).val = (y 0).val) (h1 : (i 1).val = (y 1).val) :
    (Gen.iblk3 V c 1 t : Vec Ideal S128x64 .f32) y = (V c main_arg9 : S128x64.Idx → EReal) i := by
  obtain ⟨-, -, e2, e3, -⟩ := idx_facts t
  unfold Gen.iblk3
  rw [View.read_apply]
  show V c main_arg9 (((cfg3.win 1).blk t).view.emb y) = V c main_arg9 i
  refine congrArg _ ?_
  funext a
  apply Fin.ext
  match a with
  | ⟨0, _⟩ => show win3_1.index t (0 : Fin 2) * 128 + 1 * (y 0).val = (i 0).val; rw [e2, h0]; omega
  | ⟨1, _⟩ => show win3_1.index t (1 : Fin 2) * 64 + 1 * (y 1).val = (i 1).val; rw [e3, h1]; omega

/-- What point t writes back is block t of the matrix product of the two input arrays. -/
theorem flushed_eq (c : Dev nD) (t : Fin cfg3.N) :
    (Gen.dat3 (F := Ideal) V c).flushed 2 t
      = ((cfg3.win 2).blk t).view.read (Elt Ideal) (GraphSpec.mm 100000 128 64 (V c main_arg1) (V c main_arg9)) := by
  show (cfg3.win 2).cut (grid3.coords t) ((Gen.dat3 V c).after 2 t) = _
  rw [Gen.after3_2]
  unfold Gen.out3_2
  rw [View.canon_unit_zero hz]
  simp only [View.ld_unit_zero (S := S4000x128) hz, View.ld_unit_zero (S := S128x64) hz]
  obtain ⟨-, -, -, -, e4, e5⟩ := idx_facts t
  funext j
  show Gen.k3_pay1 (F := Ideal) (Gen.iblk3 V c 0 t) (Gen.iblk3 V c 1 t) j
    = GraphSpec.mm 100000 128 64 (V c main_arg1) (V c main_arg9) (((cfg3.win 2).blk t).view.emb j)
  obtain ⟨p, q, rfl⟩ : ∃ (p : Fin 4000) (q : Fin 64), j = ix2 p q := ⟨j 0, j 1, eq_ix2 j⟩
  refine (pay_apply _ _ p q).trans ?_
  unfold GraphSpec.mm
  refine Finset.sum_congr rfl fun l _ => ?_
  have hr0 : ((((cfg3.win 2).blk t).view.emb (ix2 p q)) 0).val = t.val * 4000 + p.val := by
    show win3_2.index t (0 : Fin 2) * 4000 + 1 * p.val = _; rw [e4]; omega
  have hr1 : ((((cfg3.win 2).blk t).view.emb (ix2 p q)) 1).val = q.val := by
    show win3_2.index t (1 : Fin 2) * 64 + 1 * q.val = _; rw [e5]; omega
  have hl := read_lhs V c t (ix2 p l) (ix2 ((((cfg3.win 2).blk t).view.emb (ix2 p q)) 0) l) hr0 rfl
  have hr := read_rhs V c t (ix2 l q) (ix2 l ((((cfg3.win 2).blk t).view.emb (ix2 p q)) 1)) rfl hr1
  rw [hl, hr]

/-- An index of the result array is in point t's block iff each coordinate is in the block's range on its axis. -/
theorem mem_blk (t : Fin cfg3.N) (i : S100000x64.Idx) :
    i ∈ ((cfg3.win 2).blk t).view.set ↔ ∀ a : Fin 2, win3_2.index t a * S4000x64.size a ≤ (i a).val ∧ (i a).val < win3_2.index t a * S4000x64.size a + S4000x64.size a := by
  show i ∈ ((View.whole main_v98).slice (win3_2.rect t)).set ↔ _
  rw [View.set_slice_whole, Rect.mem_set_unit]
  exact Iff.rfl

/-- The row blocks tile the result: row r lies in the block of point r / 4000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 25 := Gen.N_3
  refine ⟨⟨(i 0).val / 4000, by rw [hN]; omega⟩, Gen.flush3_2 _, ?_⟩
  rw [mem_blk]
  obtain ⟨-, -, -, -, e4, e5⟩ := idx_facts ⟨(i 0).val / 4000, by rw [hN]; omega⟩
  intro a
  match a with
  | ⟨0, _⟩ =>
    show win3_2.index _ (0 : Fin 2) * 4000 ≤ (i 0).val ∧ (i 0).val < win3_2.index _ (0 : Fin 2) * 4000 + 4000
    rw [e4]; show (i 0).val / 4000 * 4000 ≤ (i 0).val ∧ (i 0).val < (i 0).val / 4000 * 4000 + 4000; omega
  | ⟨1, _⟩ =>
    show win3_2.index _ (1 : Fin 2) * 64 ≤ (i 1).val ∧ (i 1).val < win3_2.index _ (1 : Fin 2) * 64 + 64
    rw [e5]; omega

/-- After all 25 points the result array is the matrix product of the two input arrays. -/
theorem final (c : Dev nD) :
    (Gen.dat3 (F := Ideal) V c).arrAt 2 cfg3.N = GraphSpec.mm 100000 128 64 (V c main_arg1) (V c main_arg9) :=
  (Gen.dat3 (F := Ideal) V c).arrAt_eq_of_cover 2 _ (fun t _ => flushed_eq V c t) cover

end Cert.KernelIdeal.Mat3

end
-- ==== Proof.R3.lean ====
/-
  Boundary 8: the buffer contents after the fourth tiled region, at the buffers later segments read.

  The region replaces its output array by what its grid points wrote back — the matrix product of its two input arrays as the region found them — and
  leaves every other buffer as it was. The inputs were named at the previous boundary by stages of the argument arrays;
  the product of those stages is the reference's stage for this buffer.
-/
import proofs.«130242_j57475252355428_1_alg».proof.Proof.H3
import proofs.«130242_j57475252355428_1_alg».proof.Proof.Mat3
import proofs.«130242_j57475252355428_1_alg».proof.Proof.BridgeMM
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem at8_arg16 (c : Dev nD) : W8 m ρ c (Proc.devRef .tc main_arg16) = m ((c : Thread nD τ).loc main_arg16) :=
  (W8_of_ne m ρ c main_arg16 (by decide)).trans (at7_arg16 m ρ c)

theorem at8_arg15 (c : Dev nD) : W8 m ρ c (Proc.devRef .tc main_arg15) = m ((c : Thread nD τ).loc main_arg15) :=
  (W8_of_ne m ρ c main_arg15 (by decide)).trans (at7_arg15 m ρ c)

theorem at8_arg4 (c : Dev nD) : W8 m ρ c (Proc.devRef .tc main_arg4) = m ((c : Thread nD τ).loc main_arg4) :=
  (W8_of_ne m ρ c main_arg4 (by decide)).trans (at7_arg4 m ρ c)

theorem at8_arg12 (c : Dev nD) : W8 m ρ c (Proc.devRef .tc main_arg12) = m ((c : Thread nD τ).loc main_arg12) :=
  (W8_of_ne m ρ c main_arg12 (by decide)).trans (at7_arg12 m ρ c)

theorem at8_arg14 (c : Dev nD) : W8 m ρ c (Proc.devRef .tc main_arg14) = m ((c : Thread nD τ).loc main_arg14) :=
  (W8_of_ne m ρ c main_arg14 (by decide)).trans (at7_arg14 m ρ c)

theorem at8_v86 (c : Dev nD) : W8 m ρ c (Proc.devRef .tc main_v86) = (Cert.ReferenceIdeal.Read.val_main_v145 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) :=
  (W8_of_ne m ρ c main_v86 (by decide)).trans (at7_v86 m ρ c)

theorem at8_arg13 (c : Dev nD) : W8 m ρ c (Proc.devRef .tc main_arg13) = m ((c : Thread nD τ).loc main_arg13) :=
  (W8_of_ne m ρ c main_arg13 (by decide)).trans (at7_arg13 m ρ c)

theorem at8_arg3 (c : Dev nD) : W8 m ρ c (Proc.devRef .tc main_arg3) = m ((c : Thread nD τ).loc main_arg3) :=
  (W8_of_ne m ρ c main_arg3 (by decide)).trans (at7_arg3 m ρ c)

theorem at8_arg11 (c : Dev nD) : W8 m ρ c (Proc.devRef .tc main_arg11) = m ((c : Thread nD τ).loc main_arg11) :=
  (W8_of_ne m ρ c main_arg11 (by decide)).trans (at7_arg11 m ρ c)

theorem at8_arg2 (c : Dev nD) : W8 m ρ c (Proc.devRef .tc main_arg2) = m ((c : Thread nD τ).loc main_arg2) :=
  (W8_of_ne m ρ c main_arg2 (by decide)).trans (at7_arg2 m ρ c)

theorem at8_v98 (c : Dev nD) : W8 m ρ c (Proc.devRef .tc main_v98) = (Cert.ReferenceIdeal.Read.val_main_v108 (F := Ideal) (m ((c : Thread nD τ).loc main_arg1)) (m ((c : Thread nD τ).loc main_arg9))) :=
  (W8_arr m ρ c 2).trans <| (Cert.KernelIdeal.Mat3.final (V7 m ρ) c).trans <| by
    rw [show V7 m ρ c main_arg1 = _ from at7_arg1 m ρ c,
      show V7 m ρ c main_arg9 = _ from at7_arg9 m ρ c]
    exact Cert.Bridge.mm_v108 _ _

theorem at8_arg10 (c : Dev nD) : W8 m ρ c (Proc.devRef .tc main_arg10) = m ((c : Thread nD τ).loc main_arg10) :=
  (W8_of_ne m ρ c main_arg10 (by decide)).trans (at7_arg10 m ρ c)

theorem at8_v97 (c : Dev nD) : W8 m ρ c (Proc.devRef .tc main_v97) = (Cert.ReferenceIdeal.Read.val_main_v107 (F := Ideal) (m ((c : Thread nD τ).loc main_arg4))) :=
  (W8_of_ne m ρ c main_v97 (by decide)).trans (at7_v97 m ρ c)

theorem at8_v90 (c : Dev nD) : W8 m ρ c (Proc.devRef .tc main_v90) = (Cert.ReferenceIdeal.Read.val_main_v100 (F := Ideal) (m ((c : Thread nD τ).loc main_arg4))) :=
  (W8_of_ne m ρ c main_v90 (by decide)).trans (at7_v90 m ρ c)

theorem at8_v88 (c : Dev nD) : W8 m ρ c (Proc.devRef .tc main_v88) = (Cert.ReferenceIdeal.Read.val_main_v98 (F := Ideal) (m ((c : Thread nD τ).loc main_arg4))) :=
  (W8_of_ne m ρ c main_v88 (by decide)).trans (at7_v88 m ρ c)

end Cert.KernelIdeal.Flow

end
-- ==== Proof.H4.lean ====
/-
  Boundary 9: the buffer contents after the fifth stretch of host operations, at the buffers later segments read.

  A buffer the stretch does not write keeps what it held before the stretch. A buffer the stretch writes holds the
  stretch's operations applied, in order, to what the stretch read; written out, that term is the reference program's
  stage of the same name-free shape (the same slices, broadcasts, gathers, scatter-adds and products of the same
  arguments), so each fact names the contents by that stage of the argument arrays.
-/
import proofs.«130242_j57475252355428_1_alg».proof.Proof.R3
import proofs.«130242_j57475252355428_1_alg».proof.Proof.RefStages
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The buffers this stretch writes. -/
def written4 : List (Ref sig .tc) := [main_c_21, main_v99, main_v100, main_c_22, main_v101, main_v102, main_v103, main_v104, main_v105, main_c_23, main_v106, main_v107, main_c_24, main_v108, main_v109, main_v110, main_v111, main_v112, main_v113, main_v114, main_c_25, main_v115, main_v116, main_c_26, main_v117, main_v118, main_v119, main_v120, main_v121, main_v122, main_v123, main_cst_27, main_v124, main_v125, main_v126, main_v127, main_v128, main_v129]

/-- A buffer the stretch does not write is left as it was. -/
theorem pass4 (V : Valuation τ sig (Elt Ideal)) (b : Ref sig .tc) (h : ∀ x ∈ written4, b ≠ x) :
    StableHlo.after hostOps4 V (Proc.devRef .tc b) = V (Proc.devRef .tc b) :=
  StableHlo.after_of_forall_not_mem (b := Proc.devRef .tc b) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem at9_arg16 (c : Dev nD) : W9 m ρ c (Proc.devRef .tc main_arg16) = m ((c : Thread nD τ).loc main_arg16) := (pass4 (W8 m ρ c) main_arg16 (by decide)).trans (at8_arg16 m ρ c)

theorem at9_arg15 (c : Dev nD) : W9 m ρ c (Proc.devRef .tc main_arg15) = m ((c : Thread nD τ).loc main_arg15) := (pass4 (W8 m ρ c) main_arg15 (by decide)).trans (at8_arg15 m ρ c)

theorem at9_arg4 (c : Dev nD) : W9 m ρ c (Proc.devRef .tc main_arg4) = m ((c : Thread nD τ).loc main_arg4) := (pass4 (W8 m ρ c) main_arg4 (by decide)).trans (at8_arg4 m ρ c)

theorem at9_arg12 (c : Dev nD) : W9 m ρ c (Proc.devRef .tc main_arg12) = m ((c : Thread nD τ).loc main_arg12) := (pass4 (W8 m ρ c) main_arg12 (by decide)).trans (at8_arg12 m ρ c)

theorem at9_arg14 (c : Dev nD) : W9 m ρ c (Proc.devRef .tc main_arg14) = m ((c : Thread nD τ).loc main_arg14) := (pass4 (W8 m ρ c) main_arg14 (by decide)).trans (at8_arg14 m ρ c)

theorem at9_v86 (c : Dev nD) : W9 m ρ c (Proc.devRef .tc main_v86) = (Cert.ReferenceIdeal.Read.val_main_v145 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) := (pass4 (W8 m ρ c) main_v86 (by decide)).trans (at8_v86 m ρ c)

theorem at9_arg13 (c : Dev nD) : W9 m ρ c (Proc.devRef .tc main_arg13) = m ((c : Thread nD τ).loc main_arg13) := (pass4 (W8 m ρ c) main_arg13 (by decide)).trans (at8_arg13 m ρ c)

theorem at9_arg3 (c : Dev nD) : W9 m ρ c (Proc.devRef .tc main_arg3) = m ((c : Thread nD τ).loc main_arg3) := (pass4 (W8 m ρ c) main_arg3 (by decide)).trans (at8_arg3 m ρ c)

theorem at9_arg11 (c : Dev nD) : W9 m ρ c (Proc.devRef .tc main_arg11) = m ((c : Thread nD τ).loc main_arg11) := (pass4 (W8 m ρ c) main_arg11 (by decide)).trans (at8_arg11 m ρ c)

theorem at9_arg2 (c : Dev nD) : W9 m ρ c (Proc.devRef .tc main_arg2) = m ((c : Thread nD τ).loc main_arg2) := (pass4 (W8 m ρ c) main_arg2 (by decide)).trans (at8_arg2 m ρ c)

theorem at9_v126 (c : Dev nD) : W9 m ρ c (Proc.devRef .tc main_v126) = (Cert.ReferenceIdeal.Read.val_main_v136 (F := Ideal) (m ((c : Thread nD τ).loc main_arg1)) (m ((c : Thread nD τ).loc main_arg4)) (m ((c : Thread nD τ).loc main_arg9))) := by
  show StableHlo.after hostOps4 (W8 m ρ c) (Proc.devRef .tc main_v126) = _
  after_results_simp
  all_goals try simp only [at8_v90 m ρ c, at8_v97 m ρ c, at8_v88 m ρ c, at8_v98 m ρ c]
  all_goals rfl

theorem at9_v98 (c : Dev nD) : W9 m ρ c (Proc.devRef .tc main_v98) = (Cert.ReferenceIdeal.Read.val_main_v108 (F := Ideal) (m ((c : Thread nD τ).loc main_arg1)) (m ((c : Thread nD τ).loc main_arg9))) := (pass4 (W8 m ρ c) main_v98 (by decide)).trans (at8_v98 m ρ c)

theorem at9_v128 (c : Dev nD) : W9 m ρ c (Proc.devRef .tc main_v128) = (Cert.ReferenceIdeal.Read.val_main_v138 (F := Ideal) (m ((c : Thread nD τ).loc main_arg4))) := by
  show StableHlo.after hostOps4 (W8 m ρ c) (Proc.devRef .tc main_v128) = _
  after_results_simp
  all_goals try simp only [at8_v97 m ρ c]
  all_goals rfl

theorem at9_v129 (c : Dev nD) : W9 m ρ c (Proc.devRef .tc main_v129) = (shapeCast S1x64 (m ((c : Thread nD τ).loc main_arg10)) shapeCasts_S64_S1x64 : (⟨S1x64, .f32⟩ : BufTy).Contents (Elt Ideal)) := by
  show StableHlo.after hostOps4 (W8 m ρ c) (Proc.devRef .tc main_v129) = _
  after_results_simp
  all_goals try simp only [at8_arg10 m ρ c]
  all_goals rfl

end Cert.KernelIdeal.Flow

end
-- ==== Proof.Comb4.lean ====
/-
  The one-edge-type epilogue at 64 columns (region 4 of the kernel program): after its 25 grid points the output
  array is `GraphSpec.comb1` of the four input arrays, entry by entry
      out[r, c] = max (a[r, c] + d[r, 0] · x[r, c] + b[0, c], 0).

  The region walks the 100000 rows in 25 blocks of 4000 rows, the feature axis whole. At grid point t the body reads
  rows 4000·t … 4000·t + 3999 of a, x and the column d, and the whole bias row b, and writes the same rows of the output.
  So three things are shown:
    * the body's arithmetic at one entry (p, q) of a block is max (a + d·x + b, 0) of the block entries
      (`pay_apply`): the shape casts are identities, the column d is broadcast along the row, the row b down the rows;
    * entry (p, q) of block t of every row-blocked window is entry (4000·t + p, q) of its array, and the bias block is
      the bias row itself; hence what point t writes back is block t of the whole-array function (`flushed_eq`);
    * the 25 blocks tile the array: row r lies in block r / 4000 (`cover`).
  Together: the array after the last point is that function (`final`).
-/
import proofs.«130242_j57475252355428_1_alg».proof.Proof.Gen.KernelIdeal.Frame
import proofs.«130242_j57475252355428_1_alg».proof.Proof.GraphSpec
import proofs.«130242_j57475252355428_1_alg».proof.Proof.LibBroadcastRowCol
import Idealize.ShloMosaic.Lib.Pipeline.Value
import Idealize.ShloMosaic.Lib.ValueLayout

set_option maxRecDepth 16384

noncomputable section

namespace Cert.KernelIdeal.Comb4

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem hz : (![0, 0] : Fin 2 → Nat) = fun _ => 0 := funext fun a => by fin_cases a <;> rfl

/-- THE BODY AT ONE ENTRY: max (a + d·x + b, 0), the column `d` read at the entry's row, the bias row `b` at its column. -/
theorem pay_apply (x0 : Vec Ideal S4000x64 .f32) (x2 : Vec Ideal S4000x1 .f32) (x1 : Vec Ideal S4000x64 .f32)
    (x3 : Vec Ideal S1x64 .f32) (p : Fin 4000) (q : Fin 64) :
    Gen.k4_pay1 x0 x2 x1 x3 (ix2 p q)
      = max (x0 (ix2 p q) + x2 (ix2 p (0 : Fin 1)) * x1 (ix2 p q) + x3 (ix2 (0 : Fin 1) q)) (Ideal.ofBits .f32 0x00000000#32) := by
  unfold Gen.k4_pay1
  simp only [shapeCast_self]
  rw [maximumf_apply, addf_apply, addf_apply, mulf_apply, broadcast_apply, broadcastTo_a1_ab_apply, broadcastTo_1b_ab_apply]
  rfl

/-- The body at entry (p, q) of a block is the whole-array function at entry (r, q), as soon as the four blocks hold
    there what the four arrays hold at row `r` (the bias at its only row). -/
theorem point_eq (x0 : Vec Ideal S4000x64 .f32) (x2 : Vec Ideal S4000x1 .f32) (x1 : Vec Ideal S4000x64 .f32)
    (x3 : Vec Ideal S1x64 .f32) (a x : GraphSpec.Arr2 100000 64) (d : GraphSpec.Arr2 100000 1) (b : GraphSpec.Arr2 1 64)
    (p : Fin 4000) (q : Fin 64) (r : Fin 100000)
    (h0 : x0 (ix2 p q) = a (ix2 r q)) (h1 : x1 (ix2 p q) = x (ix2 r q))
    (h2 : x2 (ix2 p (0 : Fin 1)) = d (ix2 r (0 : Fin 1))) (h3 : x3 (ix2 (0 : Fin 1) q) = b (ix2 (0 : Fin 1) q)) :
    Gen.k4_pay1 x0 x2 x1 x3 (ix2 p q) = GraphSpec.comb1 100000 64 a x d b (ix2 r q) := by
  rw [pay_apply, h0, h1, h2, h3]
  rfl

/-- The printed index maps, decided over the 25 grid points: every row-blocked window is at block (t, 0), the bias row at
    block (0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- WHAT POINT `t` WRITES BACK is block `t` of the whole-array function of the arrays as the region finds them. -/
theorem flushed_eq (c : Dev nD) (t : Fin cfg4.N) :
    (Gen.dat4 (F := Ideal) V c).flushed 4 t
      = ((cfg4.win 4).blk t).view.read (Elt Ideal)
          (GraphSpec.comb1 100000 64 (V c main_v126) (V c main_v98) (V c main_v128) (V c main_v129)) := by
  show (cfg4.win 4).cut (grid4.coords t) ((Gen.dat4 V c).after 4 t) = _
  rw [Gen.after4_4]
  unfold Gen.out4_4
  rw [View.canon_unit_zero hz]
  simp only [View.ld_unit_zero (S := S4000x64) hz, View.ld_unit_zero (S := S4000x1) hz, View.ld_unit_zero (S := S1x64) hz]
  obtain ⟨e00, e01, e10, e11, e20, e21, e30, e31, eo0, eo1⟩ := idx_facts t
  have hN : cfg4.N = 25 := Gen.N_4
  have ht : t.val < 25 := lt_of_lt_of_eq t.isLt hN
  funext j
  have hj0 : (j 0).val < 4000 := (j 0).isLt
  have hj1 : (j 1).val < 64 := (j 1).isLt
  have e1 : (cfg4.win 4).xinj (grid4.coords t) j = ix2 (⟨(j 0).val, hj0⟩ : Fin 4000) (⟨(j 1).val, hj1⟩ : Fin 64) :=
    funext fun a => by match a with | ⟨0, _⟩ => rfl | ⟨1, _⟩ => rfl
  have e2 : ((cfg4.win 4).blk t).view.emb j
      = ix2 (⟨t.val * 4000 + (j 0).val, by omega⟩ : Fin 100000) (⟨(j 1).val, hj1⟩ : Fin 64) :=
    funext fun a => Fin.ext (by
      match a with
      | ⟨0, _⟩ => show win4_4.index t (0 : Fin 2) * 4000 + 1 * (j 0).val = t.val * 4000 + (j 0).val; omega
      | ⟨1, _⟩ => show win4_4.index t (1 : Fin 2) * 64 + 1 * (j 1).val = (j 1).val; omega)
  show Gen.k4_pay1 (Gen.iblk4 V c 0 t) (Gen.iblk4 V c 2 t) (Gen.iblk4 V c 1 t) (Gen.iblk4 V c 3 t)
      ((cfg4.win 4).xinj (grid4.coords t) j)
    = GraphSpec.comb1 100000 64 (V c main_v126) (V c main_v98) (V c main_v128) (V c main_v129) (((cfg4.win 4).blk t).view.emb j)
  rw [e1, e2]
  refine point_eq _ _ _ _ _ _ _ _ _ _ _ ?_ ?_ ?_ ?_
  · show V c main_v126 (((cfg4.win 0).blk t).view.emb (ix2 (⟨(j 0).val, hj0⟩ : Fin 4000) (⟨(j 1).val, hj1⟩ : Fin 64))) = V c main_v126 _
    refine congrArg (V c main_v126) (funext fun a => Fin.ext ?_)
    match a with
    | ⟨0, _⟩ => show win4_0.index t (0 : Fin 2) * 4000 + 1 * (j 0).val = t.val * 4000 + (j 0).val; omega
    | ⟨1, _⟩ => show win4_0.index t (1 : Fin 2) * 64 + 1 * (j 1).val = (j 1).val; omega
  · show V c main_v98 (((cfg4.win 1).blk t).view.emb (ix2 (⟨(j 0).val, hj0⟩ : Fin 4000) (⟨(j 1).val, hj1⟩ : Fin 64))) = V c main_v98 _
    refine congrArg (V c main_v98) (funext fun a => Fin.ext ?_)
    match a with
    | ⟨0, _⟩ => show win4_1.index t (0 : Fin 2) * 4000 + 1 * (j 0).val = t.val * 4000 + (j 0).val; omega
    | ⟨1, _⟩ => show win4_1.index t (1 : Fin 2) * 64 + 1 * (j 1).val = (j 1).val; omega
  · show V c main_v128 (((cfg4.win 2).blk t).view.emb (ix2 (⟨(j 0).val, hj0⟩ : Fin 4000) (0 : Fin 1))) = V c main_v128 _
    refine congrArg (V c main_v128) (funext fun a => Fin.ext ?_)
    match a with
    | ⟨0, _⟩ => show win4_2.index t (0 : Fin 2) * 4000 + 1 * (j 0).val = t.val * 4000 + (j 0).val; omega
    | ⟨1, _⟩ => show win4_2.index t (1 : Fin 2) * 1 + 1 * 0 = 0; omega
  · show V c main_v129 (((cfg4.win 3).blk t).view.emb (ix2 (0 : Fin 1) (⟨(j 1).val, hj1⟩ : Fin 64))) = V c main_v129 _
    refine congrArg (V c main_v129) (funext fun a => Fin.ext ?_)
    match a with
    | ⟨0, _⟩ => show win4_3.index t (0 : Fin 2) * 1 + 1 * 0 = 0; omega
    | ⟨1, _⟩ => show win4_3.index t (1 : Fin 2) * 64 + 1 * (j 1).val = (j 1).val; omega

/-- An index of the array is in point `t`'s block iff each coordinate is in the block's range on its axis. -/
theorem mem_blk (t : Fin cfg4.N) (i : S100000x64.Idx) :
    i ∈ ((cfg4.win 4).blk t).view.set
      ↔ ∀ a : Fin 2, win4_4.index t a * S4000x64.size a ≤ (i a).val
          ∧ (i a).val < win4_4.index t a * S4000x64.size a + S4000x64.size a := by
  show i ∈ ((View.whole main_v130).slice (win4_4.rect t)).set ↔ _
  rw [View.set_slice_whole, Rect.mem_set_unit]
  exact Iff.rfl

/-- THE BLOCKS TILE THE ARRAY: row `r` lies in the block of point `r / 4000`. -/
theorem cover (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hlt : (i 0).val / 4000 < cfg4.N := by rw [show cfg4.N = 25 from Gen.N_4]; omega
  obtain ⟨t, ht⟩ : ∃ t : Fin cfg4.N, t.val = (i 0).val / 4000 := ⟨⟨_, hlt⟩, rfl⟩
  obtain ⟨-, -, -, -, -, -, -, -, eo0, eo1⟩ := idx_facts t
  refine ⟨t, Gen.flush4_4 t, ?_⟩
  rw [mem_blk]
  intro a
  match a with
  | ⟨0, _⟩ =>
    show win4_4.index t (0 : Fin 2) * 4000 ≤ (i 0).val ∧ (i 0).val < win4_4.index t (0 : Fin 2) * 4000 + 4000
    omega
  | ⟨1, _⟩ =>
    show win4_4.index t (1 : Fin 2) * 64 ≤ (i 1).val ∧ (i 1).val < win4_4.index t (1 : Fin 2) * 64 + 64
    omega

/-- THE ARRAY after the region: the whole-array function of the four input arrays as the region finds them. -/
theorem final (c : Dev nD) :
    (Gen.dat4 (F := Ideal) V c).arrAt 4 cfg4.N
      = GraphSpec.comb1 100000 64 (V c main_v126) (V c main_v98) (V c main_v128) (V c main_v129) :=
  (Gen.dat4 V c).arrAt_eq_of_cover 4 _ (fun t _ => flushed_eq V c t) cover

end Cert.KernelIdeal.Comb4

end
-- ==== Proof.R4.lean ====
/-
  Boundary 10: the buffer contents after the fifth tiled region, at the buffers later segments read.

  The region replaces its output array by what its grid points wrote back — the fused epilogue (self-loop term, bias, sum over edge types, max with 0) of its input arrays as the region found them — and
  leaves every other buffer as it was. The inputs were named at the previous boundary by stages of the argument arrays;
  the product form of those stages is the reference's stage for this buffer.
-/
import proofs.«130242_j57475252355428_1_alg».proof.Proof.H4
import proofs.«130242_j57475252355428_1_alg».proof.Proof.Comb4
import proofs.«130242_j57475252355428_1_alg».proof.Proof.BridgeComb
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem at10_arg16 (c : Dev nD) : W10 m ρ c (Proc.devRef .tc main_arg16) = m ((c : Thread nD τ).loc main_arg16) :=
  (W10_of_ne m ρ c main_arg16 (by decide)).trans (at9_arg16 m ρ c)

theorem at10_v130 (c : Dev nD) : W10 m ρ c (Proc.devRef .tc main_v130) = (Cert.ReferenceIdeal.Read.val_main_v146 (F := Ideal) (m ((c : Thread nD τ).loc main_arg1)) (m ((c : Thread nD τ).loc main_arg4)) (m ((c : Thread nD τ).loc main_arg9)) (m ((c : Thread nD τ).loc main_arg10))) :=
  (W10_arr m ρ c 4).trans <| (Cert.KernelIdeal.Comb4.final (V9 m ρ) c).trans <| by
    rw [show V9 m ρ c main_v126 = _ from at9_v126 m ρ c,
      show V9 m ρ c main_v98 = _ from at9_v98 m ρ c,
      show V9 m ρ c main_v128 = _ from at9_v128 m ρ c,
      show V9 m ρ c main_v129 = _ from at9_v129 m ρ c]
    exact Cert.Bridge.comb_v146 _ _ _ _

theorem at10_arg15 (c : Dev nD) : W10 m ρ c (Proc.devRef .tc main_arg15) = m ((c : Thread nD τ).loc main_arg15) :=
  (W10_of_ne m ρ c main_arg15 (by decide)).trans (at9_arg15 m ρ c)

theorem at10_arg4 (c : Dev nD) : W10 m ρ c (Proc.devRef .tc main_arg4) = m ((c : Thread nD τ).loc main_arg4) :=
  (W10_of_ne m ρ c main_arg4 (by decide)).trans (at9_arg4 m ρ c)

theorem at10_arg12 (c : Dev nD) : W10 m ρ c (Proc.devRef .tc main_arg12) = m ((c : Thread nD τ).loc main_arg12) :=
  (W10_of_ne m ρ c main_arg12 (by decide)).trans (at9_arg12 m ρ c)

theorem at10_arg14 (c : Dev nD) : W10 m ρ c (Proc.devRef .tc main_arg14) = m ((c : Thread nD τ).loc main_arg14) :=
  (W10_of_ne m ρ c main_arg14 (by decide)).trans (at9_arg14 m ρ c)

theorem at10_v86 (c : Dev nD) : W10 m ρ c (Proc.devRef .tc main_v86) = (Cert.ReferenceIdeal.Read.val_main_v145 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) :=
  (W10_of_ne m ρ c main_v86 (by decide)).trans (at9_v86 m ρ c)

theorem at10_arg13 (c : Dev nD) : W10 m ρ c (Proc.devRef .tc main_arg13) = m ((c : Thread nD τ).loc main_arg13) :=
  (W10_of_ne m ρ c main_arg13 (by decide)).trans (at9_arg13 m ρ c)

theorem at10_arg3 (c : Dev nD) : W10 m ρ c (Proc.devRef .tc main_arg3) = m ((c : Thread nD τ).loc main_arg3) :=
  (W10_of_ne m ρ c main_arg3 (by decide)).trans (at9_arg3 m ρ c)

theorem at10_arg11 (c : Dev nD) : W10 m ρ c (Proc.devRef .tc main_arg11) = m ((c : Thread nD τ).loc main_arg11) :=
  (W10_of_ne m ρ c main_arg11 (by decide)).trans (at9_arg11 m ρ c)

theorem at10_arg2 (c : Dev nD) : W10 m ρ c (Proc.devRef .tc main_arg2) = m ((c : Thread nD τ).loc main_arg2) :=
  (W10_of_ne m ρ c main_arg2 (by decide)).trans (at9_arg2 m ρ c)

end Cert.KernelIdeal.Flow

end
-- ==== Proof.H5.lean ====
/-
  Boundary 11: the buffer contents after the sixth stretch of host operations, at the buffers later segments read.

  A buffer the stretch does not write keeps what it held before the stretch. A buffer the stretch writes holds the
  stretch's operations applied, in order, to what the stretch read; written out, that term is the reference program's
  stage of the same name-free shape (the same slices, broadcasts, gathers, scatter-adds and products of the same
  arguments), so each fact names the contents by that stage of the argument arrays.
-/
import proofs.«130242_j57475252355428_1_alg».proof.Proof.R4
import proofs.«130242_j57475252355428_1_alg».proof.Proof.RefStages
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The buffers this stretch writes. -/
def written5 : List (Ref sig .tc) := [main_v131, main_v132, main_v133, main_v134, main_cst_28, main_v135, main_cst_29, main_v136, main_v137, main_v138, main_cst_30, main_v139, main_v140, main_v141]

/-- A buffer the stretch does not write is left as it was. -/
theorem pass5 (V : Valuation τ sig (Elt Ideal)) (b : Ref sig .tc) (h : ∀ x ∈ written5, b ≠ x) :
    StableHlo.after hostOps5 V (Proc.devRef .tc b) = V (Proc.devRef .tc b) :=
  StableHlo.after_of_forall_not_mem (b := Proc.devRef .tc b) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem at11_arg16 (c : Dev nD) : W11 m ρ c (Proc.devRef .tc main_arg16) = m ((c : Thread nD τ).loc main_arg16) := (pass5 (W10 m ρ c) main_arg16 (by decide)).trans (at10_arg16 m ρ c)

theorem at11_v130 (c : Dev nD) : W11 m ρ c (Proc.devRef .tc main_v130) = (Cert.ReferenceIdeal.Read.val_main_v146 (F := Ideal) (m ((c : Thread nD τ).loc main_arg1)) (m ((c : Thread nD τ).loc main_arg4)) (m ((c : Thread nD τ).loc main_arg9)) (m ((c : Thread nD τ).loc main_arg10))) := (pass5 (W10 m ρ c) main_v130 (by decide)).trans (at10_v130 m ρ c)

theorem at11_arg15 (c : Dev nD) : W11 m ρ c (Proc.devRef .tc main_arg15) = m ((c : Thread nD τ).loc main_arg15) := (pass5 (W10 m ρ c) main_arg15 (by decide)).trans (at10_arg15 m ρ c)

theorem at11_arg4 (c : Dev nD) : W11 m ρ c (Proc.devRef .tc main_arg4) = m ((c : Thread nD τ).loc main_arg4) := (pass5 (W10 m ρ c) main_arg4 (by decide)).trans (at10_arg4 m ρ c)

theorem at11_arg12 (c : Dev nD) : W11 m ρ c (Proc.devRef .tc main_arg12) = m ((c : Thread nD τ).loc main_arg12) := (pass5 (W10 m ρ c) main_arg12 (by decide)).trans (at10_arg12 m ρ c)

theorem at11_arg14 (c : Dev nD) : W11 m ρ c (Proc.devRef .tc main_arg14) = m ((c : Thread nD τ).loc main_arg14) := (pass5 (W10 m ρ c) main_arg14 (by decide)).trans (at10_arg14 m ρ c)

theorem at11_v86 (c : Dev nD) : W11 m ρ c (Proc.devRef .tc main_v86) = (Cert.ReferenceIdeal.Read.val_main_v145 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) := (pass5 (W10 m ρ c) main_v86 (by decide)).trans (at10_v86 m ρ c)

theorem at11_arg13 (c : Dev nD) : W11 m ρ c (Proc.devRef .tc main_arg13) = m ((c : Thread nD τ).loc main_arg13) := (pass5 (W10 m ρ c) main_arg13 (by decide)).trans (at10_arg13 m ρ c)

theorem at11_arg3 (c : Dev nD) : W11 m ρ c (Proc.devRef .tc main_arg3) = m ((c : Thread nD τ).loc main_arg3) := (pass5 (W10 m ρ c) main_arg3 (by decide)).trans (at10_arg3 m ρ c)

theorem at11_v141 (c : Dev nD) : W11 m ρ c (Proc.devRef .tc main_v141) = (Cert.ReferenceIdeal.Read.val_main_v157 (F := Ideal) (m ((c : Thread nD τ).loc main_arg2))) := by
  show StableHlo.after hostOps5 (W10 m ρ c) (Proc.devRef .tc main_v141) = _
  after_results_simp
  all_goals try simp only [at10_arg2 m ρ c]
  all_goals rfl

theorem at11_v134 (c : Dev nD) : W11 m ρ c (Proc.devRef .tc main_v134) = (Cert.ReferenceIdeal.Read.val_main_v150 (F := Ideal) (m ((c : Thread nD τ).loc main_arg2))) := by
  show StableHlo.after hostOps5 (W10 m ρ c) (Proc.devRef .tc main_v134) = _
  after_results_simp
  all_goals try simp only [at10_arg2 m ρ c]
  all_goals rfl

theorem at11_v132 (c : Dev nD) : W11 m ρ c (Proc.devRef .tc main_v132) = (Cert.ReferenceIdeal.Read.val_main_v148 (F := Ideal) (m ((c : Thread nD τ).loc main_arg2))) := by
  show StableHlo.after hostOps5 (W10 m ρ c) (Proc.devRef .tc main_v132) = _
  after_results_simp
  all_goals try simp only [at10_arg2 m ρ c]
  all_goals rfl

theorem at11_arg11 (c : Dev nD) : W11 m ρ c (Proc.devRef .tc main_arg11) = m ((c : Thread nD τ).loc main_arg11) := (pass5 (W10 m ρ c) main_arg11 (by decide)).trans (at10_arg11 m ρ c)

end Cert.KernelIdeal.Flow

end
-- ==== Proof.Mat5.lean ====
/-
  Region 5 of the layer: a matrix product computed in row blocks.

  The region's grid has 50 points; point t reads rows 4000·t … 4000·t + 3999 of the left operand (a 200000×64 array), the
  whole right operand (64×128), and writes rows 4000·t … 4000·t + 3999 of the result. Entry (p, q) of the block it writes is
  ∑ₗ x[4000·t + p, l] · w[l, q]: narrowing the operands to bf16 is exact on extended reals and the accumulator starts
  at zero. The 50 row blocks tile the result, so after the last point the result array is the matrix product of the two
  input arrays, entry by entry.
-/
import proofs.«130242_j57475252355428_1_alg».proof.Proof.Gen.KernelIdeal.Frame
import proofs.«130242_j57475252355428_1_alg».proof.Proof.GraphSpec
import proofs.«130242_j57475252355428_1_alg».proof.Proof.LibMatmulBlock
import Idealize.ShloMosaic.Lib.Pipeline.Value

set_option maxRecDepth 16384

noncomputable section

namespace Cert.KernelIdeal.Mat5

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point t the left operand's and the result's block is row block t (column block 0);
    the right operand's block is the whole array. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The body's result at entry (p, q) of its block: ∑ₗ x[p, l] · w[l, q]. Narrowing to bf16 is the identity on
    extended reals, and the accumulator is the zero array. -/
theorem pay_apply (x0 : Vec Ideal S4000x64 .f32) (x1 : Vec Ideal S64x128 .f32) (p : Fin 4000) (q : Fin 128) :
    Gen.k5_pay1 (F := Ideal) x0 x1 (ix2 p q) = ∑ l : Fin 64, x0 (ix2 p l) * x1 (ix2 l q) :=
  by
  refine (Cert.LibMatmulBlock.matmul_zero_apply (m := 4000) (k := 64) (n := 128) Facts₀.dot_S4000x64_S64x128_S4000x128_1_0_0_1_n_n_wf none
      (truncf .bf16 (shapeCast S4000x64 x0 Facts₀.shapeCasts_S4000x64_S4000x64) Facts₀.bitsLt_bf16_f32)
      (truncf .bf16 x1 Facts₀.bitsLt_bf16_f32) p q).trans ?_
  refine Finset.sum_congr rfl fun l _ => ?_
  rw [truncf_apply, truncf_apply, shapeCast_self]

/-- The left operand's block at point t is rows 4000·t … of its array. -/
theorem read_lhs (c : Dev nD) (t : Fin cfg5.N) (y : S4000x64.Idx) (i : S200000x64.Idx)
    (h0 : (i 0).val = t.val * 4000 + (y 0).val) (h1 : (i 1).val = (y 1).val) :
    (Gen.iblk5 V c 0 t : Vec Ideal S4000x64 .f32) y = (V c main_v86 : S200000x64.Idx → EReal) i := by
  obtain ⟨e0, e1, -⟩ := idx_facts t
  unfold Gen.iblk5
  rw [View.read_apply]
  show V c main_v86 (((cfg5.win 0).blk t).view.emb y) = V c main_v86 i
  refine congrArg _ ?_
  funext a
  apply Fin.ext
  match a with
  | ⟨0, _⟩ => show win5_0.index t (0 : Fin 2) * 4000 + 1 * (y 0).val = (i 0).val; rw [e0, h0]; omega
  | ⟨1, _⟩ => show win5_0.index t (1 : Fin 2) * 64 + 1 * (y 1).val = (i 1).val; rw [e1, h1]; omega

/-- The right operand's block at every point is its whole array. -/
theorem read_rhs (c : Dev nD) (t : Fin cfg5.N) (y : S64x128.Idx) (i : S64x128.Idx)
    (h0 : (i 0).val = (y 0).val) (h1 : (i 1).val = (y 1).val) :
    (Gen.iblk5 V c 1 t : Vec Ideal S64x128 .f32) y = (V c main_arg11 : S64x128.Idx → EReal) i := by
  obtain ⟨-, -, e2, e3, -⟩ := idx_facts t
  unfold Gen.iblk5
  rw [View.read_apply]
  show V c main_arg11 (((cfg5.win 1).blk t).view.emb y) = V c main_arg11 i
  refine congrArg _ ?_
  funext a
  apply Fin.ext
  match a with
  | ⟨0, _⟩ => show win5_1.index t (0 : Fin 2) * 64 + 1 * (y 0).val = (i 0).val; rw [e2, h0]; omega
  | ⟨1, _⟩ => show win5_1.index t (1 : Fin 2) * 128 + 1 * (y 1).val = (i 1).val; rw [e3, h1]; omega

/-- What point t writes back is block t of the matrix product of the two input arrays. -/
theorem flushed_eq (c : Dev nD) (t : Fin cfg5.N) :
    (Gen.dat5 (F := Ideal) V c).flushed 2 t
      = ((cfg5.win 2).blk t).view.read (Elt Ideal) (GraphSpec.mm 200000 64 128 (V c main_v86) (V c main_arg11)) := by
  show (cfg5.win 2).cut (grid5.coords t) ((Gen.dat5 V c).after 2 t) = _
  rw [Gen.after5_2]
  unfold Gen.out5_2
  rw [View.canon_unit_zero hz]
  simp only [View.ld_unit_zero (S := S4000x64) hz, View.ld_unit_zero (S := S64x128) hz]
  obtain ⟨-, -, -, -, e4, e5⟩ := idx_facts t
  funext j
  show Gen.k5_pay1 (F := Ideal) (Gen.iblk5 V c 0 t) (Gen.iblk5 V c 1 t) j
    = GraphSpec.mm 200000 64 128 (V c main_v86) (V c main_arg11) (((cfg5.win 2).blk t).view.emb j)
  obtain ⟨p, q, rfl⟩ : ∃ (p : Fin 4000) (q : Fin 128), j = ix2 p q := ⟨j 0, j 1, eq_ix2 j⟩
  refine (pay_apply _ _ p q).trans ?_
  unfold GraphSpec.mm
  refine Finset.sum_congr rfl fun l _ => ?_
  have hr0 : ((((cfg5.win 2).blk t).view.emb (ix2 p q)) 0).val = t.val * 4000 + p.val := by
    show win5_2.index t (0 : Fin 2) * 4000 + 1 * p.val = _; rw [e4]; omega
  have hr1 : ((((cfg5.win 2).blk t).view.emb (ix2 p q)) 1).val = q.val := by
    show win5_2.index t (1 : Fin 2) * 128 + 1 * q.val = _; rw [e5]; omega
  have hl := read_lhs V c t (ix2 p l) (ix2 ((((cfg5.win 2).blk t).view.emb (ix2 p q)) 0) l) hr0 rfl
  have hr := read_rhs V c t (ix2 l q) (ix2 l ((((cfg5.win 2).blk t).view.emb (ix2 p q)) 1)) rfl hr1
  rw [hl, hr]

/-- An index of the result array is in point t's block iff each coordinate is in the block's range on its axis. -/
theorem mem_blk (t : Fin cfg5.N) (i : S200000x128.Idx) :
    i ∈ ((cfg5.win 2).blk t).view.set ↔ ∀ a : Fin 2, win5_2.index t a * S4000x128.size a ≤ (i a).val ∧ (i a).val < win5_2.index t a * S4000x128.size a + S4000x128.size a := by
  show i ∈ ((View.whole main_v142).slice (win5_2.rect t)).set ↔ _
  rw [View.set_slice_whole, Rect.mem_set_unit]
  exact Iff.rfl

/-- The row blocks tile the result: row r lies in the block of point r / 4000. -/
theorem cover (i : S200000x128.Idx) : ∃ t : Fin cfg5.N, (cfg5.win 2).flush t = true ∧ i ∈ ((cfg5.win 2).blk t).view.set := by
  have hi0 : (i 0).val < 200000 := (i 0).isLt
  have hi1 : (i 1).val < 128 := (i 1).isLt
  have hN : cfg5.N = 50 := Gen.N_5
  refine ⟨⟨(i 0).val / 4000, by rw [hN]; omega⟩, Gen.flush5_2 _, ?_⟩
  rw [mem_blk]
  obtain ⟨-, -, -, -, e4, e5⟩ := idx_facts ⟨(i 0).val / 4000, by rw [hN]; omega⟩
  intro a
  match a with
  | ⟨0, _⟩ =>
    show win5_2.index _ (0 : Fin 2) * 4000 ≤ (i 0).val ∧ (i 0).val < win5_2.index _ (0 : Fin 2) * 4000 + 4000
    rw [e4]; show (i 0).val / 4000 * 4000 ≤ (i 0).val ∧ (i 0).val < (i 0).val / 4000 * 4000 + 4000; omega
  | ⟨1, _⟩ =>
    show win5_2.index _ (1 : Fin 2) * 128 ≤ (i 1).val ∧ (i 1).val < win5_2.index _ (1 : Fin 2) * 128 + 128
    rw [e5]; omega

/-- After all 50 points the result array is the matrix product of the two input arrays. -/
theorem final (c : Dev nD) :
    (Gen.dat5 (F := Ideal) V c).arrAt 2 cfg5.N = GraphSpec.mm 200000 64 128 (V c main_v86) (V c main_arg11) :=
  (Gen.dat5 (F := Ideal) V c).arrAt_eq_of_cover 2 _ (fun t _ => flushed_eq V c t) cover

end Cert.KernelIdeal.Mat5

end
-- ==== Proof.R5.lean ====
/-
  Boundary 12: the buffer contents after the sixth tiled region, at the buffers later segments read.

  The region replaces its output array by what its grid points wrote back — the matrix product of its two input arrays as the region found them — and
  leaves every other buffer as it was. The inputs were named at the previous boundary by stages of the argument arrays;
  the product of those stages is the reference's stage for this buffer.
-/
import proofs.«130242_j57475252355428_1_alg».proof.Proof.H5
import proofs.«130242_j57475252355428_1_alg».proof.Proof.Mat5
import proofs.«130242_j57475252355428_1_alg».proof.Proof.BridgeMM
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem at12_arg16 (c : Dev nD) : W12 m ρ c (Proc.devRef .tc main_arg16) = m ((c : Thread nD τ).loc main_arg16) :=
  (W12_of_ne m ρ c main_arg16 (by decide)).trans (at11_arg16 m ρ c)

theorem at12_v130 (c : Dev nD) : W12 m ρ c (Proc.devRef .tc main_v130) = (Cert.ReferenceIdeal.Read.val_main_v146 (F := Ideal) (m ((c : Thread nD τ).loc main_arg1)) (m ((c : Thread nD τ).loc main_arg4)) (m ((c : Thread nD τ).loc main_arg9)) (m ((c : Thread nD τ).loc main_arg10))) :=
  (W12_of_ne m ρ c main_v130 (by decide)).trans (at11_v130 m ρ c)

theorem at12_arg15 (c : Dev nD) : W12 m ρ c (Proc.devRef .tc main_arg15) = m ((c : Thread nD τ).loc main_arg15) :=
  (W12_of_ne m ρ c main_arg15 (by decide)).trans (at11_arg15 m ρ c)

theorem at12_arg4 (c : Dev nD) : W12 m ρ c (Proc.devRef .tc main_arg4) = m ((c : Thread nD τ).loc main_arg4) :=
  (W12_of_ne m ρ c main_arg4 (by decide)).trans (at11_arg4 m ρ c)

theorem at12_v142 (c : Dev nD) : W12 m ρ c (Proc.devRef .tc main_v142) = (Cert.ReferenceIdeal.Read.val_main_v158 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11))) :=
  (W12_arr m ρ c 2).trans <| (Cert.KernelIdeal.Mat5.final (V11 m ρ) c).trans <| by
    rw [show V11 m ρ c main_v86 = _ from at11_v86 m ρ c,
      show V11 m ρ c main_arg11 = _ from at11_arg11 m ρ c]
    exact Cert.Bridge.mm_v158 _ _ _ _ _ _ _ _

theorem at12_arg12 (c : Dev nD) : W12 m ρ c (Proc.devRef .tc main_arg12) = m ((c : Thread nD τ).loc main_arg12) :=
  (W12_of_ne m ρ c main_arg12 (by decide)).trans (at11_arg12 m ρ c)

theorem at12_arg14 (c : Dev nD) : W12 m ρ c (Proc.devRef .tc main_arg14) = m ((c : Thread nD τ).loc main_arg14) :=
  (W12_of_ne m ρ c main_arg14 (by decide)).trans (at11_arg14 m ρ c)

theorem at12_v86 (c : Dev nD) : W12 m ρ c (Proc.devRef .tc main_v86) = (Cert.ReferenceIdeal.Read.val_main_v145 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) :=
  (W12_arr m ρ c 0).trans (((dat5 (V11 m ρ) c).arrAt_in 0 rfl _).trans ((A_eq5 (V11 m ρ) c 0).trans (at11_v86 m ρ c)))

theorem at12_arg13 (c : Dev nD) : W12 m ρ c (Proc.devRef .tc main_arg13) = m ((c : Thread nD τ).loc main_arg13) :=
  (W12_of_ne m ρ c main_arg13 (by decide)).trans (at11_arg13 m ρ c)

theorem at12_arg3 (c : Dev nD) : W12 m ρ c (Proc.devRef .tc main_arg3) = m ((c : Thread nD τ).loc main_arg3) :=
  (W12_of_ne m ρ c main_arg3 (by decide)).trans (at11_arg3 m ρ c)

theorem at12_v141 (c : Dev nD) : W12 m ρ c (Proc.devRef .tc main_v141) = (Cert.ReferenceIdeal.Read.val_main_v157 (F := Ideal) (m ((c : Thread nD τ).loc main_arg2))) :=
  (W12_of_ne m ρ c main_v141 (by decide)).trans (at11_v141 m ρ c)

theorem at12_v134 (c : Dev nD) : W12 m ρ c (Proc.devRef .tc main_v134) = (Cert.ReferenceIdeal.Read.val_main_v150 (F := Ideal) (m ((c : Thread nD τ).loc main_arg2))) :=
  (W12_of_ne m ρ c main_v134 (by decide)).trans (at11_v134 m ρ c)

theorem at12_v132 (c : Dev nD) : W12 m ρ c (Proc.devRef .tc main_v132) = (Cert.ReferenceIdeal.Read.val_main_v148 (F := Ideal) (m ((c : Thread nD τ).loc main_arg2))) :=
  (W12_of_ne m ρ c main_v132 (by decide)).trans (at11_v132 m ρ c)

end Cert.KernelIdeal.Flow

end
-- ==== Proof.H6.lean ====
/-
  Boundary 13: the buffer contents after the seventh stretch of host operations, at the buffers later segments read.

  A buffer the stretch does not write keeps what it held before the stretch. A buffer the stretch writes holds the
  stretch's operations applied, in order, to what the stretch read; written out, that term is the reference program's
  stage of the same name-free shape (the same slices, broadcasts, gathers, scatter-adds and products of the same
  arguments), so each fact names the contents by that stage of the argument arrays.
-/
import proofs.«130242_j57475252355428_1_alg».proof.Proof.R5
import proofs.«130242_j57475252355428_1_alg».proof.Proof.RefStages
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The buffers this stretch writes. -/
def written6 : List (Ref sig .tc) := [main_c_31, main_v143, main_v144, main_c_32, main_v145, main_v146, main_v147, main_v148, main_v149, main_c_33, main_v150, main_v151, main_c_34, main_v152, main_v153, main_v154, main_v155, main_v156, main_v157, main_v158, main_c_35, main_v159, main_v160, main_c_36, main_v161, main_v162, main_v163, main_v164, main_v165, main_v166, main_v167, main_cst_37, main_v168, main_v169, main_v170, main_v171, main_v172, main_v173, main_v174, main_v175, main_v176, main_cst_38, main_v177, main_cst_39, main_v178, main_v179, main_v180, main_cst_40, main_v181, main_v182, main_v183]

/-- A buffer the stretch does not write is left as it was. -/
theorem pass6 (V : Valuation τ sig (Elt Ideal)) (b : Ref sig .tc) (h : ∀ x ∈ written6, b ≠ x) :
    StableHlo.after hostOps6 V (Proc.devRef .tc b) = V (Proc.devRef .tc b) :=
  StableHlo.after_of_forall_not_mem (b := Proc.devRef .tc b) _ _ (List.forall_iff_forall_mem.mp (by
    simp only [hostOps6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem at13_arg16 (c : Dev nD) : W13 m ρ c (Proc.devRef .tc main_arg16) = m ((c : Thread nD τ).loc main_arg16) := (pass6 (W12 m ρ c) main_arg16 (by decide)).trans (at12_arg16 m ρ c)

theorem at13_v130 (c : Dev nD) : W13 m ρ c (Proc.devRef .tc main_v130) = (Cert.ReferenceIdeal.Read.val_main_v146 (F := Ideal) (m ((c : Thread nD τ).loc main_arg1)) (m ((c : Thread nD τ).loc main_arg4)) (m ((c : Thread nD τ).loc main_arg9)) (m ((c : Thread nD τ).loc main_arg10))) := (pass6 (W12 m ρ c) main_v130 (by decide)).trans (at12_v130 m ρ c)

theorem at13_arg15 (c : Dev nD) : W13 m ρ c (Proc.devRef .tc main_arg15) = m ((c : Thread nD τ).loc main_arg15) := (pass6 (W12 m ρ c) main_arg15 (by decide)).trans (at12_arg15 m ρ c)

theorem at13_arg4 (c : Dev nD) : W13 m ρ c (Proc.devRef .tc main_arg4) = m ((c : Thread nD τ).loc main_arg4) := (pass6 (W12 m ρ c) main_arg4 (by decide)).trans (at12_arg4 m ρ c)

theorem at13_v170 (c : Dev nD) : W13 m ρ c (Proc.devRef .tc main_v170) = (Cert.ReferenceIdeal.Read.val_main_v186 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11))) := by
  show StableHlo.after hostOps6 (W12 m ρ c) (Proc.devRef .tc main_v170) = _
  after_results_simp
  all_goals try simp only [at12_v134 m ρ c, at12_v141 m ρ c, at12_v132 m ρ c, at12_v142 m ρ c]
  all_goals rfl

theorem at13_v142 (c : Dev nD) : W13 m ρ c (Proc.devRef .tc main_v142) = (Cert.ReferenceIdeal.Read.val_main_v158 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11))) := (pass6 (W12 m ρ c) main_v142 (by decide)).trans (at12_v142 m ρ c)

theorem at13_v172 (c : Dev nD) : W13 m ρ c (Proc.devRef .tc main_v172) = (Cert.ReferenceIdeal.Read.val_main_v188 (F := Ideal) (m ((c : Thread nD τ).loc main_arg2))) := by
  show StableHlo.after hostOps6 (W12 m ρ c) (Proc.devRef .tc main_v172) = _
  after_results_simp
  all_goals try simp only [at12_v141 m ρ c]
  all_goals rfl

theorem at13_arg12 (c : Dev nD) : W13 m ρ c (Proc.devRef .tc main_arg12) = m ((c : Thread nD τ).loc main_arg12) := (pass6 (W12 m ρ c) main_arg12 (by decide)).trans (at12_arg12 m ρ c)

theorem at13_arg14 (c : Dev nD) : W13 m ρ c (Proc.devRef .tc main_arg14) = m ((c : Thread nD τ).loc main_arg14) := (pass6 (W12 m ρ c) main_arg14 (by decide)).trans (at12_arg14 m ρ c)

theorem at13_v183 (c : Dev nD) : W13 m ρ c (Proc.devRef .tc main_v183) = (Cert.ReferenceIdeal.Read.val_main_v205 (F := Ideal) (m ((c : Thread nD τ).loc main_arg3))) := by
  show StableHlo.after hostOps6 (W12 m ρ c) (Proc.devRef .tc main_v183) = _
  after_results_simp
  all_goals try simp only [at12_arg3 m ρ c]
  all_goals rfl

theorem at13_v176 (c : Dev nD) : W13 m ρ c (Proc.devRef .tc main_v176) = (Cert.ReferenceIdeal.Read.val_main_v198 (F := Ideal) (m ((c : Thread nD τ).loc main_arg3))) := by
  show StableHlo.after hostOps6 (W12 m ρ c) (Proc.devRef .tc main_v176) = _
  after_results_simp
  all_goals try simp only [at12_arg3 m ρ c]
  all_goals rfl

theorem at13_v174 (c : Dev nD) : W13 m ρ c (Proc.devRef .tc main_v174) = (Cert.ReferenceIdeal.Read.val_main_v196 (F := Ideal) (m ((c : Thread nD τ).loc main_arg3))) := by
  show StableHlo.after hostOps6 (W12 m ρ c) (Proc.devRef .tc main_v174) = _
  after_results_simp
  all_goals try simp only [at12_arg3 m ρ c]
  all_goals rfl

theorem at13_v86 (c : Dev nD) : W13 m ρ c (Proc.devRef .tc main_v86) = (Cert.ReferenceIdeal.Read.val_main_v145 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8))) := (pass6 (W12 m ρ c) main_v86 (by decide)).trans (at12_v86 m ρ c)

theorem at13_arg13 (c : Dev nD) : W13 m ρ c (Proc.devRef .tc main_arg13) = m ((c : Thread nD τ).loc main_arg13) := (pass6 (W12 m ρ c) main_arg13 (by decide)).trans (at12_arg13 m ρ c)

end Cert.KernelIdeal.Flow

end
-- ==== Proof.Mat6.lean ====
/-
  Region 6 of the layer: a matrix product computed in row blocks.

  The region's grid has 50 points; point t reads rows 4000·t … 4000·t + 3999 of the left operand (a 200000×64 array), the
  whole right operand (64×128), and writes rows 4000·t … 4000·t + 3999 of the result. Entry (p, q) of the block it writes is
  ∑ₗ x[4000·t + p, l] · w[l, q]: narrowing the operands to bf16 is exact on extended reals and the accumulator starts
  at zero. The 50 row blocks tile the result, so after the last point the result array is the matrix product of the two
  input arrays, entry by entry.
-/
import proofs.«130242_j57475252355428_1_alg».proof.Proof.Gen.KernelIdeal.Frame
import proofs.«130242_j57475252355428_1_alg».proof.Proof.GraphSpec
import proofs.«130242_j57475252355428_1_alg».proof.Proof.LibMatmulBlock
import Idealize.ShloMosaic.Lib.Pipeline.Value

set_option maxRecDepth 16384

noncomputable section

namespace Cert.KernelIdeal.Mat6

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point t the left operand's and the result's block is row block t (column block 0);
    the right operand's block is the whole array. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The body's result at entry (p, q) of its block: ∑ₗ x[p, l] · w[l, q]. Narrowing to bf16 is the identity on
    extended reals, and the accumulator is the zero array. -/
theorem pay_apply (x0 : Vec Ideal S4000x64 .f32) (x1 : Vec Ideal S64x128 .f32) (p : Fin 4000) (q : Fin 128) :
    Gen.k6_pay1 (F := Ideal) x0 x1 (ix2 p q) = ∑ l : Fin 64, x0 (ix2 p l) * x1 (ix2 l q) :=
  by
  refine (Cert.LibMatmulBlock.matmul_zero_apply (m := 4000) (k := 64) (n := 128) Facts₀.dot_S4000x64_S64x128_S4000x128_1_0_0_1_n_n_wf none
      (truncf .bf16 (shapeCast S4000x64 x0 Facts₀.shapeCasts_S4000x64_S4000x64) Facts₀.bitsLt_bf16_f32)
      (truncf .bf16 x1 Facts₀.bitsLt_bf16_f32) p q).trans ?_
  refine Finset.sum_congr rfl fun l _ => ?_
  rw [truncf_apply, truncf_apply, shapeCast_self]

/-- The left operand's block at point t is rows 4000·t … of its array. -/
theorem read_lhs (c : Dev nD) (t : Fin cfg6.N) (y : S4000x64.Idx) (i : S200000x64.Idx)
    (h0 : (i 0).val = t.val * 4000 + (y 0).val) (h1 : (i 1).val = (y 1).val) :
    (Gen.iblk6 V c 0 t : Vec Ideal S4000x64 .f32) y = (V c main_v86 : S200000x64.Idx → EReal) i := by
  obtain ⟨e0, e1, -⟩ := idx_facts t
  unfold Gen.iblk6
  rw [View.read_apply]
  show V c main_v86 (((cfg6.win 0).blk t).view.emb y) = V c main_v86 i
  refine congrArg _ ?_
  funext a
  apply Fin.ext
  match a with
  | ⟨0, _⟩ => show win6_0.index t (0 : Fin 2) * 4000 + 1 * (y 0).val = (i 0).val; rw [e0, h0]; omega
  | ⟨1, _⟩ => show win6_0.index t (1 : Fin 2) * 64 + 1 * (y 1).val = (i 1).val; rw [e1, h1]; omega

/-- The right operand's block at every point is its whole array. -/
theorem read_rhs (c : Dev nD) (t : Fin cfg6.N) (y : S64x128.Idx) (i : S64x128.Idx)
    (h0 : (i 0).val = (y 0).val) (h1 : (i 1).val = (y 1).val) :
    (Gen.iblk6 V c 1 t : Vec Ideal S64x128 .f32) y = (V c main_arg13 : S64x128.Idx → EReal) i := by
  obtain ⟨-, -, e2, e3, -⟩ := idx_facts t
  unfold Gen.iblk6
  rw [View.read_apply]
  show V c main_arg13 (((cfg6.win 1).blk t).view.emb y) = V c main_arg13 i
  refine congrArg _ ?_
  funext a
  apply Fin.ext
  match a with
  | ⟨0, _⟩ => show win6_1.index t (0 : Fin 2) * 64 + 1 * (y 0).val = (i 0).val; rw [e2, h0]; omega
  | ⟨1, _⟩ => show win6_1.index t (1 : Fin 2) * 128 + 1 * (y 1).val = (i 1).val; rw [e3, h1]; omega

/-- What point t writes back is block t of the matrix product of the two input arrays. -/
theorem flushed_eq (c : Dev nD) (t : Fin cfg6.N) :
    (Gen.dat6 (F := Ideal) V c).flushed 2 t
      = ((cfg6.win 2).blk t).view.read (Elt Ideal) (GraphSpec.mm 200000 64 128 (V c main_v86) (V c main_arg13)) := by
  show (cfg6.win 2).cut (grid6.coords t) ((Gen.dat6 V c).after 2 t) = _
  rw [Gen.after6_2]
  unfold Gen.out6_2
  rw [View.canon_unit_zero hz]
  simp only [View.ld_unit_zero (S := S4000x64) hz, View.ld_unit_zero (S := S64x128) hz]
  obtain ⟨-, -, -, -, e4, e5⟩ := idx_facts t
  funext j
  show Gen.k6_pay1 (F := Ideal) (Gen.iblk6 V c 0 t) (Gen.iblk6 V c 1 t) j
    = GraphSpec.mm 200000 64 128 (V c main_v86) (V c main_arg13) (((cfg6.win 2).blk t).view.emb j)
  obtain ⟨p, q, rfl⟩ : ∃ (p : Fin 4000) (q : Fin 128), j = ix2 p q := ⟨j 0, j 1, eq_ix2 j⟩
  refine (pay_apply _ _ p q).trans ?_
  unfold GraphSpec.mm
  refine Finset.sum_congr rfl fun l _ => ?_
  have hr0 : ((((cfg6.win 2).blk t).view.emb (ix2 p q)) 0).val = t.val * 4000 + p.val := by
    show win6_2.index t (0 : Fin 2) * 4000 + 1 * p.val = _; rw [e4]; omega
  have hr1 : ((((cfg6.win 2).blk t).view.emb (ix2 p q)) 1).val = q.val := by
    show win6_2.index t (1 : Fin 2) * 128 + 1 * q.val = _; rw [e5]; omega
  have hl := read_lhs V c t (ix2 p l) (ix2 ((((cfg6.win 2).blk t).view.emb (ix2 p q)) 0) l) hr0 rfl
  have hr := read_rhs V c t (ix2 l q) (ix2 l ((((cfg6.win 2).blk t).view.emb (ix2 p q)) 1)) rfl hr1
  rw [hl, hr]

/-- An index of the result array is in point t's block iff each coordinate is in the block's range on its axis. -/
theorem mem_blk (t : Fin cfg6.N) (i : S200000x128.Idx) :
    i ∈ ((cfg6.win 2).blk t).view.set ↔ ∀ a : Fin 2, win6_2.index t a * S4000x128.size a ≤ (i a).val ∧ (i a).val < win6_2.index t a * S4000x128.size a + S4000x128.size a := by
  show i ∈ ((View.whole main_v184).slice (win6_2.rect t)).set ↔ _
  rw [View.set_slice_whole, Rect.mem_set_unit]
  exact Iff.rfl

/-- The row blocks tile the result: row r lies in the block of point r / 4000. -/
theorem cover (i : S200000x128.Idx) : ∃ t : Fin cfg6.N, (cfg6.win 2).flush t = true ∧ i ∈ ((cfg6.win 2).blk t).view.set := by
  have hi0 : (i 0).val < 200000 := (i 0).isLt
  have hi1 : (i 1).val < 128 := (i 1).isLt
  have hN : cfg6.N = 50 := Gen.N_6
  refine ⟨⟨(i 0).val / 4000, by rw [hN]; omega⟩, Gen.flush6_2 _, ?_⟩
  rw [mem_blk]
  obtain ⟨-, -, -, -, e4, e5⟩ := idx_facts ⟨(i 0).val / 4000, by rw [hN]; omega⟩
  intro a
  match a with
  | ⟨0, _⟩ =>
    show win6_2.index _ (0 : Fin 2) * 4000 ≤ (i 0).val ∧ (i 0).val < win6_2.index _ (0 : Fin 2) * 4000 + 4000
    rw [e4]; show (i 0).val / 4000 * 4000 ≤ (i 0).val ∧ (i 0).val < (i 0).val / 4000 * 4000 + 4000; omega
  | ⟨1, _⟩ =>
    show win6_2.index _ (1 : Fin 2) * 128 ≤ (i 1).val ∧ (i 1).val < win6_2.index _ (1 : Fin 2) * 128 + 128
    rw [e5]; omega

/-- After all 50 points the result array is the matrix product of the two input arrays. -/
theorem final (c : Dev nD) :
    (Gen.dat6 (F := Ideal) V c).arrAt 2 cfg6.N = GraphSpec.mm 200000 64 128 (V c main_v86) (V c main_arg13) :=
  (Gen.dat6 (F := Ideal) V c).arrAt_eq_of_cover 2 _ (fun t _ => flushed_eq V c t) cover

end Cert.KernelIdeal.Mat6

end
-- ==== Proof.R6.lean ====
/-
  Boundary 14: the buffer contents after the seventh tiled region, at the buffers later segments read.

  The region replaces its output array by what its grid points wrote back — the matrix product of its two input arrays as the region found them — and
  leaves every other buffer as it was. The inputs were named at the previous boundary by stages of the argument arrays;
  the product of those stages is the reference's stage for this buffer.
-/
import proofs.«130242_j57475252355428_1_alg».proof.Proof.H6
import proofs.«130242_j57475252355428_1_alg».proof.Proof.Mat6
import proofs.«130242_j57475252355428_1_alg».proof.Proof.BridgeMM
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem at14_arg16 (c : Dev nD) : W14 m ρ c (Proc.devRef .tc main_arg16) = m ((c : Thread nD τ).loc main_arg16) :=
  (W14_of_ne m ρ c main_arg16 (by decide)).trans (at13_arg16 m ρ c)

theorem at14_v130 (c : Dev nD) : W14 m ρ c (Proc.devRef .tc main_v130) = (Cert.ReferenceIdeal.Read.val_main_v146 (F := Ideal) (m ((c : Thread nD τ).loc main_arg1)) (m ((c : Thread nD τ).loc main_arg4)) (m ((c : Thread nD τ).loc main_arg9)) (m ((c : Thread nD τ).loc main_arg10))) :=
  (W14_of_ne m ρ c main_v130 (by decide)).trans (at13_v130 m ρ c)

theorem at14_arg15 (c : Dev nD) : W14 m ρ c (Proc.devRef .tc main_arg15) = m ((c : Thread nD τ).loc main_arg15) :=
  (W14_of_ne m ρ c main_arg15 (by decide)).trans (at13_arg15 m ρ c)

theorem at14_arg4 (c : Dev nD) : W14 m ρ c (Proc.devRef .tc main_arg4) = m ((c : Thread nD τ).loc main_arg4) :=
  (W14_of_ne m ρ c main_arg4 (by decide)).trans (at13_arg4 m ρ c)

theorem at14_v170 (c : Dev nD) : W14 m ρ c (Proc.devRef .tc main_v170) = (Cert.ReferenceIdeal.Read.val_main_v186 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11))) :=
  (W14_of_ne m ρ c main_v170 (by decide)).trans (at13_v170 m ρ c)

theorem at14_v142 (c : Dev nD) : W14 m ρ c (Proc.devRef .tc main_v142) = (Cert.ReferenceIdeal.Read.val_main_v158 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11))) :=
  (W14_of_ne m ρ c main_v142 (by decide)).trans (at13_v142 m ρ c)

theorem at14_v184 (c : Dev nD) : W14 m ρ c (Proc.devRef .tc main_v184) = (Cert.ReferenceIdeal.Read.val_main_v206 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg13))) :=
  (W14_arr m ρ c 2).trans <| (Cert.KernelIdeal.Mat6.final (V13 m ρ) c).trans <| by
    rw [show V13 m ρ c main_v86 = _ from at13_v86 m ρ c,
      show V13 m ρ c main_arg13 = _ from at13_arg13 m ρ c]
    exact Cert.Bridge.mm_v206 _ _ _ _ _ _ _ _

theorem at14_v172 (c : Dev nD) : W14 m ρ c (Proc.devRef .tc main_v172) = (Cert.ReferenceIdeal.Read.val_main_v188 (F := Ideal) (m ((c : Thread nD τ).loc main_arg2))) :=
  (W14_of_ne m ρ c main_v172 (by decide)).trans (at13_v172 m ρ c)

theorem at14_arg12 (c : Dev nD) : W14 m ρ c (Proc.devRef .tc main_arg12) = m ((c : Thread nD τ).loc main_arg12) :=
  (W14_of_ne m ρ c main_arg12 (by decide)).trans (at13_arg12 m ρ c)

theorem at14_arg14 (c : Dev nD) : W14 m ρ c (Proc.devRef .tc main_arg14) = m ((c : Thread nD τ).loc main_arg14) :=
  (W14_of_ne m ρ c main_arg14 (by decide)).trans (at13_arg14 m ρ c)

theorem at14_v183 (c : Dev nD) : W14 m ρ c (Proc.devRef .tc main_v183) = (Cert.ReferenceIdeal.Read.val_main_v205 (F := Ideal) (m ((c : Thread nD τ).loc main_arg3))) :=
  (W14_of_ne m ρ c main_v183 (by decide)).trans (at13_v183 m ρ c)

theorem at14_v176 (c : Dev nD) : W14 m ρ c (Proc.devRef .tc main_v176) = (Cert.ReferenceIdeal.Read.val_main_v198 (F := Ideal) (m ((c : Thread nD τ).loc main_arg3))) :=
  (W14_of_ne m ρ c main_v176 (by decide)).trans (at13_v176 m ρ c)

theorem at14_v174 (c : Dev nD) : W14 m ρ c (Proc.devRef .tc main_v174) = (Cert.ReferenceIdeal.Read.val_main_v196 (F := Ideal) (m ((c : Thread nD τ).loc main_arg3))) :=
  (W14_of_ne m ρ c main_v174 (by decide)).trans (at13_v174 m ρ c)

end Cert.KernelIdeal.Flow

end
-- ==== Proof.H7.lean ====
/-
  Boundary 15: the buffer contents after the eighth stretch of host operations, at the buffers later segments read.

  A buffer the stretch does not write keeps what it held before the stretch. A buffer the stretch writes holds the
  stretch's operations applied, in order, to what the stretch read; written out, that term is the reference program's
  stage of the same name-free shape (the same slices, broadcasts, gathers, scatter-adds and products of the same
  arguments), so each fact names the contents by that stage of the argument arrays.
-/
import proofs.«130242_j57475252355428_1_alg».proof.Proof.R6
import proofs.«130242_j57475252355428_1_alg».proof.Proof.RefStages
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The buffers this stretch writes. -/
def written7 : List (Ref sig .tc) := [main_c_41, main_v185, main_v186, main_c_42, main_v187, main_v188, main_v189, main_v190, main_v191, main_c_43, main_v192, main_v193, main_c_44, main_v194, main_v195, main_v196, main_v197, main_v198, main_v199, main_v200, main_c_45, main_v201, main_v202, main_c_46, main_v203, main_v204, main_v205, main_v206, main_v207, main_v208, main_v209, main_cst_47, main_v210, main_v211, main_v212, main_v213, main_v214, main_v215, main_v216]

/-- A buffer the stretch does not write is left as it was. -/
theorem pass7 (V : Valuation τ sig (Elt Ideal)) (b : Ref sig .tc) (h : ∀ x ∈ written7, b ≠ x) :
    StableHlo.after hostOps7 V (Proc.devRef .tc b) = V (Proc.devRef .tc b) :=
  StableHlo.after_of_forall_not_mem (b := Proc.devRef .tc b) _ _ (List.forall_iff_forall_mem.mp (by
    simp only [hostOps7, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem at15_arg16 (c : Dev nD) : W15 m ρ c (Proc.devRef .tc main_arg16) = m ((c : Thread nD τ).loc main_arg16) := (pass7 (W14 m ρ c) main_arg16 (by decide)).trans (at14_arg16 m ρ c)

theorem at15_v130 (c : Dev nD) : W15 m ρ c (Proc.devRef .tc main_v130) = (Cert.ReferenceIdeal.Read.val_main_v146 (F := Ideal) (m ((c : Thread nD τ).loc main_arg1)) (m ((c : Thread nD τ).loc main_arg4)) (m ((c : Thread nD τ).loc main_arg9)) (m ((c : Thread nD τ).loc main_arg10))) := (pass7 (W14 m ρ c) main_v130 (by decide)).trans (at14_v130 m ρ c)

theorem at15_arg15 (c : Dev nD) : W15 m ρ c (Proc.devRef .tc main_arg15) = m ((c : Thread nD τ).loc main_arg15) := (pass7 (W14 m ρ c) main_arg15 (by decide)).trans (at14_arg15 m ρ c)

theorem at15_arg4 (c : Dev nD) : W15 m ρ c (Proc.devRef .tc main_arg4) = m ((c : Thread nD τ).loc main_arg4) := (pass7 (W14 m ρ c) main_arg4 (by decide)).trans (at14_arg4 m ρ c)

theorem at15_v170 (c : Dev nD) : W15 m ρ c (Proc.devRef .tc main_v170) = (Cert.ReferenceIdeal.Read.val_main_v186 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11))) := (pass7 (W14 m ρ c) main_v170 (by decide)).trans (at14_v170 m ρ c)

theorem at15_v212 (c : Dev nD) : W15 m ρ c (Proc.devRef .tc main_v212) = (Cert.ReferenceIdeal.Read.val_main_v234 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg13))) := by
  show StableHlo.after hostOps7 (W14 m ρ c) (Proc.devRef .tc main_v212) = _
  after_results_simp
  all_goals try simp only [at14_v176 m ρ c, at14_v183 m ρ c, at14_v174 m ρ c, at14_v184 m ρ c]
  all_goals rfl

theorem at15_v142 (c : Dev nD) : W15 m ρ c (Proc.devRef .tc main_v142) = (Cert.ReferenceIdeal.Read.val_main_v158 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11))) := (pass7 (W14 m ρ c) main_v142 (by decide)).trans (at14_v142 m ρ c)

theorem at15_v184 (c : Dev nD) : W15 m ρ c (Proc.devRef .tc main_v184) = (Cert.ReferenceIdeal.Read.val_main_v206 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg13))) := (pass7 (W14 m ρ c) main_v184 (by decide)).trans (at14_v184 m ρ c)

theorem at15_v172 (c : Dev nD) : W15 m ρ c (Proc.devRef .tc main_v172) = (Cert.ReferenceIdeal.Read.val_main_v188 (F := Ideal) (m ((c : Thread nD τ).loc main_arg2))) := (pass7 (W14 m ρ c) main_v172 (by decide)).trans (at14_v172 m ρ c)

theorem at15_v214 (c : Dev nD) : W15 m ρ c (Proc.devRef .tc main_v214) = (Cert.ReferenceIdeal.Read.val_main_v236 (F := Ideal) (m ((c : Thread nD τ).loc main_arg3))) := by
  show StableHlo.after hostOps7 (W14 m ρ c) (Proc.devRef .tc main_v214) = _
  after_results_simp
  all_goals try simp only [at14_v183 m ρ c]
  all_goals rfl

theorem at15_v216 (c : Dev nD) : W15 m ρ c (Proc.devRef .tc main_v216) = (shapeCast S1x128 (addf (F := Ideal) (φ := .f32) (m ((c : Thread nD τ).loc main_arg12)) (m ((c : Thread nD τ).loc main_arg14))) shapeCasts_S128_S1x128 : (⟨S1x128, .f32⟩ : BufTy).Contents (Elt Ideal)) := by
  show StableHlo.after hostOps7 (W14 m ρ c) (Proc.devRef .tc main_v216) = _
  after_results_simp
  all_goals try simp only [at14_arg12 m ρ c, at14_arg14 m ρ c]
  all_goals rfl

end Cert.KernelIdeal.Flow

end
-- ==== Proof.Comb7.lean ====
/-
  The two-edge-type epilogue at 128 columns (region 7 of the kernel program): after its 50 grid points the output
  array is `GraphSpec.comb2` of the seven input arrays, entry by entry
      out[r, c] = max (a₁[r, c] + a₂[r, c] + d₁[r, 0] · x₁[r, c] + d₂[r, 0] · x₂[r, c] + b[0, c], 0),
  the sum bracketed to the left in the order written.

  The region walks the 200000 rows in 50 blocks of 4000 rows, the feature axis whole. At grid point t the body reads
  rows 4000·t … 4000·t + 3999 of a₁, a₂, x₁, x₂ and of the columns d₁, d₂, and the whole bias row b, and writes the same
  rows of the output. So three things are shown:
    * the body's arithmetic at one entry (p, q) of a block is that expression of the block entries (`pay_apply`): the
      shape casts are identities, each column is broadcast along the row, the bias row down the rows;
    * entry (p, q) of block t of every row-blocked window is entry (4000·t + p, q) of its array, and the bias block is
      the bias row itself; hence what point t writes back is block t of the whole-array function (`flushed_eq`);
    * the 50 blocks tile the array: row r lies in block r / 4000 (`cover`).
  Together: the array after the last point is that function (`final`).
-/
import proofs.«130242_j57475252355428_1_alg».proof.Proof.Gen.KernelIdeal.Frame
import proofs.«130242_j57475252355428_1_alg».proof.Proof.GraphSpec
import proofs.«130242_j57475252355428_1_alg».proof.Proof.LibBroadcastRowCol
import Idealize.ShloMosaic.Lib.Pipeline.Value
import Idealize.ShloMosaic.Lib.ValueLayout

set_option maxRecDepth 16384

noncomputable section

namespace Cert.KernelIdeal.Comb7

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem hz : (![0, 0] : Fin 2 → Nat) = fun _ => 0 := funext fun a => by fin_cases a <;> rfl

/-- THE BODY AT ONE ENTRY: max (a₁ + a₂ + d₁·x₁ + d₂·x₂ + b, 0), each column read at the entry's row, the bias row at its
    column. The operands are in the order the body reads them: a₁, a₂, d₁, x₁, d₂, x₂, b. -/
theorem pay_apply (v0 v2 : Vec Ideal S4000x128 .f32) (v5 : Vec Ideal S4000x1 .f32) (v7 : Vec Ideal S4000x128 .f32)
    (v12 : Vec Ideal S4000x1 .f32) (v14 : Vec Ideal S4000x128 .f32) (v19 : Vec Ideal S1x128 .f32) (p : Fin 4000) (q : Fin 128) :
    Gen.k7_pay1 v0 v2 v5 v7 v12 v14 v19 (ix2 p q)
      = max (v0 (ix2 p q) + v2 (ix2 p q) + v5 (ix2 p (0 : Fin 1)) * v7 (ix2 p q) + v12 (ix2 p (0 : Fin 1)) * v14 (ix2 p q)
          + v19 (ix2 (0 : Fin 1) q)) (Ideal.ofBits .f32 0x00000000#32) := by
  unfold Gen.k7_pay1
  simp only [shapeCast_self]
  rw [maximumf_apply, addf_apply, addf_apply, addf_apply, addf_apply, mulf_apply, mulf_apply, broadcast_apply,
    broadcastTo_a1_ab_apply, broadcastTo_a1_ab_apply, broadcastTo_1b_ab_apply]
  rfl

/-- The body at entry (p, q) of a block is the whole-array function at entry (r, q), as soon as the seven blocks hold
    there what the seven arrays hold at row `r` (the bias at its only row). -/
theorem point_eq (v0 v2 : Vec Ideal S4000x128 .f32) (v5 : Vec Ideal S4000x1 .f32) (v7 : Vec Ideal S4000x128 .f32)
    (v12 : Vec Ideal S4000x1 .f32) (v14 : Vec Ideal S4000x128 .f32) (v19 : Vec Ideal S1x128 .f32)
    (a1 a2 x1 x2 : GraphSpec.Arr2 200000 128) (d1 d2 : GraphSpec.Arr2 200000 1) (b : GraphSpec.Arr2 1 128)
    (p : Fin 4000) (q : Fin 128) (r : Fin 200000)
    (h0 : v0 (ix2 p q) = a1 (ix2 r q)) (h2 : v2 (ix2 p q) = a2 (ix2 r q))
    (h5 : v5 (ix2 p (0 : Fin 1)) = d1 (ix2 r (0 : Fin 1))) (h7 : v7 (ix2 p q) = x1 (ix2 r q))
    (h12 : v12 (ix2 p (0 : Fin 1)) = d2 (ix2 r (0 : Fin 1))) (h14 : v14 (ix2 p q) = x2 (ix2 r q))
    (h19 : v19 (ix2 (0 : Fin 1) q) = b (ix2 (0 : Fin 1) q)) :
    Gen.k7_pay1 v0 v2 v5 v7 v12 v14 v19 (ix2 p q) = GraphSpec.comb2 200000 128 a1 a2 x1 x2 d1 d2 b (ix2 r q) := by
  rw [pay_apply, h0, h2, h5, h7, h12, h14, h19]
  rfl

/-- The printed index maps, decided over the 50 grid points: every row-blocked window is at block (t, 0), the bias row at
    block (0, 0). -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- WHAT POINT `t` WRITES BACK is block `t` of the whole-array function of the arrays as the region finds them. -/
theorem flushed_eq (c : Dev nD) (t : Fin cfg7.N) :
    (Gen.dat7 (F := Ideal) V c).flushed 7 t
      = ((cfg7.win 7).blk t).view.read (Elt Ideal)
          (GraphSpec.comb2 200000 128 (V c main_v170) (V c main_v212) (V c main_v142) (V c main_v184) (V c main_v172) (V c main_v214) (V c main_v216)) := by
  show (cfg7.win 7).cut (grid7.coords t) ((Gen.dat7 V c).after 7 t) = _
  rw [Gen.after7_7]
  unfold Gen.out7_7
  rw [View.canon_unit_zero hz]
  simp only [View.ld_unit_zero (S := S4000x128) hz, View.ld_unit_zero (S := S4000x1) hz, View.ld_unit_zero (S := S1x128) hz]
  obtain ⟨e00, e01, e10, e11, e20, e21, e30, e31, e40, e41, e50, e51, e60, e61, eo0, eo1⟩ := idx_facts t
  have hN : cfg7.N = 50 := Gen.N_7
  have ht : t.val < 50 := lt_of_lt_of_eq t.isLt hN
  funext j
  have hj0 : (j 0).val < 4000 := (j 0).isLt
  have hj1 : (j 1).val < 128 := (j 1).isLt
  have e1 : (cfg7.win 7).xinj (grid7.coords t) j = ix2 (⟨(j 0).val, hj0⟩ : Fin 4000) (⟨(j 1).val, hj1⟩ : Fin 128) :=
    funext fun a => by match a with | ⟨0, _⟩ => rfl | ⟨1, _⟩ => rfl
  have e2 : ((cfg7.win 7).blk t).view.emb j
      = ix2 (⟨t.val * 4000 + (j 0).val, by omega⟩ : Fin 200000) (⟨(j 1).val, hj1⟩ : Fin 128) :=
    funext fun a => Fin.ext (by
      match a with
      | ⟨0, _⟩ => show win7_7.index t (0 : Fin 2) * 4000 + 1 * (j 0).val = t.val * 4000 + (j 0).val; omega
      | ⟨1, _⟩ => show win7_7.index t (1 : Fin 2) * 128 + 1 * (j 1).val = (j 1).val; omega)
  show Gen.k7_pay1 (Gen.iblk7 V c 0 t) (Gen.iblk7 V c 1 t) (Gen.iblk7 V c 4 t) (Gen.iblk7 V c 2 t)
      (Gen.iblk7 V c 5 t) (Gen.iblk7 V c 3 t) (Gen.iblk7 V c 6 t) ((cfg7.win 7).xinj (grid7.coords t) j)
    = GraphSpec.comb2 200000 128 (V c main_v170) (V c main_v212) (V c main_v142) (V c main_v184) (V c main_v172) (V c main_v214) (V c main_v216) (((cfg7.win 7).blk t).view.emb j)
  rw [e1, e2]
  refine point_eq _ _ _ _ _ _ _ _ _ _ _ _ _ _ _ _ _ ?_ ?_ ?_ ?_ ?_ ?_ ?_
  · show V c main_v170 (((cfg7.win 0).blk t).view.emb (ix2 (⟨(j 0).val, hj0⟩ : Fin 4000) (⟨(j 1).val, hj1⟩ : Fin 128))) = V c main_v170 _
    refine congrArg (V c main_v170) (funext fun a => Fin.ext ?_)
    match a with
    | ⟨0, _⟩ => show win7_0.index t (0 : Fin 2) * 4000 + 1 * (j 0).val = t.val * 4000 + (j 0).val; omega
    | ⟨1, _⟩ => show win7_0.index t (1 : Fin 2) * 128 + 1 * (j 1).val = (j 1).val; omega
  · show V c main_v212 (((cfg7.win 1).blk t).view.emb (ix2 (⟨(j 0).val, hj0⟩ : Fin 4000) (⟨(j 1).val, hj1⟩ : Fin 128))) = V c main_v212 _
    refine congrArg (V c main_v212) (funext fun a => Fin.ext ?_)
    match a with
    | ⟨0, _⟩ => show win7_1.index t (0 : Fin 2) * 4000 + 1 * (j 0).val = t.val * 4000 + (j 0).val; omega
    | ⟨1, _⟩ => show win7_1.index t (1 : Fin 2) * 128 + 1 * (j 1).val = (j 1).val; omega
  · show V c main_v172 (((cfg7.win 4).blk t).view.emb (ix2 (⟨(j 0).val, hj0⟩ : Fin 4000) (0 : Fin 1))) = V c main_v172 _
    refine congrArg (V c main_v172) (funext fun a => Fin.ext ?_)
    match a with
    | ⟨0, _⟩ => show win7_4.index t (0 : Fin 2) * 4000 + 1 * (j 0).val = t.val * 4000 + (j 0).val; omega
    | ⟨1, _⟩ => show win7_4.index t (1 : Fin 2) * 1 + 1 * 0 = 0; omega
  · show V c main_v142 (((cfg7.win 2).blk t).view.emb (ix2 (⟨(j 0).val, hj0⟩ : Fin 4000) (⟨(j 1).val, hj1⟩ : Fin 128))) = V c main_v142 _
    refine congrArg (V c main_v142) (funext fun a => Fin.ext ?_)
    match a with
    | ⟨0, _⟩ => show win7_2.index t (0 : Fin 2) * 4000 + 1 * (j 0).val = t.val * 4000 + (j 0).val; omega
    | ⟨1, _⟩ => show win7_2.index t (1 : Fin 2) * 128 + 1 * (j 1).val = (j 1).val; omega
  · show V c main_v214 (((cfg7.win 5).blk t).view.emb (ix2 (⟨(j 0).val, hj0⟩ : Fin 4000) (0 : Fin 1))) = V c main_v214 _
    refine congrArg (V c main_v214) (funext fun a => Fin.ext ?_)
    match a with
    | ⟨0, _⟩ => show win7_5.index t (0 : Fin 2) * 4000 + 1 * (j 0).val = t.val * 4000 + (j 0).val; omega
    | ⟨1, _⟩ => show win7_5.index t (1 : Fin 2) * 1 + 1 * 0 = 0; omega
  · show V c main_v184 (((cfg7.win 3).blk t).view.emb (ix2 (⟨(j 0).val, hj0⟩ : Fin 4000) (⟨(j 1).val, hj1⟩ : Fin 128))) = V c main_v184 _
    refine congrArg (V c main_v184) (funext fun a => Fin.ext ?_)
    match a with
    | ⟨0, _⟩ => show win7_3.index t (0 : Fin 2) * 4000 + 1 * (j 0).val = t.val * 4000 + (j 0).val; omega
    | ⟨1, _⟩ => show win7_3.index t (1 : Fin 2) * 128 + 1 * (j 1).val = (j 1).val; omega
  · show V c main_v216 (((cfg7.win 6).blk t).view.emb (ix2 (0 : Fin 1) (⟨(j 1).val, hj1⟩ : Fin 128))) = V c main_v216 _
    refine congrArg (V c main_v216) (funext fun a => Fin.ext ?_)
    match a with
    | ⟨0, _⟩ => show win7_6.index t (0 : Fin 2) * 1 + 1 * 0 = 0; omega
    | ⟨1, _⟩ => show win7_6.index t (1 : Fin 2) * 128 + 1 * (j 1).val = (j 1).val; omega

/-- An index of the array is in point `t`'s block iff each coordinate is in the block's range on its axis. -/
theorem mem_blk (t : Fin cfg7.N) (i : S200000x128.Idx) :
    i ∈ ((cfg7.win 7).blk t).view.set
      ↔ ∀ a : Fin 2, win7_7.index t a * S4000x128.size a ≤ (i a).val
          ∧ (i a).val < win7_7.index t a * S4000x128.size a + S4000x128.size a := by
  show i ∈ ((View.whole main_v217).slice (win7_7.rect t)).set ↔ _
  rw [View.set_slice_whole, Rect.mem_set_unit]
  exact Iff.rfl

/-- THE BLOCKS TILE THE ARRAY: row `r` lies in the block of point `r / 4000`. -/
theorem cover (i : S200000x128.Idx) :
    ∃ t : Fin cfg7.N, (cfg7.win 7).flush t = true ∧ i ∈ ((cfg7.win 7).blk t).view.set := by
  have hi0 : (i 0).val < 200000 := (i 0).isLt
  have hi1 : (i 1).val < 128 := (i 1).isLt
  have hlt : (i 0).val / 4000 < cfg7.N := by rw [show cfg7.N = 50 from Gen.N_7]; omega
  obtain ⟨t, ht⟩ : ∃ t : Fin cfg7.N, t.val = (i 0).val / 4000 := ⟨⟨_, hlt⟩, rfl⟩
  obtain ⟨-, -, -, -, -, -, -, -, -, -, -, -, -, -, eo0, eo1⟩ := idx_facts t
  refine ⟨t, Gen.flush7_7 t, ?_⟩
  rw [mem_blk]
  intro a
  match a with
  | ⟨0, _⟩ =>
    show win7_7.index t (0 : Fin 2) * 4000 ≤ (i 0).val ∧ (i 0).val < win7_7.index t (0 : Fin 2) * 4000 + 4000
    omega
  | ⟨1, _⟩ =>
    show win7_7.index t (1 : Fin 2) * 128 ≤ (i 1).val ∧ (i 1).val < win7_7.index t (1 : Fin 2) * 128 + 128
    omega

/-- THE ARRAY after the region: the whole-array function of the seven input arrays as the region finds them. -/
theorem final (c : Dev nD) :
    (Gen.dat7 (F := Ideal) V c).arrAt 7 cfg7.N
      = GraphSpec.comb2 200000 128 (V c main_v170) (V c main_v212) (V c main_v142) (V c main_v184) (V c main_v172) (V c main_v214) (V c main_v216) :=
  (Gen.dat7 V c).arrAt_eq_of_cover 7 _ (fun t _ => flushed_eq V c t) cover

end Cert.KernelIdeal.Comb7

end
-- ==== Proof.R7.lean ====
/-
  Boundary 16: the buffer contents after the eighth tiled region, at the buffers later segments read.

  The region replaces its output array by what its grid points wrote back — the fused epilogue (self-loop term, bias, sum over edge types, max with 0) of its input arrays as the region found them — and
  leaves every other buffer as it was. The inputs were named at the previous boundary by stages of the argument arrays;
  the product form of those stages is the reference's stage for this buffer.
-/
import proofs.«130242_j57475252355428_1_alg».proof.Proof.H7
import proofs.«130242_j57475252355428_1_alg».proof.Proof.Comb7
import proofs.«130242_j57475252355428_1_alg».proof.Proof.BridgeComb
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem at16_v217 (c : Dev nD) : W16 m ρ c (Proc.devRef .tc main_v217) = (Cert.ReferenceIdeal.Read.val_main_v292 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) :=
  (W16_arr m ρ c 7).trans <| (Cert.KernelIdeal.Comb7.final (V15 m ρ) c).trans <| by
    rw [show V15 m ρ c main_v170 = _ from at15_v170 m ρ c,
      show V15 m ρ c main_v212 = _ from at15_v212 m ρ c,
      show V15 m ρ c main_v142 = _ from at15_v142 m ρ c,
      show V15 m ρ c main_v184 = _ from at15_v184 m ρ c,
      show V15 m ρ c main_v172 = _ from at15_v172 m ρ c,
      show V15 m ρ c main_v214 = _ from at15_v214 m ρ c,
      show V15 m ρ c main_v216 = _ from at15_v216 m ρ c]
    exact Cert.Bridge.comb_v292 _ _ _ _ _ _ _ _ _ _ _

theorem at16_arg16 (c : Dev nD) : W16 m ρ c (Proc.devRef .tc main_arg16) = m ((c : Thread nD τ).loc main_arg16) :=
  (W16_of_ne m ρ c main_arg16 (by decide)).trans (at15_arg16 m ρ c)

theorem at16_v130 (c : Dev nD) : W16 m ρ c (Proc.devRef .tc main_v130) = (Cert.ReferenceIdeal.Read.val_main_v146 (F := Ideal) (m ((c : Thread nD τ).loc main_arg1)) (m ((c : Thread nD τ).loc main_arg4)) (m ((c : Thread nD τ).loc main_arg9)) (m ((c : Thread nD τ).loc main_arg10))) :=
  (W16_of_ne m ρ c main_v130 (by decide)).trans (at15_v130 m ρ c)

theorem at16_arg15 (c : Dev nD) : W16 m ρ c (Proc.devRef .tc main_arg15) = m ((c : Thread nD τ).loc main_arg15) :=
  (W16_of_ne m ρ c main_arg15 (by decide)).trans (at15_arg15 m ρ c)

theorem at16_arg4 (c : Dev nD) : W16 m ρ c (Proc.devRef .tc main_arg4) = m ((c : Thread nD τ).loc main_arg4) :=
  (W16_of_ne m ρ c main_arg4 (by decide)).trans (at15_arg4 m ρ c)

end Cert.KernelIdeal.Flow

end
-- ==== Proof.H8.lean ====
/-
  Boundary 17: the buffer contents after the ninth stretch of host operations, at the buffers later segments read.

  A buffer the stretch does not write keeps what it held before the stretch. A buffer the stretch writes holds the
  stretch's operations applied, in order, to what the stretch read; written out, that term is the reference program's
  stage of the same name-free shape (the same slices, broadcasts, gathers, scatter-adds and products of the same
  arguments), so each fact names the contents by that stage of the argument arrays.
-/
import proofs.«130242_j57475252355428_1_alg».proof.Proof.R7
import proofs.«130242_j57475252355428_1_alg».proof.Proof.RefStages
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The buffers this stretch writes. -/
def written8 : List (Ref sig .tc) := [main_v218, main_v219, main_v220, main_v221, main_cst_48, main_v222, main_cst_49, main_v223, main_v224, main_v225, main_cst_50, main_v226, main_v227, main_v228]

/-- A buffer the stretch does not write is left as it was. -/
theorem pass8 (V : Valuation τ sig (Elt Ideal)) (b : Ref sig .tc) (h : ∀ x ∈ written8, b ≠ x) :
    StableHlo.after hostOps8 V (Proc.devRef .tc b) = V (Proc.devRef .tc b) :=
  StableHlo.after_of_forall_not_mem (b := Proc.devRef .tc b) _ _ (List.forall_iff_forall_mem.mp (by
    simp only [hostOps8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem at17_v217 (c : Dev nD) : W17 m ρ c (Proc.devRef .tc main_v217) = (Cert.ReferenceIdeal.Read.val_main_v292 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) := (pass8 (W16 m ρ c) main_v217 (by decide)).trans (at16_v217 m ρ c)

theorem at17_arg16 (c : Dev nD) : W17 m ρ c (Proc.devRef .tc main_arg16) = m ((c : Thread nD τ).loc main_arg16) := (pass8 (W16 m ρ c) main_arg16 (by decide)).trans (at16_arg16 m ρ c)

theorem at17_v228 (c : Dev nD) : W17 m ρ c (Proc.devRef .tc main_v228) = (Cert.ReferenceIdeal.Read.val_main_v254 (F := Ideal) (m ((c : Thread nD τ).loc main_arg4))) := by
  show StableHlo.after hostOps8 (W16 m ρ c) (Proc.devRef .tc main_v228) = _
  after_results_simp
  all_goals try simp only [at16_arg4 m ρ c]
  all_goals rfl

theorem at17_v221 (c : Dev nD) : W17 m ρ c (Proc.devRef .tc main_v221) = (Cert.ReferenceIdeal.Read.val_main_v247 (F := Ideal) (m ((c : Thread nD τ).loc main_arg4))) := by
  show StableHlo.after hostOps8 (W16 m ρ c) (Proc.devRef .tc main_v221) = _
  after_results_simp
  all_goals try simp only [at16_arg4 m ρ c]
  all_goals rfl

theorem at17_v219 (c : Dev nD) : W17 m ρ c (Proc.devRef .tc main_v219) = (Cert.ReferenceIdeal.Read.val_main_v245 (F := Ideal) (m ((c : Thread nD τ).loc main_arg4))) := by
  show StableHlo.after hostOps8 (W16 m ρ c) (Proc.devRef .tc main_v219) = _
  after_results_simp
  all_goals try simp only [at16_arg4 m ρ c]
  all_goals rfl

theorem at17_v130 (c : Dev nD) : W17 m ρ c (Proc.devRef .tc main_v130) = (Cert.ReferenceIdeal.Read.val_main_v146 (F := Ideal) (m ((c : Thread nD τ).loc main_arg1)) (m ((c : Thread nD τ).loc main_arg4)) (m ((c : Thread nD τ).loc main_arg9)) (m ((c : Thread nD τ).loc main_arg10))) := (pass8 (W16 m ρ c) main_v130 (by decide)).trans (at16_v130 m ρ c)

theorem at17_arg15 (c : Dev nD) : W17 m ρ c (Proc.devRef .tc main_arg15) = m ((c : Thread nD τ).loc main_arg15) := (pass8 (W16 m ρ c) main_arg15 (by decide)).trans (at16_arg15 m ρ c)

end Cert.KernelIdeal.Flow

end
-- ==== Proof.Mat8.lean ====
/-
  Region 8 of the layer: a matrix product computed in row blocks.

  The region's grid has 25 points; point t reads rows 4000·t … 4000·t + 3999 of the left operand (a 100000×64 array), the
  whole right operand (64×128), and writes rows 4000·t … 4000·t + 3999 of the result. Entry (p, q) of the block it writes is
  ∑ₗ x[4000·t + p, l] · w[l, q]: narrowing the operands to bf16 is exact on extended reals and the accumulator starts
  at zero. The 25 row blocks tile the result, so after the last point the result array is the matrix product of the two
  input arrays, entry by entry.
-/
import proofs.«130242_j57475252355428_1_alg».proof.Proof.Gen.KernelIdeal.Frame
import proofs.«130242_j57475252355428_1_alg».proof.Proof.GraphSpec
import proofs.«130242_j57475252355428_1_alg».proof.Proof.LibMatmulBlock
import Idealize.ShloMosaic.Lib.Pipeline.Value

set_option maxRecDepth 16384

noncomputable section

namespace Cert.KernelIdeal.Mat8

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point t the left operand's and the result's block is row block t (column block 0);
    the right operand's block is the whole array. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- The body's result at entry (p, q) of its block: ∑ₗ x[p, l] · w[l, q]. Narrowing to bf16 is the identity on
    extended reals, and the accumulator is the zero array. -/
theorem pay_apply (x0 : Vec Ideal S4000x64 .f32) (x1 : Vec Ideal S64x128 .f32) (p : Fin 4000) (q : Fin 128) :
    Gen.k8_pay1 (F := Ideal) x0 x1 (ix2 p q) = ∑ l : Fin 64, x0 (ix2 p l) * x1 (ix2 l q) :=
  by
  refine (Cert.LibMatmulBlock.matmul_zero_apply (m := 4000) (k := 64) (n := 128) Facts₀.dot_S4000x64_S64x128_S4000x128_1_0_0_1_n_n_wf none
      (truncf .bf16 (shapeCast S4000x64 x0 Facts₀.shapeCasts_S4000x64_S4000x64) Facts₀.bitsLt_bf16_f32)
      (truncf .bf16 x1 Facts₀.bitsLt_bf16_f32) p q).trans ?_
  refine Finset.sum_congr rfl fun l _ => ?_
  rw [truncf_apply, truncf_apply, shapeCast_self]

/-- The left operand's block at point t is rows 4000·t … of its array. -/
theorem read_lhs (c : Dev nD) (t : Fin cfg8.N) (y : S4000x64.Idx) (i : S100000x64.Idx)
    (h0 : (i 0).val = t.val * 4000 + (y 0).val) (h1 : (i 1).val = (y 1).val) :
    (Gen.iblk8 V c 0 t : Vec Ideal S4000x64 .f32) y = (V c main_v130 : S100000x64.Idx → EReal) i := by
  obtain ⟨e0, e1, -⟩ := idx_facts t
  unfold Gen.iblk8
  rw [View.read_apply]
  show V c main_v130 (((cfg8.win 0).blk t).view.emb y) = V c main_v130 i
  refine congrArg _ ?_
  funext a
  apply Fin.ext
  match a with
  | ⟨0, _⟩ => show win8_0.index t (0 : Fin 2) * 4000 + 1 * (y 0).val = (i 0).val; rw [e0, h0]; omega
  | ⟨1, _⟩ => show win8_0.index t (1 : Fin 2) * 64 + 1 * (y 1).val = (i 1).val; rw [e1, h1]; omega

/-- The right operand's block at every point is its whole array. -/
theorem read_rhs (c : Dev nD) (t : Fin cfg8.N) (y : S64x128.Idx) (i : S64x128.Idx)
    (h0 : (i 0).val = (y 0).val) (h1 : (i 1).val = (y 1).val) :
    (Gen.iblk8 V c 1 t : Vec Ideal S64x128 .f32) y = (V c main_arg15 : S64x128.Idx → EReal) i := by
  obtain ⟨-, -, e2, e3, -⟩ := idx_facts t
  unfold Gen.iblk8
  rw [View.read_apply]
  show V c main_arg15 (((cfg8.win 1).blk t).view.emb y) = V c main_arg15 i
  refine congrArg _ ?_
  funext a
  apply Fin.ext
  match a with
  | ⟨0, _⟩ => show win8_1.index t (0 : Fin 2) * 64 + 1 * (y 0).val = (i 0).val; rw [e2, h0]; omega
  | ⟨1, _⟩ => show win8_1.index t (1 : Fin 2) * 128 + 1 * (y 1).val = (i 1).val; rw [e3, h1]; omega

/-- What point t writes back is block t of the matrix product of the two input arrays. -/
theorem flushed_eq (c : Dev nD) (t : Fin cfg8.N) :
    (Gen.dat8 (F := Ideal) V c).flushed 2 t
      = ((cfg8.win 2).blk t).view.read (Elt Ideal) (GraphSpec.mm 100000 64 128 (V c main_v130) (V c main_arg15)) := by
  show (cfg8.win 2).cut (grid8.coords t) ((Gen.dat8 V c).after 2 t) = _
  rw [Gen.after8_2]
  unfold Gen.out8_2
  rw [View.canon_unit_zero hz]
  simp only [View.ld_unit_zero (S := S4000x64) hz, View.ld_unit_zero (S := S64x128) hz]
  obtain ⟨-, -, -, -, e4, e5⟩ := idx_facts t
  funext j
  show Gen.k8_pay1 (F := Ideal) (Gen.iblk8 V c 0 t) (Gen.iblk8 V c 1 t) j
    = GraphSpec.mm 100000 64 128 (V c main_v130) (V c main_arg15) (((cfg8.win 2).blk t).view.emb j)
  obtain ⟨p, q, rfl⟩ : ∃ (p : Fin 4000) (q : Fin 128), j = ix2 p q := ⟨j 0, j 1, eq_ix2 j⟩
  refine (pay_apply _ _ p q).trans ?_
  unfold GraphSpec.mm
  refine Finset.sum_congr rfl fun l _ => ?_
  have hr0 : ((((cfg8.win 2).blk t).view.emb (ix2 p q)) 0).val = t.val * 4000 + p.val := by
    show win8_2.index t (0 : Fin 2) * 4000 + 1 * p.val = _; rw [e4]; omega
  have hr1 : ((((cfg8.win 2).blk t).view.emb (ix2 p q)) 1).val = q.val := by
    show win8_2.index t (1 : Fin 2) * 128 + 1 * q.val = _; rw [e5]; omega
  have hl := read_lhs V c t (ix2 p l) (ix2 ((((cfg8.win 2).blk t).view.emb (ix2 p q)) 0) l) hr0 rfl
  have hr := read_rhs V c t (ix2 l q) (ix2 l ((((cfg8.win 2).blk t).view.emb (ix2 p q)) 1)) rfl hr1
  rw [hl, hr]

/-- An index of the result array is in point t's block iff each coordinate is in the block's range on its axis. -/
theorem mem_blk (t : Fin cfg8.N) (i : S100000x128.Idx) :
    i ∈ ((cfg8.win 2).blk t).view.set ↔ ∀ a : Fin 2, win8_2.index t a * S4000x128.size a ≤ (i a).val ∧ (i a).val < win8_2.index t a * S4000x128.size a + S4000x128.size a := by
  show i ∈ ((View.whole main_v229).slice (win8_2.rect t)).set ↔ _
  rw [View.set_slice_whole, Rect.mem_set_unit]
  exact Iff.rfl

/-- The row blocks tile the result: row r lies in the block of point r / 4000. -/
theorem cover (i : S100000x128.Idx) : ∃ t : Fin cfg8.N, (cfg8.win 2).flush t = true ∧ i ∈ ((cfg8.win 2).blk t).view.set := by
  have hi0 : (i 0).val < 100000 := (i 0).isLt
  have hi1 : (i 1).val < 128 := (i 1).isLt
  have hN : cfg8.N = 25 := Gen.N_8
  refine ⟨⟨(i 0).val / 4000, by rw [hN]; omega⟩, Gen.flush8_2 _, ?_⟩
  rw [mem_blk]
  obtain ⟨-, -, -, -, e4, e5⟩ := idx_facts ⟨(i 0).val / 4000, by rw [hN]; omega⟩
  intro a
  match a with
  | ⟨0, _⟩ =>
    show win8_2.index _ (0 : Fin 2) * 4000 ≤ (i 0).val ∧ (i 0).val < win8_2.index _ (0 : Fin 2) * 4000 + 4000
    rw [e4]; show (i 0).val / 4000 * 4000 ≤ (i 0).val ∧ (i 0).val < (i 0).val / 4000 * 4000 + 4000; omega
  | ⟨1, _⟩ =>
    show win8_2.index _ (1 : Fin 2) * 128 ≤ (i 1).val ∧ (i 1).val < win8_2.index _ (1 : Fin 2) * 128 + 128
    rw [e5]; omega

/-- After all 25 points the result array is the matrix product of the two input arrays. -/
theorem final (c : Dev nD) :
    (Gen.dat8 (F := Ideal) V c).arrAt 2 cfg8.N = GraphSpec.mm 100000 64 128 (V c main_v130) (V c main_arg15) :=
  (Gen.dat8 (F := Ideal) V c).arrAt_eq_of_cover 2 _ (fun t _ => flushed_eq V c t) cover

end Cert.KernelIdeal.Mat8

end
-- ==== Proof.R8.lean ====
/-
  Boundary 18: the buffer contents after the ninth tiled region, at the buffers later segments read.

  The region replaces its output array by what its grid points wrote back — the matrix product of its two input arrays as the region found them — and
  leaves every other buffer as it was. The inputs were named at the previous boundary by stages of the argument arrays;
  the product of those stages is the reference's stage for this buffer.
-/
import proofs.«130242_j57475252355428_1_alg».proof.Proof.H8
import proofs.«130242_j57475252355428_1_alg».proof.Proof.Mat8
import proofs.«130242_j57475252355428_1_alg».proof.Proof.BridgeMM
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem at18_v217 (c : Dev nD) : W18 m ρ c (Proc.devRef .tc main_v217) = (Cert.ReferenceIdeal.Read.val_main_v292 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) :=
  (W18_of_ne m ρ c main_v217 (by decide)).trans (at17_v217 m ρ c)

theorem at18_v229 (c : Dev nD) : W18 m ρ c (Proc.devRef .tc main_v229) = (Cert.ReferenceIdeal.Read.val_main_v255 (F := Ideal) (m ((c : Thread nD τ).loc main_arg1)) (m ((c : Thread nD τ).loc main_arg4)) (m ((c : Thread nD τ).loc main_arg9)) (m ((c : Thread nD τ).loc main_arg10)) (m ((c : Thread nD τ).loc main_arg15))) :=
  (W18_arr m ρ c 2).trans <| (Cert.KernelIdeal.Mat8.final (V17 m ρ) c).trans <| by
    rw [show V17 m ρ c main_v130 = _ from at17_v130 m ρ c,
      show V17 m ρ c main_arg15 = _ from at17_arg15 m ρ c]
    exact Cert.Bridge.mm_v255 _ _ _ _ _

theorem at18_arg16 (c : Dev nD) : W18 m ρ c (Proc.devRef .tc main_arg16) = m ((c : Thread nD τ).loc main_arg16) :=
  (W18_of_ne m ρ c main_arg16 (by decide)).trans (at17_arg16 m ρ c)

theorem at18_v228 (c : Dev nD) : W18 m ρ c (Proc.devRef .tc main_v228) = (Cert.ReferenceIdeal.Read.val_main_v254 (F := Ideal) (m ((c : Thread nD τ).loc main_arg4))) :=
  (W18_of_ne m ρ c main_v228 (by decide)).trans (at17_v228 m ρ c)

theorem at18_v221 (c : Dev nD) : W18 m ρ c (Proc.devRef .tc main_v221) = (Cert.ReferenceIdeal.Read.val_main_v247 (F := Ideal) (m ((c : Thread nD τ).loc main_arg4))) :=
  (W18_of_ne m ρ c main_v221 (by decide)).trans (at17_v221 m ρ c)

theorem at18_v219 (c : Dev nD) : W18 m ρ c (Proc.devRef .tc main_v219) = (Cert.ReferenceIdeal.Read.val_main_v245 (F := Ideal) (m ((c : Thread nD τ).loc main_arg4))) :=
  (W18_of_ne m ρ c main_v219 (by decide)).trans (at17_v219 m ρ c)

end Cert.KernelIdeal.Flow

end
-- ==== Proof.H9.lean ====
/-
  Boundary 19: the buffer contents after the tenth stretch of host operations, at the buffers later segments read.

  A buffer the stretch does not write keeps what it held before the stretch. A buffer the stretch writes holds the
  stretch's operations applied, in order, to what the stretch read; written out, that term is the reference program's
  stage of the same name-free shape (the same slices, broadcasts, gathers, scatter-adds and products of the same
  arguments), so each fact names the contents by that stage of the argument arrays.
-/
import proofs.«130242_j57475252355428_1_alg».proof.Proof.R8
import proofs.«130242_j57475252355428_1_alg».proof.Proof.RefStages
import Idealize.ShloMosaic.Lib.StableHlo.Run
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The buffers this stretch writes. -/
def written9 : List (Ref sig .tc) := [main_c_51, main_v230, main_v231, main_c_52, main_v232, main_v233, main_v234, main_v235, main_v236, main_c_53, main_v237, main_v238, main_c_54, main_v239, main_v240, main_v241, main_v242, main_v243, main_v244, main_v245, main_c_55, main_v246, main_v247, main_c_56, main_v248, main_v249, main_v250, main_v251, main_v252, main_v253, main_v254, main_cst_57, main_v255, main_v256, main_v257, main_v258, main_v259, main_v260]

/-- A buffer the stretch does not write is left as it was. -/
theorem pass9 (V : Valuation τ sig (Elt Ideal)) (b : Ref sig .tc) (h : ∀ x ∈ written9, b ≠ x) :
    StableHlo.after hostOps9 V (Proc.devRef .tc b) = V (Proc.devRef .tc b) :=
  StableHlo.after_of_forall_not_mem (b := Proc.devRef .tc b) _ _ (List.forall_iff_forall_mem.mp (by
    simp only [hostOps9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (h _ (by decide))))

theorem at19_v217 (c : Dev nD) : W19 m ρ c (Proc.devRef .tc main_v217) = (Cert.ReferenceIdeal.Read.val_main_v292 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) := (pass9 (W18 m ρ c) main_v217 (by decide)).trans (at18_v217 m ρ c)

theorem at19_v257 (c : Dev nD) : W19 m ρ c (Proc.devRef .tc main_v257) = (Cert.ReferenceIdeal.Read.val_main_v283 (F := Ideal) (m ((c : Thread nD τ).loc main_arg1)) (m ((c : Thread nD τ).loc main_arg4)) (m ((c : Thread nD τ).loc main_arg9)) (m ((c : Thread nD τ).loc main_arg10)) (m ((c : Thread nD τ).loc main_arg15))) := by
  show StableHlo.after hostOps9 (W18 m ρ c) (Proc.devRef .tc main_v257) = _
  after_results_simp
  all_goals try simp only [at18_v221 m ρ c, at18_v228 m ρ c, at18_v219 m ρ c, at18_v229 m ρ c]
  all_goals rfl

theorem at19_v229 (c : Dev nD) : W19 m ρ c (Proc.devRef .tc main_v229) = (Cert.ReferenceIdeal.Read.val_main_v255 (F := Ideal) (m ((c : Thread nD τ).loc main_arg1)) (m ((c : Thread nD τ).loc main_arg4)) (m ((c : Thread nD τ).loc main_arg9)) (m ((c : Thread nD τ).loc main_arg10)) (m ((c : Thread nD τ).loc main_arg15))) := (pass9 (W18 m ρ c) main_v229 (by decide)).trans (at18_v229 m ρ c)

theorem at19_v259 (c : Dev nD) : W19 m ρ c (Proc.devRef .tc main_v259) = (Cert.ReferenceIdeal.Read.val_main_v285 (F := Ideal) (m ((c : Thread nD τ).loc main_arg4))) := by
  show StableHlo.after hostOps9 (W18 m ρ c) (Proc.devRef .tc main_v259) = _
  after_results_simp
  all_goals try simp only [at18_v228 m ρ c]
  all_goals rfl

theorem at19_v260 (c : Dev nD) : W19 m ρ c (Proc.devRef .tc main_v260) = (shapeCast S1x128 (m ((c : Thread nD τ).loc main_arg16)) shapeCasts_S128_S1x128 : (⟨S1x128, .f32⟩ : BufTy).Contents (Elt Ideal)) := by
  show StableHlo.after hostOps9 (W18 m ρ c) (Proc.devRef .tc main_v260) = _
  after_results_simp
  all_goals try simp only [at18_arg16 m ρ c]
  all_goals rfl

end Cert.KernelIdeal.Flow

end
-- ==== Proof.Comb9.lean ====
/-
  The one-edge-type epilogue at 128 columns (region 9 of the kernel program): after its 25 grid points the output
  array is `GraphSpec.comb1` of the four input arrays, entry by entry
      out[r, c] = max (a[r, c] + d[r, 0] · x[r, c] + b[0, c], 0).

  The region walks the 100000 rows in 25 blocks of 4000 rows, the feature axis whole. At grid point t the body reads
  rows 4000·t … 4000·t + 3999 of a, x and the column d, and the whole bias row b, and writes the same rows of the output.
  So three things are shown:
    * the body's arithmetic at one entry (p, q) of a block is max (a + d·x + b, 0) of the block entries
      (`pay_apply`): the shape casts are identities, the column d is broadcast along the row, the row b down the rows;
    * entry (p, q) of block t of every row-blocked window is entry (4000·t + p, q) of its array, and the bias block is
      the bias row itself; hence what point t writes back is block t of the whole-array function (`flushed_eq`);
    * the 25 blocks tile the array: row r lies in block r / 4000 (`cover`).
  Together: the array after the last point is that function (`final`).
-/
import proofs.«130242_j57475252355428_1_alg».proof.Proof.Gen.KernelIdeal.Frame
import proofs.«130242_j57475252355428_1_alg».proof.Proof.GraphSpec
import proofs.«130242_j57475252355428_1_alg».proof.Proof.LibBroadcastRowCol
import Idealize.ShloMosaic.Lib.Pipeline.Value
import Idealize.ShloMosaic.Lib.ValueLayout

set_option maxRecDepth 16384

noncomputable section

namespace Cert.KernelIdeal.Comb9

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-block access, spelt as a constant function. -/
theorem hz : (![0, 0] : Fin 2 → Nat) = fun _ => 0 := funext fun a => by fin_cases a <;> rfl

/-- THE BODY AT ONE ENTRY: max (a + d·x + b, 0), the column `d` read at the entry's row, the bias row `b` at its column. -/
theorem pay_apply (x0 : Vec Ideal S4000x128 .f32) (x2 : Vec Ideal S4000x1 .f32) (x1 : Vec Ideal S4000x128 .f32)
    (x3 : Vec Ideal S1x128 .f32) (p : Fin 4000) (q : Fin 128) :
    Gen.k9_pay1 x0 x2 x1 x3 (ix2 p q)
      = max (x0 (ix2 p q) + x2 (ix2 p (0 : Fin 1)) * x1 (ix2 p q) + x3 (ix2 (0 : Fin 1) q)) (Ideal.ofBits .f32 0x00000000#32) := by
  unfold Gen.k9_pay1
  simp only [shapeCast_self]
  rw [maximumf_apply, addf_apply, addf_apply, mulf_apply, broadcast_apply, broadcastTo_a1_ab_apply, broadcastTo_1b_ab_apply]
  rfl

/-- The body at entry (p, q) of a block is the whole-array function at entry (r, q), as soon as the four blocks hold
    there what the four arrays hold at row `r` (the bias at its only row). -/
theorem point_eq (x0 : Vec Ideal S4000x128 .f32) (x2 : Vec Ideal S4000x1 .f32) (x1 : Vec Ideal S4000x128 .f32)
    (x3 : Vec Ideal S1x128 .f32) (a x : GraphSpec.Arr2 100000 128) (d : GraphSpec.Arr2 100000 1) (b : GraphSpec.Arr2 1 128)
    (p : Fin 4000) (q : Fin 128) (r : Fin 100000)
    (h0 : x0 (ix2 p q) = a (ix2 r q)) (h1 : x1 (ix2 p q) = x (ix2 r q))
    (h2 : x2 (ix2 p (0 : Fin 1)) = d (ix2 r (0 : Fin 1))) (h3 : x3 (ix2 (0 : Fin 1) q) = b (ix2 (0 : Fin 1) q)) :
    Gen.k9_pay1 x0 x2 x1 x3 (ix2 p q) = GraphSpec.comb1 100000 128 a x d b (ix2 r q) := by
  rw [pay_apply, h0, h1, h2, h3]
  rfl

/-- The printed index maps, decided over the 25 grid points: every row-blocked window is at block (t, 0), the bias row at
    block (0, 0). -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = t.val ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

/-- WHAT POINT `t` WRITES BACK is block `t` of the whole-array function of the arrays as the region finds them. -/
theorem flushed_eq (c : Dev nD) (t : Fin cfg9.N) :
    (Gen.dat9 (F := Ideal) V c).flushed 4 t
      = ((cfg9.win 4).blk t).view.read (Elt Ideal)
          (GraphSpec.comb1 100000 128 (V c main_v257) (V c main_v229) (V c main_v259) (V c main_v260)) := by
  show (cfg9.win 4).cut (grid9.coords t) ((Gen.dat9 V c).after 4 t) = _
  rw [Gen.after9_4]
  unfold Gen.out9_4
  rw [View.canon_unit_zero hz]
  simp only [View.ld_unit_zero (S := S4000x128) hz, View.ld_unit_zero (S := S4000x1) hz, View.ld_unit_zero (S := S1x128) hz]
  obtain ⟨e00, e01, e10, e11, e20, e21, e30, e31, eo0, eo1⟩ := idx_facts t
  have hN : cfg9.N = 25 := Gen.N_9
  have ht : t.val < 25 := lt_of_lt_of_eq t.isLt hN
  funext j
  have hj0 : (j 0).val < 4000 := (j 0).isLt
  have hj1 : (j 1).val < 128 := (j 1).isLt
  have e1 : (cfg9.win 4).xinj (grid9.coords t) j = ix2 (⟨(j 0).val, hj0⟩ : Fin 4000) (⟨(j 1).val, hj1⟩ : Fin 128) :=
    funext fun a => by match a with | ⟨0, _⟩ => rfl | ⟨1, _⟩ => rfl
  have e2 : ((cfg9.win 4).blk t).view.emb j
      = ix2 (⟨t.val * 4000 + (j 0).val, by omega⟩ : Fin 100000) (⟨(j 1).val, hj1⟩ : Fin 128) :=
    funext fun a => Fin.ext (by
      match a with
      | ⟨0, _⟩ => show win9_4.index t (0 : Fin 2) * 4000 + 1 * (j 0).val = t.val * 4000 + (j 0).val; omega
      | ⟨1, _⟩ => show win9_4.index t (1 : Fin 2) * 128 + 1 * (j 1).val = (j 1).val; omega)
  show Gen.k9_pay1 (Gen.iblk9 V c 0 t) (Gen.iblk9 V c 2 t) (Gen.iblk9 V c 1 t) (Gen.iblk9 V c 3 t)
      ((cfg9.win 4).xinj (grid9.coords t) j)
    = GraphSpec.comb1 100000 128 (V c main_v257) (V c main_v229) (V c main_v259) (V c main_v260) (((cfg9.win 4).blk t).view.emb j)
  rw [e1, e2]
  refine point_eq _ _ _ _ _ _ _ _ _ _ _ ?_ ?_ ?_ ?_
  · show V c main_v257 (((cfg9.win 0).blk t).view.emb (ix2 (⟨(j 0).val, hj0⟩ : Fin 4000) (⟨(j 1).val, hj1⟩ : Fin 128))) = V c main_v257 _
    refine congrArg (V c main_v257) (funext fun a => Fin.ext ?_)
    match a with
    | ⟨0, _⟩ => show win9_0.index t (0 : Fin 2) * 4000 + 1 * (j 0).val = t.val * 4000 + (j 0).val; omega
    | ⟨1, _⟩ => show win9_0.index t (1 : Fin 2) * 128 + 1 * (j 1).val = (j 1).val; omega
  · show V c main_v229 (((cfg9.win 1).blk t).view.emb (ix2 (⟨(j 0).val, hj0⟩ : Fin 4000) (⟨(j 1).val, hj1⟩ : Fin 128))) = V c main_v229 _
    refine congrArg (V c main_v229) (funext fun a => Fin.ext ?_)
    match a with
    | ⟨0, _⟩ => show win9_1.index t (0 : Fin 2) * 4000 + 1 * (j 0).val = t.val * 4000 + (j 0).val; omega
    | ⟨1, _⟩ => show win9_1.index t (1 : Fin 2) * 128 + 1 * (j 1).val = (j 1).val; omega
  · show V c main_v259 (((cfg9.win 2).blk t).view.emb (ix2 (⟨(j 0).val, hj0⟩ : Fin 4000) (0 : Fin 1))) = V c main_v259 _
    refine congrArg (V c main_v259) (funext fun a => Fin.ext ?_)
    match a with
    | ⟨0, _⟩ => show win9_2.index t (0 : Fin 2) * 4000 + 1 * (j 0).val = t.val * 4000 + (j 0).val; omega
    | ⟨1, _⟩ => show win9_2.index t (1 : Fin 2) * 1 + 1 * 0 = 0; omega
  · show V c main_v260 (((cfg9.win 3).blk t).view.emb (ix2 (0 : Fin 1) (⟨(j 1).val, hj1⟩ : Fin 128))) = V c main_v260 _
    refine congrArg (V c main_v260) (funext fun a => Fin.ext ?_)
    match a with
    | ⟨0, _⟩ => show win9_3.index t (0 : Fin 2) * 1 + 1 * 0 = 0; omega
    | ⟨1, _⟩ => show win9_3.index t (1 : Fin 2) * 128 + 1 * (j 1).val = (j 1).val; omega

/-- An index of the array is in point `t`'s block iff each coordinate is in the block's range on its axis. -/
theorem mem_blk (t : Fin cfg9.N) (i : S100000x128.Idx) :
    i ∈ ((cfg9.win 4).blk t).view.set
      ↔ ∀ a : Fin 2, win9_4.index t a * S4000x128.size a ≤ (i a).val
          ∧ (i a).val < win9_4.index t a * S4000x128.size a + S4000x128.size a := by
  show i ∈ ((View.whole main_v261).slice (win9_4.rect t)).set ↔ _
  rw [View.set_slice_whole, Rect.mem_set_unit]
  exact Iff.rfl

/-- THE BLOCKS TILE THE ARRAY: row `r` lies in the block of point `r / 4000`. -/
theorem cover (i : S100000x128.Idx) :
    ∃ t : Fin cfg9.N, (cfg9.win 4).flush t = true ∧ i ∈ ((cfg9.win 4).blk t).view.set := by
  have hi0 : (i 0).val < 100000 := (i 0).isLt
  have hi1 : (i 1).val < 128 := (i 1).isLt
  have hlt : (i 0).val / 4000 < cfg9.N := by rw [show cfg9.N = 25 from Gen.N_9]; omega
  obtain ⟨t, ht⟩ : ∃ t : Fin cfg9.N, t.val = (i 0).val / 4000 := ⟨⟨_, hlt⟩, rfl⟩
  obtain ⟨-, -, -, -, -, -, -, -, eo0, eo1⟩ := idx_facts t
  refine ⟨t, Gen.flush9_4 t, ?_⟩
  rw [mem_blk]
  intro a
  match a with
  | ⟨0, _⟩ =>
    show win9_4.index t (0 : Fin 2) * 4000 ≤ (i 0).val ∧ (i 0).val < win9_4.index t (0 : Fin 2) * 4000 + 4000
    omega
  | ⟨1, _⟩ =>
    show win9_4.index t (1 : Fin 2) * 128 ≤ (i 1).val ∧ (i 1).val < win9_4.index t (1 : Fin 2) * 128 + 128
    omega

/-- THE ARRAY after the region: the whole-array function of the four input arrays as the region finds them. -/
theorem final (c : Dev nD) :
    (Gen.dat9 (F := Ideal) V c).arrAt 4 cfg9.N
      = GraphSpec.comb1 100000 128 (V c main_v257) (V c main_v229) (V c main_v259) (V c main_v260) :=
  (Gen.dat9 V c).arrAt_eq_of_cover 4 _ (fun t _ => flushed_eq V c t) cover

end Cert.KernelIdeal.Comb9

end
-- ==== Proof.R9.lean ====
/-
  Boundary 20: the buffer contents after the tenth tiled region, at the buffers later segments read.

  The region replaces its output array by what its grid points wrote back — the fused epilogue (self-loop term, bias, sum over edge types, max with 0) of its input arrays as the region found them — and
  leaves every other buffer as it was. The inputs were named at the previous boundary by stages of the argument arrays;
  the product form of those stages is the reference's stage for this buffer.
-/
import proofs.«130242_j57475252355428_1_alg».proof.Proof.H9
import proofs.«130242_j57475252355428_1_alg».proof.Proof.Comb9
import proofs.«130242_j57475252355428_1_alg».proof.Proof.BridgeComb
import Idealize.ShloMosaic.PureOps.Ideal

set_option maxRecDepth 16384

noncomputable section

namespace Cert.KernelIdeal.Flow

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem at20_v217 (c : Dev nD) : W20 m ρ c (Proc.devRef .tc main_v217) = (Cert.ReferenceIdeal.Read.val_main_v292 (F := Ideal) (m ((c : Thread nD τ).loc main_arg0)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg8)) (m ((c : Thread nD τ).loc main_arg11)) (m ((c : Thread nD τ).loc main_arg12)) (m ((c : Thread nD τ).loc main_arg13)) (m ((c : Thread nD τ).loc main_arg14))) :=
  (W20_of_ne m ρ c main_v217 (by decide)).trans (at19_v217 m ρ c)

theorem at20_v261 (c : Dev nD) : W20 m ρ c (Proc.devRef .tc main_v261) = (Cert.ReferenceIdeal.Read.val_main_v293 (F := Ideal) (m ((c : Thread nD τ).loc main_arg1)) (m ((c : Thread nD τ).loc main_arg4)) (m ((c : Thread nD τ).loc main_arg9)) (m ((c : Thread nD τ).loc main_arg10)) (m ((c : Thread nD τ).loc main_arg15)) (m ((c : Thread nD τ).loc main_arg16))) :=
  (W20_arr m ρ c 4).trans <| (Cert.KernelIdeal.Comb9.final (V19 m ρ) c).trans <| by
    rw [show V19 m ρ c main_v257 = _ from at19_v257 m ρ c,
      show V19 m ρ c main_v229 = _ from at19_v229 m ρ c,
      show V19 m ρ c main_v259 = _ from at19_v259 m ρ c,
      show V19 m ρ c main_v260 = _ from at19_v260 m ρ c]
    exact Cert.Bridge.comb_v293 _ _ _ _ _ _

end Cert.KernelIdeal.Flow

end
-- ==== Proof.lean ====
/-
  The certificate: a two-layer graph convolution network over two node types (papers, authors) and three edge types,
  as a program of ten tiled regions among host gathers and scatter-adds, against its plain reference.

  Per edge type and layer the network computes xw = x·W, the degree-normalised messages gathered along the edges and
  scatter-added into their targets, the self-loop term dinv²·xw and a bias; a node type sums its edge types and applies
  max(·, 0). The tiled program computes each x·W in a region blocked over rows, leaves the gathers and scatter-adds to
  the same host operations as the reference, and fuses "self-loop term + bias + sum over edge types + max" in one
  region per node type and layer. On the extended reals the two programs agree entry by entry:

  * a row block of a matrix product is the matrix product's rows (the blocks tile the rows; rounding the operands to a
    shorter float format is the identity on exact values);
  * the host operations between the regions are, operation for operation, those of the reference, applied to equal
    operands;
  * the fused epilogue adds the same extended reals as the reference in another order and bracketing, and addition of
    extended reals is commutative and associative — so the precondition (finite inputs) is never opened.

  The frames are the generated ones; the reference's frame is its generated run with the results dropped; the program
  was idealized with no rewrite, so nothing is owed for that conjunct.
-/
import proofs.«130242_j57475252355428_1_alg».proof.Defs
import proofs.«130242_j57475252355428_1_alg».proof.Proof.Gen.Kernel
import proofs.«130242_j57475252355428_1_alg».proof.Proof.Gen.Kernel.Frame
import proofs.«130242_j57475252355428_1_alg».proof.Proof.Gen.KernelIdeal
import proofs.«130242_j57475252355428_1_alg».proof.Proof.Gen.KernelIdeal.Frame
import proofs.«130242_j57475252355428_1_alg».proof.Proof.Gen.ReferenceIdeal
import proofs.«130242_j57475252355428_1_alg».proof.Proof.RefRunPatched
import proofs.«130242_j57475252355428_1_alg».proof.Proof.RefReadPatched
import proofs.«130242_j57475252355428_1_alg».proof.Proof.Gen.Pre_finite_inputs
import proofs.«130242_j57475252355428_1_alg».proof.Proof.RunFull
import proofs.«130242_j57475252355428_1_alg».proof.Proof.R9
import Idealize.ShloMosaic.Adequacy
import Idealize.ShloMosaic.Init

set_option maxRecDepth 16384

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame: its run, with what it says of the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- Both programs end with the paper-node result at the reference's last paper stage of the (common) arguments and
    the author-node result at its last author stage: the tiled program by the sweep through its twenty segments, the
    reference by its run. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v292 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    fun c => Cert.ReferenceIdeal.Read.val_main_v293 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Flow.at20_v217 m ρ c), (h c).2.1.trans (Cert.KernelIdeal.Flow.at20_v261 m ρ c), (h c).2.2⟩)
      (Cert.KernelIdeal.RunFull.run (F := Ideal) m ρ)
  · refine (θ_run Cert.ReferenceIdeal.defs _ _).mono (fun r h c => ?_) (Cert.ReferenceIdeal.Value.run (F := Ideal) m' ρ')
    obtain ⟨h0, h1, h2, h3, h4, h5, h6, h7, h8, h9, h10, h11, h12, h13, h14, h15, h16⟩ := hagree c
    refine ⟨?_, ?_, (h c).2.2⟩
    · rw [(h c).1, Cert.ReferenceIdeal.Read.val_main_v292_eq, h0, h2, h3, h5, h6, h7, h8, h11, h12, h13, h14]
    · rw [(h c).2.1, Cert.ReferenceIdeal.Read.val_main_v293_eq, h1, h4, h9, h10, h15, h16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
